-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v69)) (v5 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v69) = v4 c
          ∧ r.2.mem ((c.tc : Thread Cert.KernelIdeal.nD Cert.KernelIdeal.τ).loc Cert.KernelIdeal.main_v70) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v85) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x20 : Shape := ⟨2, ![64, 20]⟩
abbrev S64x200x2048 : Shape := ⟨3, ![64, 200, 2048]⟩
abbrev S64x2048x20 : Shape := ⟨3, ![64, 2048, 20]⟩
abbrev S_ : Shape := ⟨0, ![]⟩

class Facts : Prop where
  bcast_S_S64x20 : S_.BroadcastsInDim S64x20 (![] : Fin 0 → Fin S64x20.rank)
  reducesTo_S64x20_S_d0_1 : S64x20.ReducesTo [0, 1] S_
  h_S_ : 0 < S_.numel
  bcast_S_S64x200x2048 : S_.BroadcastsInDim S64x200x2048 (![] : Fin 0 → Fin S64x200x2048.rank)
  reducesTo_S64x200x2048_S_d0_1_2 : S64x200x2048.ReducesTo [0, 1, 2] S_
  bcast_S_S64x2048x20 : S_.BroadcastsInDim S64x2048x20 (![] : Fin 0 → Fin S64x2048x20.rank)
  reducesTo_S64x2048x20_S_d0_1_2 : S64x2048x20.ReducesTo [0, 1, 2] S_

variable [Facts]

def fn_part1 {F : FTy → Type} [FloatOps F] (main_arg4 : FVec F S64x20 .f32) (main_arg5 : FVec F S64x2048x20 .f32) (main_arg6 : FVec F S64x2048x20 .f32) (main_v13 : IVec S_ 1) (main_v16 : IVec S64x200x2048 1) : IVec S_ 1 :=
  let main_c_5 : IVec S_ 1 := constantI S_ 1 1#1
  let main_v17 : IVec S_ 1 := (fun x v => Host.reduce IntOp.andi x v reducesTo_S64x200x2048_S_d0_1_2 h_S_) main_v16 main_c_5
  let main_v18 : IVec S_ 1 := andi main_v13 main_v17
  let main_v19 : FVec F S64x20 .f32 := Host.absf main_arg4
  let main_cst_6 : FVec F S_ .f32 := constant S_ .f32 0x7F800000#32
  let main_v20 : FVec F S64x20 .f32 := broadcastInDim S64x20 ![] bcast_S_S64x20 main_cst_6
  let main_v21 : IVec S64x20 1 := cmpf .olt main_v19 main_v20
  let main_c_7 : IVec S_ 1 := constantI S_ 1 1#1
  let main_v22 : IVec S_ 1 := (fun x v => Host.reduce IntOp.andi x v reducesTo_S64x20_S_d0_1 h_S_) main_v21 main_c_7
  let main_v23 : IVec S_ 1 := andi main_v18 main_v22
  let main_v24 : FVec F S64x2048x20 .f32 := Host.absf main_arg5
  let main_cst_8 : FVec F S_ .f32 := constant S_ .f32 0x7F800000#32
  let main_v25 : FVec F S64x2048x20 .f32 := broadcastInDim S64x2048x20 ![] bcast_S_S64x2048x20 main_cst_8
  let main_v26 : IVec S64x2048x20 1 := cmpf .olt main_v24 main_v25
  let main_c_9 : IVec S_ 1 := constantI S_ 1 1#1
  let main_v27 : IVec S_ 1 := (fun x v => Host.reduce IntOp.andi x v reducesTo_S64x2048x20_S_d0_1_2 h_S_) main_v26 main_c_9
  let main_v28 : IVec S_ 1 := andi main_v23 main_v27
  let main_v29 : FVec F S64x2048x20 .f32 := Host.absf main_arg6
  let main_cst_10 : FVec F S_ .f32 := constant S_ .f32 0x7F800000#32
  let main_v30 : FVec F S64x2048x20 .f32 := broadcastInDim S64x2048x20 ![] bcast_S_S64x2048x20 main_cst_10
  let main_v31 : IVec S64x2048x20 1 := cmpf .olt main_v29 main_v30
  let main_c_11 : IVec S_ 1 := constantI S_ 1 1#1
  let main_v32 : IVec S_ 1 := (fun x v => Host.reduce IntOp.andi x v reducesTo_S64x2048x20_S_d0_1_2 h_S_) main_v31 main_c_11
  let main_v33 : IVec S_ 1 := andi main_v28 main_v32
  main_v33

def fn {F : FTy → Type} [FloatOps F] (main_arg0 : FVec F S64x20 .f32) (main_arg1 : FVec F S64x20 .f32) (main_arg2 : FVec F S64x200x2048 .f32) (main_arg3 : FVec F S64x200x2048 .f32) (main_arg4 : FVec F S64x20 .f32) (main_arg5 : FVec F S64x2048x20 .f32) (main_arg6 : FVec F S64x2048x20 .f32) : IVec S_ 1 :=
  let main_v0 : FVec F S64x20 .f32 := Host.absf main_arg0
  let main_cst : FVec F S_ .f32 := constant S_ .f32 0x7F800000#32
  let main_v1 : FVec F S64x20 .f32 := broadcastInDim S64x20 ![] bcast_S_S64x20 main_cst
  let main_v2 : IVec S64x20 1 := cmpf .olt main_v0 main_v1
  let main_c : IVec S_ 1 := constantI S_ 1 1#1
  let main_v3 : IVec S_ 1 := (fun x v => Host.reduce IntOp.andi x v reducesTo_S64x20_S_d0_1 h_S_) main_v2 main_c
  let main_v4 : FVec F S64x20 .f32 := Host.absf main_arg1
  let main_cst_0 : FVec F S_ .f32 := constant S_ .f32 0x7F800000#32
  let main_v5 : FVec F S64x20 .f32 := broadcastInDim S64x20 ![] bcast_S_S64x20 main_cst_0
  let main_v6 : IVec S64x20 1 := cmpf .olt main_v4 main_v5
  let main_c_1 : IVec S_ 1 := constantI S_ 1 1#1
  let main_v7 : IVec S_ 1 := (fun x v => Host.reduce IntOp.andi x v reducesTo_S64x20_S_d0_1 h_S_) main_v6 main_c_1
  let main_v8 : IVec S_ 1 := andi main_v3 main_v7
  let main_v9 : FVec F S64x200x2048 .f32 := Host.absf main_arg2
  let main_cst_2 : FVec F S_ .f32 := constant S_ .f32 0x7F800000#32
  let main_v10 : FVec F S64x200x2048 .f32 := broadcastInDim S64x200x2048 ![] bcast_S_S64x200x2048 main_cst_2
  let main_v11 : IVec S64x200x2048 1 := cmpf .olt main_v9 main_v10
  let main_c_3 : IVec S_ 1 := constantI S_ 1 1#1
  let main_v12 : IVec S_ 1 := (fun x v => Host.reduce IntOp.andi x v reducesTo_S64x200x2048_S_d0_1_2 h_S_) main_v11 main_c_3
  let main_v13 : IVec S_ 1 := andi main_v8 main_v12
  let main_v14 : FVec F S64x200x2048 .f32 := Host.absf main_arg3
  let main_cst_4 : FVec F S_ .f32 := constant S_ .f32 0x7F800000#32
  let main_v15 : FVec F S64x200x2048 .f32 := broadcastInDim S64x200x2048 ![] bcast_S_S64x200x2048 main_cst_4
  let main_v16 : IVec S64x200x2048 1 := cmpf .olt main_v14 main_v15
  fn_part1 (F := F) main_arg4 main_arg5 main_arg6 main_v13 main_v16
-- ==== Kernel.lean ====
abbrev S64x20 : Shape := ⟨2, ![64, 20]⟩
abbrev S64x200x2048 : Shape := ⟨3, ![64, 200, 2048]⟩
abbrev S64x2048x20 : Shape := ⟨3, ![64, 2048, 20]⟩
abbrev S64x2048 : Shape := ⟨2, ![64, 2048]⟩
abbrev S8x200x1024 : Shape := ⟨3, ![8, 200, 1024]⟩
abbrev S8x1024 : Shape := ⟨2, ![8, 1024]⟩
abbrev S_ : Shape := ⟨0, ![]⟩
abbrev S64 : Shape := ⟨1, ![64]⟩
abbrev S64x1 : Shape := ⟨2, ![64, 1]⟩
abbrev S8x512x20 : Shape := ⟨3, ![8, 512, 20]⟩
abbrev S8x20 : Shape := ⟨2, ![8, 20]⟩

abbrev nBuf : Space → Nat
  | .hbm => 137
  | .vmem => 18
  | .smem => 0
  | _ => 0

abbrev hbmTy0_0 (i : Nat) : BufTy := match i % 128 with
  | 0 => ⟨S64x20, .f32⟩
  | 1 => ⟨S64x20, .f32⟩
  | 2 => ⟨S64x200x2048, .f32⟩
  | 3 => ⟨S64x200x2048, .f32⟩
  | 4 => ⟨S64x20, .f32⟩
  | 5 => ⟨S64x2048x20, .f32⟩
  | 6 => ⟨S64x2048x20, .f32⟩
  | 7 => ⟨S64x2048, .f32⟩
  | 8 => ⟨S64x2048, .f32⟩
  | 9 => ⟨S_, .f32⟩
  | 10 => ⟨S64x2048, .f32⟩
  | 11 => ⟨S64x2048, .f32⟩
  | 12 => ⟨S_, .f32⟩
  | 13 => ⟨S64x2048, .f32⟩
  | 14 => ⟨S64x2048, .f32⟩
  | 15 => ⟨S64x2048, .f32⟩
  | 16 => ⟨S_, .f32⟩
  | 17 => ⟨S64, .f32⟩
  | 18 => ⟨S64, .f32⟩
  | 19 => ⟨S64x2048, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S64, .f32⟩
  | 30 => ⟨S64, .f32⟩
  | 31 => ⟨S_, .f32⟩
  | 32 => ⟨S_, .f32⟩
  | 33 => ⟨S_, .f32⟩
  | 34 => ⟨S_, .f32⟩
  | 35 => ⟨S_, .f32⟩
  | 36 => ⟨S64, .f32⟩
  | 37 => ⟨S64x1, .f32⟩
  | 38 => ⟨S64x20, .f32⟩
  | 39 => ⟨S64x20, .f32⟩
  | 40 => ⟨S64x20, .f32⟩
  | 41 => ⟨S_, .f32⟩
  | 42 => ⟨S_, .f32⟩
  | 43 => ⟨S64x20, .f32⟩
  | 44 => ⟨S64x20, .f32⟩
  | 45 => ⟨S_, .f32⟩
  | 46 => ⟨S64x20, .f32⟩
  | 47 => ⟨S64x20, .f32⟩
  | 48 => ⟨S64x20, .f32⟩
  | 49 => ⟨S_, .f32⟩
  | 50 => ⟨S_, .f32⟩
  | 51 => ⟨S64x20, .f32⟩
  | 52 => ⟨S64x20, .f32⟩
  | 53 => ⟨S64x20, .f32⟩
  | 54 => ⟨S_, .f32⟩
  | 55 => ⟨S64x20, .f32⟩
  | 56 => ⟨S64x20, .f32⟩
  | 57 => ⟨S64x20, .f32⟩
  | 58 => ⟨S64x20, .f32⟩
  | 59 => ⟨S64x20, .f32⟩
  | 60 => ⟨S_, .f32⟩
  | 61 => ⟨S_, .f32⟩
  | 62 => ⟨S_, .f32⟩
  | 63 => ⟨S_, .f32⟩
  | 64 => ⟨S_, .f32⟩
  | 65 => ⟨S64x20, .f32⟩
  | 66 => ⟨S64x20, .f32⟩
  | 67 => ⟨S_, .f32⟩
  | 68 => ⟨S_, .f32⟩
  | 69 => ⟨S64x20, .f32⟩
  | 70 => ⟨S64x20, .f32⟩
  | 71 => ⟨S_, .f32⟩
  | 72 => ⟨S64x20, .f32⟩
  | 73 => ⟨S64x20, .f32⟩
  | 74 => ⟨S64x20, .f32⟩
  | 75 => ⟨S_, .f32⟩
  | 76 => ⟨S_, .f32⟩
  | 77 => ⟨S64x20, .f32⟩
  | 78 => ⟨S64x20, .f32⟩
  | 79 => ⟨S64x20, .f32⟩
  | 80 => ⟨S_, .f32⟩
  | 81 => ⟨S64x20, .f32⟩
  | 82 => ⟨S64x20, .f32⟩
  | 83 => ⟨S64x20, .f32⟩
  | 84 => ⟨S64x20, .f32⟩
  | 85 => ⟨S64x20, .f32⟩
  | 86 => ⟨S_, .f32⟩
  | 87 => ⟨S_, .f32⟩
  | 88 => ⟨S_, .f32⟩
  | 89 => ⟨S_, .f32⟩
  | 90 => ⟨S64x20, .f32⟩
  | 91 => ⟨S64x20, .f32⟩
  | 92 => ⟨S64x20, .f32⟩
  | 93 => ⟨S_, .f32⟩
  | 94 => ⟨S64x20, .f32⟩
  | 95 => ⟨S64x20, .f32⟩
  | 96 => ⟨S_, .f32⟩
  | 97 => ⟨S64x20, .f32⟩
  | 98 => ⟨S64x20, .f32⟩
  | 99 => ⟨S64x20, .f32⟩
  | 100 => ⟨S_, .f32⟩
  | 101 => ⟨S64x20, .f32⟩
  | 102 => ⟨S64x20, .f32⟩
  | 103 => ⟨S64x20, .f32⟩
  | 104 => ⟨S_, .f32⟩
  | 105 => ⟨S64x20, .f32⟩
  | 106 => ⟨S64x20, .f32⟩
  | 107 => ⟨S64x20, .f32⟩
  | 108 => ⟨S_, .f32⟩
  | 109 => ⟨S64x20, .f32⟩
  | 110 => ⟨S64x20, .i1⟩
  | 111 => ⟨S64x20, .i32⟩
  | 112 => ⟨S_, .i32⟩
  | 113 => ⟨S_, .i32⟩
  | 114 => ⟨S_, .i32⟩
  | 115 => ⟨S_, .i32⟩
  | 116 => ⟨S_, .f32⟩
  | 117 => ⟨S_, .f32⟩
  | 118 => ⟨S64x20, .f32⟩
  | 119 => ⟨S64x20, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x20, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S64x20, .f32⟩

abbrev hbmTy (i : Nat) : BufTy := match i / 128 with
  | 0 => hbmTy0_0 i
  | 1 => hbmTy0_1 i
  | _ => ⟨S64x20, .f32⟩

abbrev bufTy : (tb : Table) → Fin (tcTables nBuf tb) → BufTy
  | .hbm, ⟨i, _⟩ => hbmTy i
  | .local _ .vmem, ⟨0, _⟩ => ⟨S8x200x1024, .f32⟩
  | .local _ .vmem, ⟨1, _⟩ => ⟨S8x200x1024, .f32⟩
  | .local _ .vmem, ⟨2, _⟩ => ⟨S8x200x1024, .f32⟩
  | .local _ .vmem, ⟨3, _⟩ => ⟨S8x200x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x512x20, .f32⟩
  | .local _ .vmem, ⟨9, _⟩ => ⟨S8x512x20, .f32⟩
  | .local _ .vmem, ⟨10, _⟩ => ⟨S8x512x20, .f32⟩
  | .local _ .vmem, ⟨11, _⟩ => ⟨S8x512x20, .f32⟩
  | .local _ .vmem, ⟨12, _⟩ => ⟨S8x20, .f32⟩
  | .local _ .vmem, ⟨13, _⟩ => ⟨S8x20, .f32⟩
  | .local _ .vmem, ⟨14, _⟩ => ⟨S8x20, .f32⟩
  | .local _ .vmem, ⟨15, _⟩ => ⟨S8x20, .f32⟩
  | .local _ .vmem, ⟨16, _⟩ => ⟨S8x20, .f32⟩
  | .local _ .vmem, ⟨17, _⟩ => ⟨S8x20, .f32⟩
  | _, _ => ⟨S64x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v5 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_cst_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_v20 : Ref sig .tc := ⟨.hbm, 44, rfl⟩
abbrev main_cst_7 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_call3_v0 : Ref sig .tc := ⟨.hbm, 50, rfl⟩
abbrev main_call3_v1 : Ref sig .tc := ⟨.hbm, 51, rfl⟩
abbrev main_v24 : Ref sig .tc := ⟨.hbm, 52, rfl⟩
abbrev main_v25 : Ref sig .tc := ⟨.hbm, 53, rfl⟩
abbrev main_cst_9 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_10 : Ref sig .tc := ⟨.hbm, 60, rfl⟩
abbrev main_v31 : Ref sig .tc := ⟨.hbm, 61, rfl⟩
abbrev main_cst_11 : Ref sig .tc := ⟨.hbm, 62, rfl⟩
abbrev main_v32 : Ref sig .tc := ⟨.hbm, 63, rfl⟩
abbrev main_cst_12 : Ref sig .tc := ⟨.hbm, 64, rfl⟩
abbrev main_v33 : Ref sig .tc := ⟨.hbm, 65, rfl⟩
abbrev main_v34 : Ref sig .tc := ⟨.hbm, 66, rfl⟩
abbrev main_cst_13 : Ref sig .tc := ⟨.hbm, 67, rfl⟩
abbrev main_call4_v0 : Ref sig .tc := ⟨.hbm, 68, rfl⟩
abbrev main_call4_v1 : Ref sig .tc := ⟨.hbm, 69, rfl⟩
abbrev main_v35 : Ref sig .tc := ⟨.hbm, 70, rfl⟩
abbrev main_cst_14 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_15 : Ref sig .tc := ⟨.hbm, 75, rfl⟩
abbrev main_call5_v0 : Ref sig .tc := ⟨.hbm, 76, rfl⟩
abbrev main_call5_v1 : Ref sig .tc := ⟨.hbm, 77, rfl⟩
abbrev main_v39 : Ref sig .tc := ⟨.hbm, 78, rfl⟩
abbrev main_v40 : Ref sig .tc := ⟨.hbm, 79, rfl⟩
abbrev main_cst_16 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_17 : Ref sig .tc := ⟨.hbm, 86, rfl⟩
abbrev main_v46 : Ref sig .tc := ⟨.hbm, 87, rfl⟩
abbrev main_cst_18 : Ref sig .tc := ⟨.hbm, 88, rfl⟩
abbrev main_v47 : Ref sig .tc := ⟨.hbm, 89, rfl⟩
abbrev main_v48_0 : Ref sig .tc := ⟨.hbm, 90, rfl⟩
abbrev main_v48_1 : Ref sig .tc := ⟨.hbm, 91, rfl⟩
abbrev main_v48_2 : Ref sig .tc := ⟨.hbm, 92, rfl⟩
abbrev main_cst_19 : Ref sig .tc := ⟨.hbm, 93, rfl⟩
abbrev main_v49 : Ref sig .tc := ⟨.hbm, 94, rfl⟩
abbrev main_v50 : Ref sig .tc := ⟨.hbm, 95, rfl⟩
abbrev main_cst_20 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_21 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_22 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_23 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_c : Ref sig .tc := ⟨.hbm, 112, rfl⟩
abbrev main_v63 : Ref sig .tc := ⟨.hbm, 113, rfl⟩
abbrev main_c_24 : Ref sig .tc := ⟨.hbm, 114, rfl⟩
abbrev main_v64 : Ref sig .tc := ⟨.hbm, 115, rfl⟩
abbrev main_cst_25 : Ref sig .tc := ⟨.hbm, 116, rfl⟩
abbrev main_call6_v0 : Ref sig .tc := ⟨.hbm, 117, rfl⟩
abbrev main_call6_v1 : Ref sig .tc := ⟨.hbm, 118, rfl⟩
abbrev main_v65 : Ref sig .tc := ⟨.hbm, 119, rfl⟩
abbrev main_cst_26 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_27 : Ref sig .tc := ⟨.hbm, 124, rfl⟩
abbrev main_v69 : Ref sig .tc := ⟨.hbm, 125, rfl⟩
abbrev main_cst_28 : Ref sig .tc := ⟨.hbm, 126, rfl⟩
abbrev main_cst_29 : Ref sig .tc := ⟨.hbm, 127, rfl⟩
abbrev main_v70 : Ref sig .tc := ⟨.hbm, 128, rfl⟩
abbrev main_cst_30 : Ref sig .tc := ⟨.hbm, 129, rfl⟩
abbrev main_v71 : Ref sig .tc := ⟨.hbm, 130, rfl⟩
abbrev main_v72 : Ref sig .tc := ⟨.hbm, 131, rfl⟩
abbrev main_cst_31 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x200x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x200x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x512x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x512x20 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x20 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x20 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S8x200x1024_S8x200x1024_0_0_0 : ∀ a, (![0, 0, 0] : Fin 3 → Nat) a + S8x200x1024.size a ≤ S8x200x1024.size a
  h_S8x200x1024 : 0 < S8x200x1024.numel
  reduces_S8x200x1024_S8x1024 : S8x200x1024.Reduces [1] S8x1024
  inb_S8x1024_S8x1024_0_0 : ∀ a, (![0, 0] : Fin 2 → Nat) a + S8x1024.size a ≤ S8x1024.size a
  h_S8x1024 : 0 < S8x1024.numel
  bcast_S_S64x2048 : S_.BroadcastsInDim S64x2048 (![] : Fin 0 → Fin S64x2048.rank)
  reducesTo_S64x2048_S64_d1 : S64x2048.ReducesTo [1] S64
  h_S_ : 0 < S_.numel
  bcast_S_S64 : S_.BroadcastsInDim S64 (![] : Fin 0 → Fin S64.rank)
  reducesTo_S64_S_d0 : S64.ReducesTo [0] S_
  reducesTo_S64x20_S64_d1 : S64x20.ReducesTo [1] S64
  bcast_S64_S64x1_0 : S64.BroadcastsInDim S64x1 (![0] : Fin 1 → Fin S64x1.rank)
  bcast_S64x1_S64x20_0_1 : S64x1.BroadcastsInDim S64x20 (![0, 1] : Fin 2 → Fin S64x20.rank)
  bcast_S_S64x20 : S_.BroadcastsInDim S64x20 (![] : Fin 0 → Fin S64x20.rank)
  reducesTo_S64x20_S_d0_1 : S64x20.ReducesTo [0, 1] S_
  inb_S8x20_S8x20_0_0 : ∀ a, (![0, 0] : Fin 2 → Nat) a + S8x20.size a ≤ S8x20.size a
  h_S8x20 : 0 < S8x20.numel
  inb_S8x512x20_S8x512x20_0_0_0 : ∀ a, (![0, 0, 0] : Fin 3 → Nat) a + S8x512x20.size a ≤ S8x512x20.size a
  h_S8x512x20 : 0 < S8x512x20.numel
  natLt_1_32 : 1 < 32
  shapeCasts_S8x20_S8x20 : S8x20.ShapeCasts S8x20
  reduces_S8x512x20_S8x20 : S8x512x20.Reduces [1] S8x20
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x1024.size a ≤ S64x200x2048.size a
  hwx0_0 : ∀ i : grid0.Coords, EltTy.bits .f32 = 32 ∨ (Rect.block (s := S64x200x2048) S8x200x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x200x1024.size a ≤ S64x200x2048.size a
  hwx0_1 : ∀ i : grid0.Coords, EltTy.bits .f32 = 32 ∨ (Rect.block (s := S64x200x2048) S8x200x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S64x2048.size a
  hwx0_2 : ∀ i : grid0.Coords, EltTy.bits .f32 = 32 ∨ (Rect.block (s := S64x2048) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S64x2048.size a
  hwx0_3 : ∀ i : grid0.Coords, EltTy.bits .f32 = 32 ∨ (Rect.block (s := S64x2048) S8x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x20.size a ≤ S64x2048x20.size a
  hwx1_0 : ∀ i : grid1.Coords, EltTy.bits .f32 = 32 ∨ (Rect.block (s := S64x2048x20) S8x512x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x20.size a ≤ S64x2048x20.size a
  hwx1_1 : ∀ i : grid1.Coords, EltTy.bits .f32 = 32 ∨ (Rect.block (s := S64x2048x20) S8x512x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x20.size a ≤ S64x20.size a
  hwx1_2 : ∀ i : grid1.Coords, EltTy.bits .f32 = 32 ∨ (Rect.block (s := S64x20) S8x20.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x20.size a ≤ S64x20.size a
  hwx1_3 : ∀ i : grid1.Coords, EltTy.bits .f32 = 32 ∨ (Rect.block (s := S64x20) S8x20.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x20.size a ≤ S64x20.size a
  hwx1_4 : ∀ i : grid1.Coords, EltTy.bits .f32 = 32 ∨ (Rect.block (s := S64x20) S8x20.size (cc1_transform_4 i) (hinb1_4 i)).WholeWords (EltTy.packing .f32)

variable [Facts₀]

abbrev win0_0 : Pipeline.Window sig grid0 :=
  Pipeline.Window.ofSpec (Memref.whole main_arg2) S8x200x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x200x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg5) S8x512x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S8x512x20.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48_0) S8x20.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48_1) S8x20.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48_2) S8x20.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x20 : Shape := ⟨2, ![64, 20]⟩
abbrev S64x200x2048 : Shape := ⟨3, ![64, 200, 2048]⟩
abbrev S64x2048x20 : Shape := ⟨3, ![64, 2048, 20]⟩
abbrev S_ : Shape := ⟨0, ![]⟩
abbrev S64 : Shape := ⟨1, ![64]⟩
abbrev S64x1 : Shape := ⟨2, ![64, 1]⟩
abbrev S64x2048 : Shape := ⟨2, ![64, 2048]⟩

abbrev nBuf : Space → Nat
  | .hbm => 186
  | .vmem => 0
  | .smem => 0
  | _ => 0

abbrev hbmTy0_0 (i : Nat) : BufTy := match i % 128 with
  | 0 => ⟨S64x20, .f32⟩
  | 1 => ⟨S64x20, .f32⟩
  | 2 => ⟨S64x200x2048, .f32⟩
  | 3 => ⟨S64x200x2048, .f32⟩
  | 4 => ⟨S64x20, .f32⟩
  | 5 => ⟨S64x2048x20, .f32⟩
  | 6 => ⟨S64x2048x20, .f32⟩
  | 7 => ⟨S_, .f32⟩
  | 8 => ⟨S64, .f32⟩
  | 9 => ⟨S64x1, .f32⟩
  | 10 => ⟨S64x20, .f32⟩
  | 11 => ⟨S64x20, .f32⟩
  | 12 => ⟨S64x20, .f32⟩
  | 13 => ⟨S_, .f32⟩
  | 14 => ⟨S_, .f32⟩
  | 15 => ⟨S64x20, .f32⟩
  | 16 => ⟨S64x20, .f32⟩
  | 17 => ⟨S_, .f32⟩
  | 18 => ⟨S64x20, .f32⟩
  | 19 => ⟨S64x20, .f32⟩
  | 20 => ⟨S64x20, .f32⟩
  | 21 => ⟨S_, .f32⟩
  | 22 => ⟨S_, .f32⟩
  | 23 => ⟨S64x20, .f32⟩
  | 24 => ⟨S64x20, .f32⟩
  | 25 => ⟨S64x20, .f32⟩
  | 26 => ⟨S_, .f32⟩
  | 27 => ⟨S64x20, .f32⟩
  | 28 => ⟨S64x20, .f32⟩
  | 29 => ⟨S64x20, .f32⟩
  | 30 => ⟨S64x20, .f32⟩
  | 31 => ⟨S64x20, .f32⟩
  | 32 => ⟨S_, .f32⟩
  | 33 => ⟨S_, .f32⟩
  | 34 => ⟨S_, .f32⟩
  | 35 => ⟨S_, .f32⟩
  | 36 => ⟨S_, .f32⟩
  | 37 => ⟨S64x20, .f32⟩
  | 38 => ⟨S64x20, .f32⟩
  | 39 => ⟨S_, .f32⟩
  | 40 => ⟨S_, .f32⟩
  | 41 => ⟨S64x20, .f32⟩
  | 42 => ⟨S64x20, .f32⟩
  | 43 => ⟨S_, .f32⟩
  | 44 => ⟨S64x20, .f32⟩
  | 45 => ⟨S64x20, .f32⟩
  | 46 => ⟨S64x20, .f32⟩
  | 47 => ⟨S_, .f32⟩
  | 48 => ⟨S_, .f32⟩
  | 49 => ⟨S64x20, .f32⟩
  | 50 => ⟨S64x20, .f32⟩
  | 51 => ⟨S64x20, .f32⟩
  | 52 => ⟨S_, .f32⟩
  | 53 => ⟨S64x20, .f32⟩
  | 54 => ⟨S64x20, .f32⟩
  | 55 => ⟨S64x20, .f32⟩
  | 56 => ⟨S64x20, .f32⟩
  | 57 => ⟨S64x20, .f32⟩
  | 58 => ⟨S_, .f32⟩
  | 59 => ⟨S_, .f32⟩
  | 60 => ⟨S_, .f32⟩
  | 61 => ⟨S_, .f32⟩
  | 62 => ⟨S_, .f32⟩
  | 63 => ⟨S64x2048, .f32⟩
  | 64 => ⟨S_, .f32⟩
  | 65 => ⟨S64x2048, .f32⟩
  | 66 => ⟨S64x2048, .f32⟩
  | 67 => ⟨S64x2048, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64x2048, .f32⟩
  | 79 => ⟨S_, .f32⟩
  | 80 => ⟨S64x2048, .f32⟩
  | 81 => ⟨S64x2048, .f32⟩
  | 82 => ⟨S64x2048, .f32⟩
  | 83 => ⟨S_, .f32⟩
  | 84 => ⟨S64, .f32⟩
  | 85 => ⟨S64, .f32⟩
  | 86 => ⟨S64, .f32⟩
  | 87 => ⟨S64, .f32⟩
  | 88 => ⟨S_, .f32⟩
  | 89 => ⟨S_, .f32⟩
  | 90 => ⟨S_, .f32⟩
  | 91 => ⟨S_, .f32⟩
  | 92 => ⟨S_, .f32⟩
  | 93 => ⟨S64x2048x20, .f32⟩
  | 94 => ⟨S64x2048x20, .i1⟩
  | 95 => ⟨S64x2048x20, .f32⟩
  | 96 => ⟨S64x2048x20, .f32⟩
  | 97 => ⟨S_, .f32⟩
  | 98 => ⟨S64x2048x20, .f32⟩
  | 99 => ⟨S64x2048x20, .f32⟩
  | 100 => ⟨S64x2048x20, .f32⟩
  | 101 => ⟨S64x2048x20, .f32⟩
  | 102 => ⟨S64x2048x20, .i1⟩
  | 103 => ⟨S64x2048x20, .f32⟩
  | 104 => ⟨S64x2048x20, .f32⟩
  | 105 => ⟨S64x2048x20, .f32⟩
  | 106 => ⟨S64x2048x20, .f32⟩
  | 107 => ⟨S64x2048x20, .f32⟩
  | 108 => ⟨S64x2048x20, .f32⟩
  | 109 => ⟨S64x2048x20, .f32⟩
  | 110 => ⟨S64x2048x20, .f32⟩
  | 111 => ⟨S64x2048x20, .f32⟩
  | 112 => ⟨S64x2048x20, .f32⟩
  | 113 => ⟨S64x2048x20, .f32⟩
  | 114 => ⟨S64x2048x20, .f32⟩
  | 115 => ⟨S_, .f32⟩
  | 116 => ⟨S64x2048x20, .f32⟩
  | 117 => ⟨S64x2048x20, .f32⟩
  | 118 => ⟨S64x2048x20, .f32⟩
  | 119 => ⟨S64x2048x20, .f32⟩
  | 120 => ⟨S64x2048x20, .i1⟩
  | 121 => ⟨S64x2048x20, .f32⟩
  | 122 => ⟨S64x2048x20, .f32⟩
  | 123 => ⟨S64x2048x20, .f32⟩
  | 124 => ⟨S64x2048x20, .f32⟩
  | 125 => ⟨S64x2048x20, .f32⟩
  | 126 => ⟨S64x2048x20, .f32⟩
  | 127 => ⟨S64x2048x20, .f32⟩
  | _ => ⟨S64x20, .f32⟩

abbrev hbmTy0_1 (i : Nat) : BufTy := match i % 128 with
  | 0 => ⟨S64x2048x20, .f32⟩
  | 1 => ⟨S64x2048x20, .f32⟩
  | 2 => ⟨S64x2048x20, .f32⟩
  | 3 => ⟨S_, .f32⟩
  | 4 => ⟨S64x20, .f32⟩
  | 5 => ⟨S_, .f32⟩
  | 6 => ⟨S64x20, .f32⟩
  | 7 => ⟨S64x20, .f32⟩
  | 8 => ⟨S64x2048x20, .f32⟩
  | 9 => ⟨S_, .f32⟩
  | 10 => ⟨S64x20, .f32⟩
  | 11 => ⟨S_, .f32⟩
  | 12 => ⟨S64x20, .f32⟩
  | 13 => ⟨S64x20, .f32⟩
  | 14 => ⟨S64x20, .f32⟩
  | 15 => ⟨S_, .f32⟩
  | 16 => ⟨S64x2048x20, .f32⟩
  | 17 => ⟨S64x2048x20, .f32⟩
  | 18 => ⟨S64x2048x20, .f32⟩
  | 19 => ⟨S_, .f32⟩
  | 20 => ⟨S64x20, .f32⟩
  | 21 => ⟨S_, .f32⟩
  | 22 => ⟨S64x20, .f32⟩
  | 23 => ⟨S64x20, .f32⟩
  | 24 => ⟨S64x20, .f32⟩
  | 25 => ⟨S_, .f32⟩
  | 26 => ⟨S64x20, .f32⟩
  | 27 => ⟨S64x20, .f32⟩
  | 28 => ⟨S64x20, .f32⟩
  | 29 => ⟨S_, .f32⟩
  | 30 => ⟨S64x20, .f32⟩
  | 31 => ⟨S64x20, .i1⟩
  | 32 => ⟨S64x20, .i32⟩
  | 33 => ⟨S_, .i32⟩
  | 34 => ⟨S_, .i32⟩
  | 35 => ⟨S_, .i32⟩
  | 36 => ⟨S_, .i32⟩
  | 37 => ⟨S_, .f32⟩
  | 38 => ⟨S_, .f32⟩
  | 39 => ⟨S64x20, .f32⟩
  | 40 => ⟨S64x20, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | _ => ⟨S64x20, .f32⟩

abbrev hbmTy (i : Nat) : BufTy := match i / 128 with
  | 0 => hbmTy0_0 i
  | 1 => hbmTy0_1 i
  | _ => ⟨S64x20, .f32⟩

abbrev bufTy : (tb : Table) → Fin (tcTables nBuf tb) → BufTy
  | .hbm, ⟨i, _⟩ => hbmTy i
  | _, _ => ⟨S64x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_call2_v0 : Ref sig .tc := ⟨.hbm, 40, rfl⟩
abbrev main_call2_v1 : Ref sig .tc := ⟨.hbm, 41, rfl⟩
abbrev main_v20 : Ref sig .tc := ⟨.hbm, 42, rfl⟩
abbrev main_cst_8 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_call3_v0 : Ref sig .tc := ⟨.hbm, 48, rfl⟩
abbrev main_call3_v1 : Ref sig .tc := ⟨.hbm, 49, rfl⟩
abbrev main_v24 : Ref sig .tc := ⟨.hbm, 50, rfl⟩
abbrev main_v25 : Ref sig .tc := ⟨.hbm, 51, rfl⟩
abbrev main_cst_10 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_11 : Ref sig .tc := ⟨.hbm, 58, rfl⟩
abbrev main_v31 : Ref sig .tc := ⟨.hbm, 59, rfl⟩
abbrev main_cst_12 : Ref sig .tc := ⟨.hbm, 60, rfl⟩
abbrev main_v32 : Ref sig .tc := ⟨.hbm, 61, rfl⟩
abbrev main_cst_13 : Ref sig .tc := ⟨.hbm, 62, rfl⟩
abbrev main_v33 : Ref sig .tc := ⟨.hbm, 63, rfl⟩
abbrev main_cst_14 : Ref sig .tc := ⟨.hbm, 64, rfl⟩
abbrev main_v34 : Ref sig .tc := ⟨.hbm, 65, rfl⟩
abbrev main_v35 : Ref sig .tc := ⟨.hbm, 66, rfl⟩
abbrev main_call4_v0 : Ref sig .tc := ⟨.hbm, 67, rfl⟩
abbrev main_call4_cst : Ref sig .tc := ⟨.hbm, 68, rfl⟩
abbrev main_call4_v1 : Ref sig .tc := ⟨.hbm, 69, rfl⟩
abbrev main_v36 : Ref sig .tc := ⟨.hbm, 70, rfl⟩
abbrev main_cst_15 : Ref sig .tc := ⟨.hbm, 71, rfl⟩
abbrev main_v37 : Ref sig .tc := ⟨.hbm, 72, rfl⟩
abbrev main_v38 : Ref sig .tc := ⟨.hbm, 73, rfl⟩
abbrev main_cst_16 : Ref sig .tc := ⟨.hbm, 74, rfl⟩
abbrev main_v39 : Ref sig .tc := ⟨.hbm, 75, rfl⟩
abbrev main_v40 : Ref sig .tc := ⟨.hbm, 76, rfl⟩
abbrev main_cst_17 : Ref sig .tc := ⟨.hbm, 77, rfl⟩
abbrev main_v41 : Ref sig .tc := ⟨.hbm, 78, rfl⟩
abbrev main_cst_18 : Ref sig .tc := ⟨.hbm, 79, rfl⟩
abbrev main_v42 : Ref sig .tc := ⟨.hbm, 80, rfl⟩
abbrev main_v43 : Ref sig .tc := ⟨.hbm, 81, rfl⟩
abbrev main_call5_v0 : Ref sig .tc := ⟨.hbm, 82, rfl⟩
abbrev main_call5_cst : Ref sig .tc := ⟨.hbm, 83, rfl⟩
abbrev main_call5_v1 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_19 : Ref sig .tc := ⟨.hbm, 88, rfl⟩
abbrev main_v47 : Ref sig .tc := ⟨.hbm, 89, rfl⟩
abbrev main_cst_20 : Ref sig .tc := ⟨.hbm, 90, rfl⟩
abbrev main_v48 : Ref sig .tc := ⟨.hbm, 91, rfl⟩
abbrev main_cst_21 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_call6_v0 : Ref sig .tc := ⟨.hbm, 96, rfl⟩
abbrev main_call6_call0_cst : Ref sig .tc := ⟨.hbm, 97, rfl⟩
abbrev main_call6_call0_v0 : Ref sig .tc := ⟨.hbm, 98, rfl⟩
abbrev main_call6_call0_v1 : Ref sig .tc := ⟨.hbm, 99, rfl⟩
abbrev main_call6_call0_v2 : Ref sig .tc := ⟨.hbm, 100, rfl⟩
abbrev main_call6_call0_v3 : Ref sig .tc := ⟨.hbm, 101, rfl⟩
abbrev main_call6_call0_v4 : Ref sig .tc := ⟨.hbm, 102, rfl⟩
abbrev main_call6_call0_v5 : Ref sig .tc := ⟨.hbm, 103, rfl⟩
abbrev main_call6_call0_v6 : Ref sig .tc := ⟨.hbm, 104, rfl⟩
abbrev main_call6_call0_v7 : Ref sig .tc := ⟨.hbm, 105, rfl⟩
abbrev main_call6_call0_v8 : Ref sig .tc := ⟨.hbm, 106, rfl⟩
abbrev main_call6_call0_v9 : Ref sig .tc := ⟨.hbm, 107, rfl⟩
abbrev main_call6_call0_v10 : Ref sig .tc := ⟨.hbm, 108, rfl⟩
abbrev main_call6_call0_v11 : Ref sig .tc := ⟨.hbm, 109, rfl⟩
abbrev main_call6_v1 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_call7_v0 : Ref sig .tc := ⟨.hbm, 114, rfl⟩
abbrev main_call7_call0_cst : Ref sig .tc := ⟨.hbm, 115, rfl⟩
abbrev main_call7_call0_v0 : Ref sig .tc := ⟨.hbm, 116, rfl⟩
abbrev main_call7_call0_v1 : Ref sig .tc := ⟨.hbm, 117, rfl⟩
abbrev main_call7_call0_v2 : Ref sig .tc := ⟨.hbm, 118, rfl⟩
abbrev main_call7_call0_v3 : Ref sig .tc := ⟨.hbm, 119, rfl⟩
abbrev main_call7_call0_v4 : Ref sig .tc := ⟨.hbm, 120, rfl⟩
abbrev main_call7_call0_v5 : Ref sig .tc := ⟨.hbm, 121, rfl⟩
abbrev main_call7_call0_v6 : Ref sig .tc := ⟨.hbm, 122, rfl⟩
abbrev main_call7_call0_v7 : Ref sig .tc := ⟨.hbm, 123, rfl⟩
abbrev main_call7_call0_v8 : Ref sig .tc := ⟨.hbm, 124, rfl⟩
abbrev main_call7_call0_v9 : Ref sig .tc := ⟨.hbm, 125, rfl⟩
abbrev main_call7_call0_v10 : Ref sig .tc := ⟨.hbm, 126, rfl⟩
abbrev main_call7_call0_v11 : Ref sig .tc := ⟨.hbm, 127, rfl⟩
abbrev main_call7_v1 : Ref sig .tc := ⟨.hbm, 128, rfl⟩
abbrev main_v55 : Ref sig .tc := ⟨.hbm, 129, rfl⟩
abbrev main_v56 : Ref sig .tc := ⟨.hbm, 130, rfl⟩
abbrev main_cst_22 : Ref sig .tc := ⟨.hbm, 131, rfl⟩
abbrev main_v57 : Ref sig .tc := ⟨.hbm, 132, rfl⟩
abbrev main_cst_23 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_cst_24 : Ref sig .tc := ⟨.hbm, 137, rfl⟩
abbrev main_v61 : Ref sig .tc := ⟨.hbm, 138, rfl⟩
abbrev main_cst_25 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_cst_26 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_cst_27 : Ref sig .tc := ⟨.hbm, 147, rfl⟩
abbrev main_v68 : Ref sig .tc := ⟨.hbm, 148, rfl⟩
abbrev main_cst_28 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_cst_29 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_cst_30 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_c : Ref sig .tc := ⟨.hbm, 161, rfl⟩
abbrev main_v78 : Ref sig .tc := ⟨.hbm, 162, rfl⟩
abbrev main_c_31 : Ref sig .tc := ⟨.hbm, 163, rfl⟩
abbrev main_v79 : Ref sig .tc := ⟨.hbm, 164, rfl⟩
abbrev main_cst_32 : Ref sig .tc := ⟨.hbm, 165, rfl⟩
abbrev main_call8_v0 : Ref sig .tc := ⟨.hbm, 166, rfl⟩
abbrev main_call8_v1 : Ref sig .tc := ⟨.hbm, 167, rfl⟩
abbrev main_v80 : Ref sig .tc := ⟨.hbm, 168, rfl⟩
abbrev main_cst_33 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_cst_34 : Ref sig .tc := ⟨.hbm, 173, rfl⟩
abbrev main_v84 : Ref sig .tc := ⟨.hbm, 174, rfl⟩
abbrev main_cst_35 : Ref sig .tc := ⟨.hbm, 175, rfl⟩
abbrev main_cst_36 : Ref sig .tc := ⟨.hbm, 176, rfl⟩
abbrev main_v85 : Ref sig .tc := ⟨.hbm, 177, rfl⟩
abbrev main_cst_37 : Ref sig .tc := ⟨.hbm, 178, rfl⟩
abbrev main_v86 : Ref sig .tc := ⟨.hbm, 179, rfl⟩
abbrev main_v87 : Ref sig .tc := ⟨.hbm, 180, rfl⟩
abbrev main_cst_38 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩

abbrev nD : Nat := 1
abbrev τ : Topo := Topo.v7x

variable {F : FTy → Type} [FloatOps F]

class Facts₀ : Prop where
  reducesTo_S64x20_S64_d1 : S64x20.ReducesTo [1] S64
  h_S_ : 0 < S_.numel
  bcast_S64_S64x1_0 : S64.BroadcastsInDim S64x1 (![0] : Fin 1 → Fin S64x1.rank)
  bcast_S64x1_S64x20_0_1 : S64x1.BroadcastsInDim S64x20 (![0, 1] : Fin 2 → Fin S64x20.rank)
  bcast_S_S64x20 : S_.BroadcastsInDim S64x20 (![] : Fin 0 → Fin S64x20.rank)
  reducesTo_S64x20_S_d0_1 : S64x20.ReducesTo [0, 1] S_
  reducesTo_S64x200x2048_S64x2048_d1 : S64x200x2048.ReducesTo [1] S64x2048
  bcast_S_S64x2048 : S_.BroadcastsInDim S64x2048 (![] : Fin 0 → Fin S64x2048.rank)
  reducesTo_S64x2048_S64_d1 : S64x2048.ReducesTo [1] S64
  bcast_S_S64 : S_.BroadcastsInDim S64 (![] : Fin 0 → Fin S64.rank)
  reducesTo_S64_S_d0 : S64.ReducesTo [0] S_
  bcast_S_S64x2048x20 : S_.BroadcastsInDim S64x2048x20 (![] : Fin 0 → Fin S64x2048x20.rank)
  reducesTo_S64x2048x20_S64x20_d1 : S64x2048x20.ReducesTo [1] S64x20
  natLt_1_32 : 1 < 32

variable [Facts₀]

class Facts : Prop extends Facts₀ where

variable [Facts]
-- ==== Proof.RefRun.lean ====
/- The reference program's @main as a list of its host operations, every call of a module-local function unfolded
   at its call site over that call's buffer record, and its run read back from the list: every weakly fair
   execution terminates with each TensorCore buffer at the fold of the operations' results over the launch contents. -/
import proofs.«172086_j1142461301395_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in program order, the calls unfolded: 124 of @main's own lines and 55 from its nine calls.
    Each `clip(x, lo)` is three (the bound converted to its own type, its broadcast, the maximum); each `norm(x)`
    four (the square, the zero, the sum along axis 1, the square root); each `log_sigmoid(x)` sixteen (the negation,
    `softplus`'s fourteen over the nested record `call0` — the zero, three broadcasts of it, the maximum, the
    difference, its comparison with itself, the sum, the absolute value, its negation, the exponential, `log1p`, the sum
    with the maximum, the select — and the final negation); `_where(c, x, z)` three (the scalar converted, its
    broadcast, the select). A callee's formal arguments are the call's actual typed references, its values the fields
    of the call's record `main_callK`. -/
abbrev ops : List (HloOp τ sig (Elt F)) :=
  [ nullary main_cst (constant S_ .f32 0x00000000#32),
    binary main_arg4 main_cst main_v0 ((fun x v => Host.reduceAdd x v reducesTo_S64x20_S64_d1 h_S_) : (⟨S64x20, .f32⟩ : BufTy).Contents (Elt F) → (⟨S_, .f32⟩ : BufTy).Contents (Elt F) → (⟨S64, .f32⟩ : BufTy).Contents (Elt F)),
    unary main_v0 main_v1 (broadcastInDim S64x1 ![0] bcast_S64_S64x1_0 : (⟨S64, .f32⟩ : BufTy).Contents (Elt F) → (⟨S64x1, .f32⟩ : BufTy).Contents (Elt F)),
    unary main_v1 main_v2 (broadcastInDim S64x20 ![0, 1] bcast_S64x1_S64x20_0_1 : (⟨S64x1, .f32⟩ : BufTy).Contents (Elt F) → (⟨S64x20, .f32⟩ : BufTy).Contents (Elt F)),
    binary main_arg4 main_v2 main_v3 (Host.divf : (⟨S64x20, .f32⟩ : BufTy).Contents (Elt F) → (⟨S64x20, .f32⟩ : BufTy).Contents (Elt F) → (⟨S64x20, .f32⟩ : BufTy).Contents (Elt F)),
    unary main_arg0 main_v4 (Host.log : (⟨S64x20, .f32⟩ : BufTy).Contents (Elt F) → (⟨S64x20, .f32⟩ : BufTy).Contents (Elt F)),
    nullary main_cst_0 (constant S_ .f32 0xC2C80000#32),
    TRef.unary (.of main_cst_0) main_call0.v0 id,
    TRef.unary main_call0.v0 main_call0.v1 (broadcastInDim S64x20 ![] bcast_S_S64x20),
    TRef.binary main_call0.v1 (.of main_v4) main_call0.v2 maximumf,
    nullary main_cst_1 (constant S_ .f32 0x3F800000#32),
    unary main_cst_1 main_v6 (broadcastInDim S64x20 ![] bcast_S_S64x20 : (⟨S_, .f32⟩ : BufTy).Contents (Elt F) → (⟨S64x20, .f32⟩ : BufTy).Contents (Elt F)),
    binary main_v6 main_arg0 main_v7 (subf : (⟨S64x20, .f32⟩ : BufTy).Contents (Elt F) → (⟨S64x20, .f32⟩ : BufTy).Contents (Elt F) → (⟨S64x20, .f32⟩ : BufTy).Contents (Elt F)),
    unary main_v7 main_v8 (Host.log : (⟨S64x20, .f32⟩ : BufTy).Contents (Elt F) → (⟨S64x20, .f32⟩ : BufTy).Contents (Elt F)),
    nullary main_cst_2 (constant S_ .f32 0xC2C80000#32),
    TRef.unary (.of main_cst_2) main_call1.v0 id,
    TRef.unary main_call1.v0 main_call1.v1 (broadcastInDim S64x20 ![] bcast_S_S64x20),
    TRef.binary main_call1.v1 (.of main_v8) main_call1.v2 maximumf,
    binary main_v3 main_v5 main_v10 (mulf : (⟨S64x20, .f32⟩ : BufTy).Contents (Elt F) → (⟨S64x20, .f32⟩ : BufTy).Contents (Elt F) → (⟨S64x20, .f32⟩ : BufTy).Contents (Elt F)),
    nullary main_cst_3 (constant S_ .f32 0x3F800000#32),
    unary main_cst_3 main_v11 (broadcastInDim S64x20 ![] bcast_S_S64x20 : (⟨S_, .f32⟩ : BufTy).Contents (Elt F) → (⟨S64x20, .f32⟩ : BufTy).Contents (Elt F)),
    binary main_v11 main_v3 main_v12 (subf : (⟨S64x20, .f32⟩ : BufTy).Contents (Elt F) → (⟨S64x20, .f32⟩ : BufTy).Contents (Elt F) → (⟨S64x20, .f32⟩ : BufTy).Contents (Elt F)),
    binary main_v12 main_v9 main_v13 (mulf : (⟨S64x20, .f32⟩ : BufTy).Contents (Elt F) → (⟨S64x20, .f32⟩ : BufTy).Contents (Elt F) → (⟨S64x20, .f32⟩ : BufTy).Contents (Elt F)),
    binary main_v10 main_v13 main_v14 (addf : (⟨S64x20, .f32⟩ : BufTy).Contents (Elt F) → (⟨S64x20, .f32⟩ : BufTy).Contents (Elt F) → (⟨S64x20, .f32⟩ : BufTy).Contents (Elt F)),
    unary main_v14 main_v15 (Host.negf : (⟨S64x20, .f32⟩ : BufTy).Contents (Elt F) → (⟨S64x20, .f32⟩ : BufTy).Contents (Elt F)),
    nullary main_cst_4 (constant S_ .f32 0x00000000#32),
    binary main_v15 main_cst_4 main_v16 ((fun x v => Host.reduceAdd x v reducesTo_S64x20_S_d0_1 h_S_) : (⟨S64x20, .f32⟩ : BufTy).Contents (Elt F) → (⟨S_, .f32⟩ : BufTy).Contents (Elt F) → (⟨S_, .f32⟩ : BufTy).Contents (Elt F)),
    nullary main_cst_5 (constant S_ .f32 0x44A00000#32),
    binary main_v16 main_cst_5 main_v17 (Host.divf : (⟨S_, .f32⟩ : BufTy).Contents (Elt F) → (⟨S_, .f32⟩ : BufTy).Contents (Elt F) → (⟨S_, .f32⟩ : BufTy).Contents (Elt F)),
    nullary main_cst_6 (constant S_ .f32 0x3D4CCCCD#32),
    unary main_cst_6 main_v18 (broadcastInDim S64x20 ![] bcast_S_S64x20 : (⟨S_, .f32⟩ : BufTy).Contents (Elt F) → (⟨S64x20, .f32⟩ : BufTy).Contents (Elt F)),
    unary main_arg1 main_v19 (Host.log : (⟨S64x20, .f32⟩ : BufTy).Contents (Elt F) → (⟨S64x20, .f32⟩ : BufTy).Contents (Elt F)),
    nullary main_cst_7 (constant S_ .f32 0xC2C80000#32),
    TRef.unary (.of main_cst_7) main_call2.v0 id,
    TRef.unary main_call2.v0 main_call2.v1 (broadcastInDim S64x20 ![] bcast_S_S64x20),
    TRef.binary main_call2.v1 (.of main_v19) main_call2.v2 maximumf,
    nullary main_cst_8 (constant S_ .f32 0x3F800000#32),
    unary main_cst_8 main_v21 (broadcastInDim S64x20 ![] bcast_S_S64x20 : (⟨S_, .f32⟩ : BufTy).Contents (Elt F) → (⟨S64x20, .f32⟩ : BufTy).Contents (Elt F)),
    binary main_v21 main_arg1 main_v22 (subf : (⟨S64x20, .f32⟩ : BufTy).Contents (Elt F) → (⟨S64x20, .f32⟩ : BufTy).Contents (Elt F) → (⟨S64x20, .f32⟩ : BufTy).Contents (Elt F)),
    unary main_v22 main_v23 (Host.log : (⟨S64x20, .f32⟩ : BufTy).Contents (Elt F) → (⟨S64x20, .f32⟩ : BufTy).Contents (Elt F)),
    nullary main_cst_9 (constant S_ .f32 0xC2C80000#32),
    TRef.unary (.of main_cst_9) main_call3.v0 id,
    TRef.unary main_call3.v0 main_call3.v1 (broadcastInDim S64x20 ![] bcast_S_S64x20),
    TRef.binary main_call3.v1 (.of main_v23) main_call3.v2 maximumf,
    binary main_v18 main_v20 main_v25 (mulf : (⟨S64x20, .f32⟩ : BufTy).Contents (Elt F) → (⟨S64x20, .f32⟩ : BufTy).Contents (Elt F) → (⟨S64x20, .f32⟩ : BufTy).Contents (Elt F)),
    nullary main_cst_10 (constant S_ .f32 0x3F800000#32),
    unary main_cst_10 main_v26 (broadcastInDim S64x20 ![] bcast_S_S64x20 : (⟨S_, .f32⟩ : BufTy).Contents (Elt F) → (⟨S64x20, .f32⟩ : BufTy).Contents (Elt F)),
    binary main_v26 main_v18 main_v27 (subf : (⟨S64x20, .f32⟩ : BufTy).Contents (Elt F) → (⟨S64x20, .f32⟩ : BufTy).Contents (Elt F) → (⟨S64x20, .f32⟩ : BufTy).Contents (Elt F)),
    binary main_v27 main_v24 main_v28 (mulf : (⟨S64x20, .f32⟩ : BufTy).Contents (Elt F) → (⟨S64x20, .f32⟩ : BufTy).Contents (Elt F) → (⟨S64x20, .f32⟩ : BufTy).Contents (Elt F)),
    binary main_v25 main_v28 main_v29 (addf : (⟨S64x20, .f32⟩ : BufTy).Contents (Elt F) → (⟨S64x20, .f32⟩ : BufTy).Contents (Elt F) → (⟨S64x20, .f32⟩ : BufTy).Contents (Elt F)),
    unary main_v29 main_v30 (Host.negf : (⟨S64x20, .f32⟩ : BufTy).Contents (Elt F) → (⟨S64x20, .f32⟩ : BufTy).Contents (Elt F)),
    nullary main_cst_11 (constant S_ .f32 0x00000000#32),
    binary main_v30 main_cst_11 main_v31 ((fun x v => Host.reduceAdd x v reducesTo_S64x20_S_d0_1 h_S_) : (⟨S64x20, .f32⟩ : BufTy).Contents (Elt F) → (⟨S_, .f32⟩ : BufTy).Contents (Elt F) → (⟨S_, .f32⟩ : BufTy).Contents (Elt F)),
    nullary main_cst_12 (constant S_ .f32 0x44A00000#32),
    binary main_v31 main_cst_12 main_v32 (Host.divf : (⟨S_, .f32⟩ : BufTy).Contents (Elt F) → (⟨S_, .f32⟩ : BufTy).Contents (Elt F) → (⟨S_, .f32⟩ : BufTy).Contents (Elt F)),
    nullary main_cst_13 (constant S_ .f32 0x00000000#32),
    binary main_arg2 main_cst_13 main_v33 ((fun x v => Host.reduceAdd x v reducesTo_S64x200x2048_S64x2048_d1 h_S_) : (⟨S64x200x2048, .f32⟩ : BufTy).Contents (Elt F) → (⟨S_, .f32⟩ : BufTy).Contents (Elt F) → (⟨S64x2048, .f32⟩ : BufTy).Contents (Elt F)),
    nullary main_cst_14 (constant S_ .f32 0x43480000#32),
    unary main_cst_14 main_v34 (broadcastInDim S64x2048 ![] bcast_S_S64x2048 : (⟨S_, .f32⟩ : BufTy).Contents (Elt F) → (⟨S64x2048, .f32⟩ : BufTy).Contents (Elt F)),
    binary main_v33 main_v34 main_v35 (Host.divf : (⟨S64x2048, .f32⟩ : BufTy).Contents (Elt F) → (⟨S64x2048, .f32⟩ : BufTy).Contents (Elt F) → (⟨S64x2048, .f32⟩ : BufTy).Contents (Elt F)),
    TRef.binary (.of main_v35) (.of main_v35) main_call4.v0 mulf,
    TRef.nullary main_call4.cst (constant S_ .f32 0x00000000#32),
    TRef.binary main_call4.v0 main_call4.cst main_call4.v1 (fun x v => Host.reduceAdd x v reducesTo_S64x2048_S64_d1 h_S_),
    TRef.unary main_call4.v1 main_call4.v2 Host.sqrt,
    nullary main_cst_15 (constant S_ .f32 0x42C80000#32),
    unary main_cst_15 main_v37 (broadcastInDim S64 ![] bcast_S_S64 : (⟨S_, .f32⟩ : BufTy).Contents (Elt F) → (⟨S64, .f32⟩ : BufTy).Contents (Elt F)),
    binary main_v37 main_v36 main_v38 (subf : (⟨S64, .f32⟩ : BufTy).Contents (Elt F) → (⟨S64, .f32⟩ : BufTy).Contents (Elt F) → (⟨S64, .f32⟩ : BufTy).Contents (Elt F)),
    nullary main_cst_16 (constant S_ .f32 0x00000000#32),
    unary main_cst_16 main_v39 (broadcastInDim S64 ![] bcast_S_S64 : (⟨S_, .f32⟩ : BufTy).Contents (Elt F) → (⟨S64, .f32⟩ : BufTy).Contents (Elt F)),
    binary main_v38 main_v39 main_v40 (maximumf : (⟨S64, .f32⟩ : BufTy).Contents (Elt F) → (⟨S64, .f32⟩ : BufTy).Contents (Elt F) → (⟨S64, .f32⟩ : BufTy).Contents (Elt F)),
    nullary main_cst_17 (constant S_ .f32 0x00000000#32),
    binary main_arg3 main_cst_17 main_v41 ((fun x v => Host.reduceAdd x v reducesTo_S64x200x2048_S64x2048_d1 h_S_) : (⟨S64x200x2048, .f32⟩ : BufTy).Contents (Elt F) → (⟨S_, .f32⟩ : BufTy).Contents (Elt F) → (⟨S64x2048, .f32⟩ : BufTy).Contents (Elt F)),
    nullary main_cst_18 (constant S_ .f32 0x43480000#32),
    unary main_cst_18 main_v42 (broadcastInDim S64x2048 ![] bcast_S_S64x2048 : (⟨S_, .f32⟩ : BufTy).Contents (Elt F) → (⟨S64x2048, .f32⟩ : BufTy).Contents (Elt F)),
    binary main_v41 main_v42 main_v43 (Host.divf : (⟨S64x2048, .f32⟩ : BufTy).Contents (Elt F) → (⟨S64x2048, .f32⟩ : BufTy).Contents (Elt F) → (⟨S64x2048, .f32⟩ : BufTy).Contents (Elt F)),
    TRef.binary (.of main_v43) (.of main_v43) main_call5.v0 mulf,
    TRef.nullary main_call5.cst (constant S_ .f32 0x00000000#32),
    TRef.binary main_call5.v0 main_call5.cst main_call5.v1 (fun x v => Host.reduceAdd x v reducesTo_S64x2048_S64_d1 h_S_),
    TRef.unary main_call5.v1 main_call5.v2 Host.sqrt,
    binary main_v40 main_v44 main_v45 (addf : (⟨S64, .f32⟩ : BufTy).Contents (Elt F) → (⟨S64, .f32⟩ : BufTy).Contents (Elt F) → (⟨S64, .f32⟩ : BufTy).Contents (Elt F)),
    binary main_v45 main_v45 main_v46 (mulf : (⟨S64, .f32⟩ : BufTy).Contents (Elt F) → (⟨S64, .f32⟩ : BufTy).Contents (Elt F) → (⟨S64, .f32⟩ : BufTy).Contents (Elt F)),
    nullary main_cst_19 (constant S_ .f32 0x00000000#32),
    binary main_v46 main_cst_19 main_v47 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_20 (constant S_ .f32 0x42800000#32),
    binary main_v47 main_cst_20 main_v48 (Host.divf : (⟨S_, .f32⟩ : BufTy).Contents (Elt F) → (⟨S_, .f32⟩ : BufTy).Contents (Elt F) → (⟨S_, .f32⟩ : BufTy).Contents (Elt F)),
    nullary main_cst_21 (constant S_ .f32 0x3F000000#32),
    unary main_cst_21 main_v49 (broadcastInDim S64x2048x20 ![] bcast_S_S64x2048x20 : (⟨S_, .f32⟩ : BufTy).Contents (Elt F) → (⟨S64x2048x20, .f32⟩ : BufTy).Contents (Elt F)),
    binary main_arg5 main_v49 main_v50 (cmpf .ogt : (⟨S64x2048x20, .f32⟩ : BufTy).Contents (Elt F) → (⟨S64x2048x20, .f32⟩ : BufTy).Contents (Elt F) → (⟨S64x2048x20, .i1⟩ : BufTy).Contents (Elt F)),
    unary main_v50 main_v51 (uitofp .f32 : (⟨S64x2048x20, .i1⟩ : BufTy).Contents (Elt F) → (⟨S64x2048x20, .f32⟩ : BufTy).Contents (Elt F)),
    TRef.unary (.of main_arg6) main_call6.v0 Host.negf,
    TRef.nullary main_call6.call0.cst (constant S_ .f32 0x00000000#32),
    TRef.unary main_call6.call0.cst main_call6.call0.v0 (broadcastInDim S64x2048x20 ![] bcast_S_S64x2048x20),
    TRef.binary main_call6.v0 main_call6.call0.v0 main_call6.call0.v1 maximumf,
    TRef.unary main_call6.call0.cst main_call6.call0.v2 (broadcastInDim S64x2048x20 ![] bcast_S_S64x2048x20),
    TRef.binary main_call6.v0 main_call6.call0.v2 main_call6.call0.v3 subf,
    TRef.binary main_call6.call0.v3 main_call6.call0.v3 main_call6.call0.v4 (cmpf .une),
    TRef.unary main_call6.call0.cst main_call6.call0.v5 (broadcastInDim S64x2048x20 ![] bcast_S_S64x2048x20),
    TRef.binary main_call6.v0 main_call6.call0.v5 main_call6.call0.v6 addf,
    TRef.unary main_call6.call0.v3 main_call6.call0.v7 Host.absf,
    TRef.unary main_call6.call0.v7 main_call6.call0.v8 Host.negf,
    TRef.unary main_call6.call0.v8 main_call6.call0.v9 Host.exp,
    TRef.unary main_call6.call0.v9 main_call6.call0.v10 Host.log1p,
    TRef.binary main_call6.call0.v1 main_call6.call0.v10 main_call6.call0.v11 addf,
    TRef.ternary main_call6.call0.v4 main_call6.call0.v6 main_call6.call0.v11 main_call6.call0.v12 select,
    TRef.unary main_call6.call0.v12 main_call6.v2 Host.negf,
    unary main_v52 main_v53 (Host.negf : (⟨S64x2048x20, .f32⟩ : BufTy).Contents (Elt F) → (⟨S64x2048x20, .f32⟩ : BufTy).Contents (Elt F)),
    unary main_arg6 main_v54 (Host.negf : (⟨S64x2048x20, .f32⟩ : BufTy).Contents (Elt F) → (⟨S64x2048x20, .f32⟩ : BufTy).Contents (Elt F)),
    TRef.unary (.of main_v54) main_call7.v0 Host.negf,
    TRef.nullary main_call7.call0.cst (constant S_ .f32 0x00000000#32),
    TRef.unary main_call7.call0.cst main_call7.call0.v0 (broadcastInDim S64x2048x20 ![] bcast_S_S64x2048x20),
    TRef.binary main_call7.v0 main_call7.call0.v0 main_call7.call0.v1 maximumf,
    TRef.unary main_call7.call0.cst main_call7.call0.v2 (broadcastInDim S64x2048x20 ![] bcast_S_S64x2048x20),
    TRef.binary main_call7.v0 main_call7.call0.v2 main_call7.call0.v3 subf,
    TRef.binary main_call7.call0.v3 main_call7.call0.v3 main_call7.call0.v4 (cmpf .une),
    TRef.unary main_call7.call0.cst main_call7.call0.v5 (broadcastInDim S64x2048x20 ![] bcast_S_S64x2048x20),
    TRef.binary main_call7.v0 main_call7.call0.v5 main_call7.call0.v6 addf,
    TRef.unary main_call7.call0.v3 main_call7.call0.v7 Host.absf,
    TRef.unary main_call7.call0.v7 main_call7.call0.v8 Host.negf,
    TRef.unary main_call7.call0.v8 main_call7.call0.v9 Host.exp,
    TRef.unary main_call7.call0.v9 main_call7.call0.v10 Host.log1p,
    TRef.binary main_call7.call0.v1 main_call7.call0.v10 main_call7.call0.v11 addf,
    TRef.ternary main_call7.call0.v4 main_call7.call0.v6 main_call7.call0.v11 main_call7.call0.v12 select,
    TRef.unary main_call7.call0.v12 main_call7.v2 Host.negf,
    unary main_v55 main_v56 (Host.negf : (⟨S64x2048x20, .f32⟩ : BufTy).Contents (Elt F) → (⟨S64x2048x20, .f32⟩ : BufTy).Contents (Elt F)),
    nullary main_cst_22 (constant S_ .f32 0x00000000#32),
    binary main_v51 main_cst_22 main_v57 ((fun x v => Host.reduceAdd x v reducesTo_S64x2048x20_S64x20_d1 h_S_) : (⟨S64x2048x20, .f32⟩ : BufTy).Contents (Elt F) → (⟨S_, .f32⟩ : BufTy).Contents (Elt F) → (⟨S64x20, .f32⟩ : BufTy).Contents (Elt F)),
    nullary main_cst_23 (constant S_ .f32 0x45000000#32),
    unary main_cst_23 main_v58 (broadcastInDim S64x20 ![] bcast_S_S64x20 : (⟨S_, .f32⟩ : BufTy).Contents (Elt F) → (⟨S64x20, .f32⟩ : BufTy).Contents (Elt F)),
    binary main_v58 main_v57 main_v59 (subf : (⟨S64x20, .f32⟩ : BufTy).Contents (Elt F) → (⟨S64x20, .f32⟩ : BufTy).Contents (Elt F) → (⟨S64x20, .f32⟩ : BufTy).Contents (Elt F)),
    binary main_v53 main_v51 main_v60 (mulf : (⟨S64x2048x20, .f32⟩ : BufTy).Contents (Elt F) → (⟨S64x2048x20, .f32⟩ : BufTy).Contents (Elt F) → (⟨S64x2048x20, .f32⟩ : BufTy).Contents (Elt F)),
    nullary main_cst_24 (constant S_ .f32 0x00000000#32),
    binary main_v60 main_cst_24 main_v61 ((fun x v => Host.reduceAdd x v reducesTo_S64x2048x20_S64x20_d1 h_S_) : (⟨S64x2048x20, .f32⟩ : BufTy).Contents (Elt F) → (⟨S_, .f32⟩ : BufTy).Contents (Elt F) → (⟨S64x20, .f32⟩ : BufTy).Contents (Elt F)),
    nullary main_cst_25 (constant S_ .f32 0x3F800000#32),
    unary main_cst_25 main_v62 (broadcastInDim S64x20 ![] bcast_S_S64x20 : (⟨S_, .f32⟩ : BufTy).Contents (Elt F) → (⟨S64x20, .f32⟩ : BufTy).Contents (Elt F)),
    binary main_v57 main_v62 main_v63 (maximumf : (⟨S64x20, .f32⟩ : BufTy).Contents (Elt F) → (⟨S64x20, .f32⟩ : BufTy).Contents (Elt F) → (⟨S64x20, .f32⟩ : BufTy).Contents (Elt F)),
    binary main_v61 main_v63 main_v64 (Host.divf : (⟨S64x20, .f32⟩ : BufTy).Contents (Elt F) → (⟨S64x20, .f32⟩ : BufTy).Contents (Elt F) → (⟨S64x20, .f32⟩ : BufTy).Contents (Elt F)),
    nullary main_cst_26 (constant S_ .f32 0x3F800000#32),
    unary main_cst_26 main_v65 (broadcastInDim S64x2048x20 ![] bcast_S_S64x2048x20 : (⟨S_, .f32⟩ : BufTy).Contents (Elt F) → (⟨S64x2048x20, .f32⟩ : BufTy).Contents (Elt F)),
    binary main_v65 main_v51 main_v66 (subf : (⟨S64x2048x20, .f32⟩ : BufTy).Contents (Elt F) → (⟨S64x2048x20, .f32⟩ : BufTy).Contents (Elt F) → (⟨S64x2048x20, .f32⟩ : BufTy).Contents (Elt F)),
    binary main_v56 main_v66 main_v67 (mulf : (⟨S64x2048x20, .f32⟩ : BufTy).Contents (Elt F) → (⟨S64x2048x20, .f32⟩ : BufTy).Contents (Elt F) → (⟨S64x2048x20, .f32⟩ : BufTy).Contents (Elt F)),
    nullary main_cst_27 (constant S_ .f32 0x00000000#32),
    binary main_v67 main_cst_27 main_v68 ((fun x v => Host.reduceAdd x v reducesTo_S64x2048x20_S64x20_d1 h_S_) : (⟨S64x2048x20, .f32⟩ : BufTy).Contents (Elt F) → (⟨S_, .f32⟩ : BufTy).Contents (Elt F) → (⟨S64x20, .f32⟩ : BufTy).Contents (Elt F)),
    nullary main_cst_28 (constant S_ .f32 0x3F800000#32),
    unary main_cst_28 main_v69 (broadcastInDim S64x20 ![] bcast_S_S64x20 : (⟨S_, .f32⟩ : BufTy).Contents (Elt F) → (⟨S64x20, .f32⟩ : BufTy).Contents (Elt F)),
    binary main_v59 main_v69 main_v70 (maximumf : (⟨S64x20, .f32⟩ : BufTy).Contents (Elt F) → (⟨S64x20, .f32⟩ : BufTy).Contents (Elt F) → (⟨S64x20, .f32⟩ : BufTy).Contents (Elt F)),
    binary main_v68 main_v70 main_v71 (Host.divf : (⟨S64x20, .f32⟩ : BufTy).Contents (Elt F) → (⟨S64x20, .f32⟩ : BufTy).Contents (Elt F) → (⟨S64x20, .f32⟩ : BufTy).Contents (Elt F)),
    nullary main_cst_29 (constant S_ .f32 0x3F800000#32),
    unary main_cst_29 main_v72 (broadcastInDim S64x20 ![] bcast_S_S64x20 : (⟨S_, .f32⟩ : BufTy).Contents (Elt F) → (⟨S64x20, .f32⟩ : BufTy).Contents (Elt F)),
    binary main_v72 main_v71 main_v73 (mulf : (⟨S64x20, .f32⟩ : BufTy).Contents (Elt F) → (⟨S64x20, .f32⟩ : BufTy).Contents (Elt F) → (⟨S64x20, .f32⟩ : BufTy).Contents (Elt F)),
    binary main_v64 main_v73 main_v74 (addf : (⟨S64x20, .f32⟩ : BufTy).Contents (Elt F) → (⟨S64x20, .f32⟩ : BufTy).Contents (Elt F) → (⟨S64x20, .f32⟩ : BufTy).Contents (Elt F)),
    nullary main_cst_30 (constant S_ .f32 0x00000000#32),
    unary main_cst_30 main_v75 (broadcastInDim S64x20 ![] bcast_S_S64x20 : (⟨S_, .f32⟩ : BufTy).Contents (Elt F) → (⟨S64x20, .f32⟩ : BufTy).Contents (Elt F)),
    binary main_v3 main_v75 main_v76 (cmpf .ogt : (⟨S64x20, .f32⟩ : BufTy).Contents (Elt F) → (⟨S64x20, .f32⟩ : BufTy).Contents (Elt F) → (⟨S64x20, .i1⟩ : BufTy).Contents (Elt F)),
    unary main_v76 main_v77 ((extui 32 · natLt_1_32) : (⟨S64x20, .i1⟩ : BufTy).Contents (Elt F) → (⟨S64x20, .i32⟩ : BufTy).Contents (Elt F)),
    nullary main_c (constantI S_ 32 0#32),
    binary main_v77 main_c main_v78 ((fun x v => Host.reduce IntOp.addi x v reducesTo_S64x20_S_d0_1 h_S_) : (⟨S64x20, .i32⟩ : BufTy).Contents (Elt F) → (⟨S_, .i32⟩ : BufTy).Contents (Elt F) → (⟨S_, .i32⟩ : BufTy).Contents (Elt F)),
    nullary main_c_31 (constantI S_ 32 1#32),
    binary main_v78 main_c_31 main_v79 (maxsi : (⟨S_, .i32⟩ : BufTy).Contents (Elt F) → (⟨S_, .i32⟩ : BufTy).Contents (Elt F) → (⟨S_, .i32⟩ : BufTy).Contents (Elt F)),
    nullary main_cst_32 (constant S_ .f32 0x00000000#32),
    TRef.unary (.of main_cst_32) main_call8.v0 id,
    TRef.unary main_call8.v0 main_call8.v1 (broadcastInDim S64x20 ![] bcast_S_S64x20),
    TRef.ternary (.of main_v76) (.of main_v74) main_call8.v1 main_call8.v2 select,
    nullary main_cst_33 (constant S_ .f32 0x00000000#32),
    binary main_v80 main_cst_33 main_v81 ((fun x v => Host.reduceAdd x v reducesTo_S64x20_S_d0_1 h_S_) : (⟨S64x20, .f32⟩ : BufTy).Contents (Elt F) → (⟨S_, .f32⟩ : BufTy).Contents (Elt F) → (⟨S_, .f32⟩ : BufTy).Contents (Elt F)),
    unary main_v79 main_v82 (sitofp .f32 : (⟨S_, .i32⟩ : BufTy).Contents (Elt F) → (⟨S_, .f32⟩ : BufTy).Contents (Elt F)),
    binary main_v81 main_v82 main_v83 (Host.divf : (⟨S_, .f32⟩ : BufTy).Contents (Elt F) → (⟨S_, .f32⟩ : BufTy).Contents (Elt F) → (⟨S_, .f32⟩ : BufTy).Contents (Elt F)),
    nullary main_cst_34 (constant S_ .f32 0x3F800000#32),
    binary main_cst_34 main_v83 main_v84 (mulf : (⟨S_, .f32⟩ : BufTy).Contents (Elt F) → (⟨S_, .f32⟩ : BufTy).Contents (Elt F) → (⟨S_, .f32⟩ : BufTy).Contents (Elt F)),
    nullary main_cst_35 (constant S_ .f32 0x00000000#32),
    nullary main_cst_36 (constant S_ .f32 0x00000000#32),
    binary main_cst_35 main_cst_36 main_v85 (mulf : (⟨S_, .f32⟩ : BufTy).Contents (Elt F) → (⟨S_, .f32⟩ : BufTy).Contents (Elt F) → (⟨S_, .f32⟩ : BufTy).Contents (Elt F)),
    nullary main_cst_37 (constant S_ .f32 0x3A03126F#32),
    binary main_cst_37 main_v48 main_v86 (mulf : (⟨S_, .f32⟩ : BufTy).Contents (Elt F) → (⟨S_, .f32⟩ : BufTy).Contents (Elt F) → (⟨S_, .f32⟩ : BufTy).Contents (Elt F)),
    binary main_v17 main_v86 main_v87 (addf : (⟨S_, .f32⟩ : BufTy).Contents (Elt F) → (⟨S_, .f32⟩ : BufTy).Contents (Elt F) → (⟨S_, .f32⟩ : BufTy).Contents (Elt F)),
    nullary main_cst_38 (constant S_ .f32 0x3E4CCCCD#32),
    binary main_cst_38 main_v32 main_v88 (mulf : (⟨S_, .f32⟩ : BufTy).Contents (Elt F) → (⟨S_, .f32⟩ : BufTy).Contents (Elt F) → (⟨S_, .f32⟩ : BufTy).Contents (Elt F)),
    binary main_v87 main_v88 main_v89 (addf : (⟨S_, .f32⟩ : BufTy).Contents (Elt F) → (⟨S_, .f32⟩ : BufTy).Contents (Elt F) → (⟨S_, .f32⟩ : BufTy).Contents (Elt F)),
    binary main_v89 main_v84 main_v90 (addf : (⟨S_, .f32⟩ : BufTy).Contents (Elt F) → (⟨S_, .f32⟩ : BufTy).Contents (Elt F) → (⟨S_, .f32⟩ : BufTy).Contents (Elt F)),
    binary main_v90 main_v85 main_v91 (addf : (⟨S_, .f32⟩ : BufTy).Contents (Elt F) → (⟨S_, .f32⟩ : BufTy).Contents (Elt F) → (⟨S_, .f32⟩ : BufTy).Contents (Elt F)) ]

-- 179 binds re-associated: the rewrite under the chain recurses once per statement
set_option maxRecDepth 16384 in
set_option maxHeartbeats 4000000 in
/-- @main is that straight line: its three windows and the functions' definitions unfolded at their calls and the
    records at their fields, both sides are one chain of `hlo` steps once sequencing is reassociated
    (`bind_assoc`, `pure_bind`). -/
theorem main_eq (c : Dev nD) : main (F := F) c = seq ops := by
  simp only [main, main_part0, main_part1, main_part2, fn_clip.body, fn_norm.body, fn_softplus.body, fn_log_sigmoid.body,
    fn_log_sigmoid_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: one builder fact per operation, in order. -/
theorem ops_sub : (ops : List (HloOp τ sig (Elt F))).Forall fun op => op.bufs ⊆ tcRefs τ sig :=
  ⟨nullary_bufs_sub .., binary_bufs_sub .., unary_bufs_sub .., unary_bufs_sub .., binary_bufs_sub .., unary_bufs_sub ..,
    nullary_bufs_sub .., unary_bufs_sub .., unary_bufs_sub .., binary_bufs_sub .., nullary_bufs_sub .., unary_bufs_sub ..,
    binary_bufs_sub .., unary_bufs_sub .., nullary_bufs_sub .., unary_bufs_sub .., unary_bufs_sub .., binary_bufs_sub ..,
    binary_bufs_sub .., nullary_bufs_sub .., unary_bufs_sub .., binary_bufs_sub .., binary_bufs_sub .., binary_bufs_sub ..,
    unary_bufs_sub .., nullary_bufs_sub .., binary_bufs_sub .., nullary_bufs_sub .., binary_bufs_sub .., nullary_bufs_sub ..,
    unary_bufs_sub .., unary_bufs_sub .., nullary_bufs_sub .., unary_bufs_sub .., unary_bufs_sub .., binary_bufs_sub ..,
    nullary_bufs_sub .., unary_bufs_sub .., binary_bufs_sub .., unary_bufs_sub .., nullary_bufs_sub .., unary_bufs_sub ..,
    unary_bufs_sub .., binary_bufs_sub .., binary_bufs_sub .., nullary_bufs_sub .., unary_bufs_sub .., binary_bufs_sub ..,
    binary_bufs_sub .., binary_bufs_sub .., unary_bufs_sub .., nullary_bufs_sub .., binary_bufs_sub .., nullary_bufs_sub ..,
    binary_bufs_sub .., nullary_bufs_sub .., binary_bufs_sub .., nullary_bufs_sub .., unary_bufs_sub .., binary_bufs_sub ..,
    binary_bufs_sub .., nullary_bufs_sub .., binary_bufs_sub .., unary_bufs_sub .., nullary_bufs_sub .., unary_bufs_sub ..,
    binary_bufs_sub .., nullary_bufs_sub .., unary_bufs_sub .., binary_bufs_sub .., nullary_bufs_sub .., binary_bufs_sub ..,
    nullary_bufs_sub .., unary_bufs_sub .., binary_bufs_sub .., binary_bufs_sub .., nullary_bufs_sub .., binary_bufs_sub ..,
    unary_bufs_sub .., binary_bufs_sub .., binary_bufs_sub .., nullary_bufs_sub .., binary_bufs_sub .., nullary_bufs_sub ..,
    binary_bufs_sub .., nullary_bufs_sub .., unary_bufs_sub .., binary_bufs_sub .., unary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., unary_bufs_sub .., unary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., unary_bufs_sub .., nullary_bufs_sub .., binary_bufs_sub ..,
    nullary_bufs_sub .., unary_bufs_sub .., binary_bufs_sub .., binary_bufs_sub .., nullary_bufs_sub .., binary_bufs_sub ..,
    nullary_bufs_sub .., unary_bufs_sub .., binary_bufs_sub .., binary_bufs_sub .., nullary_bufs_sub .., unary_bufs_sub ..,
    binary_bufs_sub .., binary_bufs_sub .., nullary_bufs_sub .., binary_bufs_sub .., nullary_bufs_sub .., unary_bufs_sub ..,
    binary_bufs_sub .., binary_bufs_sub .., nullary_bufs_sub .., unary_bufs_sub .., binary_bufs_sub .., binary_bufs_sub ..,
    nullary_bufs_sub .., unary_bufs_sub .., binary_bufs_sub .., unary_bufs_sub .., nullary_bufs_sub .., binary_bufs_sub ..,
    nullary_bufs_sub .., binary_bufs_sub .., nullary_bufs_sub .., unary_bufs_sub .., unary_bufs_sub .., ternary_bufs_sub ..,
    nullary_bufs_sub .., binary_bufs_sub .., unary_bufs_sub .., binary_bufs_sub .., nullary_bufs_sub .., binary_bufs_sub ..,
    nullary_bufs_sub .., nullary_bufs_sub .., binary_bufs_sub .., nullary_bufs_sub .., binary_bufs_sub .., binary_bufs_sub ..,
    nullary_bufs_sub .., binary_bufs_sub .., binary_bufs_sub .., binary_bufs_sub .., binary_bufs_sub ..⟩

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.KernelRun.lean ====
/- The kernel program's run with its full conclusion: every weakly fair execution of @main terminates, nothing faulting,
   and every unscoped TensorCore buffer ends at the last boundary's contents `Gen.W17` — the fold of @main's host
   stretches and of its two regions' write-backs from the launch memory. The launch is the one the frame makes (the same
   segments, thread states and readings); only the last step differs: the reading of the final state is kept whole
   instead of being projected to the argument arrays. -/
import proofs.«172086_j1142461301395_2_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- At the compiled mesh, for any float values, from any memory with zero counters: every weakly fair execution of @main
    on the TensorCores terminates, nothing faulting, and in every final state each unscoped TensorCore buffer holds
    the last boundary's contents `Gen.W17 m ρ c`: the last thread state holds those buffers whole at that valuation,
    and is read against the final state buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- The same at one TensorCore reference that is not scoped: it ends at `Gen.W17` there. -/
theorem run_at : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = Gen.W17 m ρ c (Proc.devRef .tc b)) :=
  (θ_run defs _ _).mono (fun _ h c b hb => h c _ (mem_uc b hb)) (run_all m ρ)

/-- One buffer's final contents: an unscoped TensorCore buffer `b` ends at `Gen.W17 m ρ c` read at `b`. -/
theorem result_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = Gen.W17 m ρ c (Proc.devRef .tc b)) :=
  (θ_run defs _ _).mono (fun _ h c => h c _ (mem_uc b hb)) (run_all m ρ)

end Cert.KernelIdeal.HandRun

end
-- ==== Proof.LibMidAxisSum.lean ====
/- The sum over the middle axis of a rank-3 array, index by index: the specification that a blockwise lane sum
   and a whole-array host reduction both meet. General in the three extents; no program is imported: shapes are
   literal. `midSum x (b, f) = 0 + ∑ k, x (b, k, f)`; `laneSum_apply`: a lane reduction with `add` over axis 1 from the
   neutral accumulator, read at (p, q), is `∑ k, x (p, k, q)`; `hostSum_eq_midSum`: the host's `reduce add` over
   axis 1 from a zero initial value is `midSum`; `lift_mid`: the index a middle-axis reduction inserts. -/
import Idealize.ShloMosaic.Lib.ValueIdx
import Idealize.ShloMosaic.Lib.IdealHost
import Idealize.ShloMosaic.PureOps.Ideal.Laws

noncomputable section

namespace Cert.Lib.MidAxisSum

open Idealize.ShloMosaic Idealize.ShloMosaic.ValueIdx
open scoped BigOperators

/-- Entry (b, f) of the result is zero plus the sum over k of entry (b, k, f) of the operand. -/
def midSum {A K B : Nat} (x : (⟨3, ![A, K, B]⟩ : Shape).Idx → EReal) : (⟨2, ![A, B]⟩ : Shape).Idx → EReal :=
  fun j => 0 + ∑ k : Fin K, x (ix3 (j 0 : Fin A) k (j 1 : Fin B))

theorem midSum_ix2 {A K B : Nat} (x : (⟨3, ![A, K, B]⟩ : Shape).Idx → EReal) (b : Fin A) (f : Fin B) :
    midSum x (ix2 b f) = 0 + ∑ k : Fin K, x (ix3 b k f) := rfl

/-- The source index over (p, q) with k inserted on the middle axis is (p, k, q). -/
theorem lift_mid {A K B : Nat} (h : (⟨3, ![A, K, B]⟩ : Shape).Reduces [1] ⟨2, ![A, B]⟩) (p : Fin A) (q : Fin B) (k : Fin K) :
    h.lift (ix2 p q) k = ix3 p k q := by
  funext c
  apply Fin.ext
  match c with
  | ⟨0, _⟩ => rfl
  | ⟨1, _⟩ => rfl
  | ⟨2, _⟩ => rfl

/-- A lane sum over the middle axis from the neutral accumulator, read at (p, q): the sum over k of entry (p, k, q). -/
theorem laneSum_apply {A K B : Nat} (x : FVec Ideal ⟨3, ![A, K, B]⟩ .f32) (acc : BitVec FTy.f32.bits)
    (h : (⟨3, ![A, K, B]⟩ : Shape).Reduces [1] ⟨2, ![A, B]⟩) (hφ : FKind.Formats .f32)
    (hacc : acc = FKind.add.neutral .f32 hφ) (p : Fin A) (q : Fin B) :
    multiReduction (F := Ideal) .add [1] ⟨2, ![A, B]⟩ x acc h hφ hacc (ix2 p q) = ∑ k : Fin K, x (ix3 p k q) := by
  refine (Ideal.multiReduction_add_single x acc h hφ hacc (ix2 p q)).trans ?_
  show ∑ k : Fin K, x (h.lift (ix2 p q) k) = _
  exact Finset.sum_congr rfl fun k _ => congrArg x (lift_mid h p q k)

/-- The host's reduction over the middle axis from a zero initial value is `midSum`. -/
theorem hostSum_eq_midSum {A K B : Nat} (x : FVec Ideal ⟨3, ![A, K, B]⟩ .f32)
    (hr : (⟨3, ![A, K, B]⟩ : Shape).ReducesTo [1] ⟨2, ![A, B]⟩) (hs : 0 < (⟨0, ![]⟩ : Shape).numel) :
    Host.reduceAdd (F := Ideal) x (constant (F := Ideal) ⟨0, ![]⟩ .f32 0x00000000#32) hr hs = midSum x := by
  have h : (⟨3, ![A, K, B]⟩ : Shape).Reduces [1] ⟨2, ![A, B]⟩ := ⟨hr.1, Nat.zero_lt_two, hr.2⟩
  funext j
  obtain ⟨b, f, rfl⟩ : ∃ (b : Fin A) (f : Fin B), j = ix2 b f := ⟨j 0, j 1, eq_ix2 j⟩
  show Ideal.hostReduceAdd hr x (Ideal.ofBits .f32 0x00000000#32) (ix2 b f) = _
  rw [Ideal.hostReduceAdd_single hr h, Ideal.ofBits_zero_f32, midSum_ix2]
  show 0 + ∑ k : Fin K, x (h.lift (ix2 b f) k) = _
  exact congrArg (fun s => (0 : EReal) + s) (Finset.sum_congr rfl fun k _ => congrArg x (lift_mid h b f k))

end Cert.Lib.MidAxisSum

end
-- ==== Proof.FeatSum.lean ====
/- What the first region leaves in its two result arrays: each is the sum over the middle axis of one operand
   array, as one whole-array function of the region's entry contents. The body sums each [8,200,1024] block over
   its middle axis; the blocks of the 8 x 2 grid tile the [64,2048] result, and a block's lane sum at (p, q) is the
   whole array's middle-axis sum at (8 * i0 + p, 1024 * i1 + q), where (i0, i1) are the point's coordinates. -/
import proofs.«172086_j1142461301395_2_alg».proof.Proof.Gen.KernelIdeal.Frame
import proofs.«172086_j1142461301395_2_alg».proof.Proof.LibMidAxisSum
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.FeatSum

open Cert.KernelIdeal Cert.KernelIdeal.Gen Cert.Lib.MidAxisSum

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The body's two lane sums at an index -/

/-- The body's first lane sum at (p, q): the sum over k of the loaded block at (p, k, q). -/
theorem pay1_apply (x0 : Vec Ideal S8x200x1024 .f32) (p : Fin 8) (q : Fin 1024) :
    k0_pay1 (F := Ideal) x0 (ix2 p q) = ∑ k : Fin 200, x0 (ix3 p k q) := by
  unfold k0_pay1
  exact laneSum_apply x0 _ _ _ _ p q

/-- The body's second lane sum at (p, q): the sum over k of the loaded block at (p, k, q). -/
theorem pay2_apply (x1 : Vec Ideal S8x200x1024 .f32) (p : Fin 8) (q : Fin 1024) :
    k0_pay2 (F := Ideal) x1 (ix2 p q) = ∑ k : Fin 200, x1 (ix3 p k q) := by
  unfold k0_pay2
  exact laneSum_apply x1 _ _ _ _ p q

/-- A block's lane sum is the whole array's middle-axis sum where the block sits: if the block `x0` at block index
    (i0, 0, i1) reads the array `x`, then its lane sum at `y` is `midSum x` at (i0 * 8 + y 0, i1 * 1024 + y 1). -/
theorem pay1_eq_midSum (x : S64x200x2048.Idx → EReal) (x0 : Vec Ideal S8x200x1024 .f32) (i0 i1 : Nat)
    (hx0 : ∀ (p : Fin 8) (k : Fin 200) (q : Fin 1024) (i : S64x200x2048.Idx),
        (i 0).val = i0 * 8 + p.val → (i 1).val = k.val → (i 2).val = i1 * 1024 + q.val → x0 (ix3 p k q) = x i)
    (y : S8x1024.Idx) (i : S64x2048.Idx)
    (hi0 : (i 0).val = i0 * 8 + (y 0).val) (hi1 : (i 1).val = i1 * 1024 + (y 1).val) :
    k0_pay1 (F := Ideal) x0 y = midSum x i := by
  obtain ⟨p, q, rfl⟩ : ∃ (p : Fin 8) (q : Fin 1024), y = ix2 p q := ⟨y 0, y 1, eq_ix2 y⟩
  obtain ⟨b, f, rfl⟩ : ∃ (b : Fin 64) (f : Fin 2048), i = ix2 b f := ⟨i 0, i 1, eq_ix2 i⟩
  rw [pay1_apply, midSum_ix2, zero_add]
  exact Finset.sum_congr rfl fun k _ => hx0 p k q (ix3 b k f) hi0 rfl hi1

/-- The same for the second lane sum. -/
theorem pay2_eq_midSum (x : S64x200x2048.Idx → EReal) (x1 : Vec Ideal S8x200x1024 .f32) (i0 i1 : Nat)
    (hx1 : ∀ (p : Fin 8) (k : Fin 200) (q : Fin 1024) (i : S64x200x2048.Idx),
        (i 0).val = i0 * 8 + p.val → (i 1).val = k.val → (i 2).val = i1 * 1024 + q.val → x1 (ix3 p k q) = x i)
    (y : S8x1024.Idx) (i : S64x2048.Idx)
    (hi0 : (i 0).val = i0 * 8 + (y 0).val) (hi1 : (i 1).val = i1 * 1024 + (y 1).val) :
    k0_pay2 (F := Ideal) x1 y = midSum x i := by
  obtain ⟨p, q, rfl⟩ : ∃ (p : Fin 8) (q : Fin 1024), y = ix2 p q := ⟨y 0, y 1, eq_ix2 y⟩
  obtain ⟨b, f, rfl⟩ : ∃ (b : Fin 64) (f : Fin 2048), i = ix2 b f := ⟨i 0, i 1, eq_ix2 i⟩
  rw [pay2_apply, midSum_ix2, zero_add]
  exact Finset.sum_congr rfl fun k _ => hx1 p k q (ix3 b k f) hi0 rfl hi1

/-! ## The index maps over the grid -/

/-- The printed index maps over the grid: point t has coordinates (t / 2, t % 2); each operand's block index is
    (t / 2, 0, t % 2) and each result's is (t / 2, t % 2). -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = t.val % 2
    ∧ win0_2.index t (0 : Fin 2) = t.val / 2 ∧ win0_2.index t (1 : Fin 2) = t.val % 2
    ∧ win0_3.index t (0 : Fin 2) = t.val / 2 ∧ win0_3.index t (1 : Fin 2) = t.val % 2 :=
  (by decide +kernel : ∀ t : Fin grid0.N, _)

/-! ## The operand blocks, read at an index -/

/-- Operand window 0's block at point t, read at (p, k, q), is its array at (t / 2 * 8 + p, k, t % 2 * 1024 + q). -/
theorem iblk0_0_apply (c : Dev nD) (t : Fin cfg0.N) (p : Fin 8) (k : Fin 200) (q : Fin 1024) (i : S64x200x2048.Idx)
    (h0 : (i 0).val = t.val / 2 * 8 + p.val) (h1 : (i 1).val = k.val) (h2 : (i 2).val = t.val % 2 * 1024 + q.val) :
    (iblk0 V c 0 t : Vec Ideal S8x200x1024 .f32) (ix3 p k q) = (V c main_arg2 : S64x200x2048.Idx → EReal) i := by
  obtain ⟨e0, e1, e2, -⟩ := idx_facts t
  unfold iblk0
  rw [View.read_apply]
  show V c main_arg2 _ = V c main_arg2 _
  refine congrArg _ ?_
  funext a
  apply Fin.ext
  match a with
  | ⟨0, _⟩ => show win0_0.index t (0 : Fin 3) * 8 + 1 * p.val = (i 0).val; rw [e0, h0]; omega
  | ⟨1, _⟩ => show win0_0.index t (1 : Fin 3) * 200 + 1 * k.val = (i 1).val; rw [e1, h1]; omega
  | ⟨2, _⟩ => show win0_0.index t (2 : Fin 3) * 1024 + 1 * q.val = (i 2).val; rw [e2, h2]; omega

/-- Operand window 1's block at point t, read at (p, k, q), is its array at (t / 2 * 8 + p, k, t % 2 * 1024 + q). -/
theorem iblk0_1_apply (c : Dev nD) (t : Fin cfg0.N) (p : Fin 8) (k : Fin 200) (q : Fin 1024) (i : S64x200x2048.Idx)
    (h0 : (i 0).val = t.val / 2 * 8 + p.val) (h1 : (i 1).val = k.val) (h2 : (i 2).val = t.val % 2 * 1024 + q.val) :
    (iblk0 V c 1 t : Vec Ideal S8x200x1024 .f32) (ix3 p k q) = (V c main_arg3 : S64x200x2048.Idx → EReal) i := by
  obtain ⟨-, -, -, e0, e1, e2, -⟩ := idx_facts t
  unfold iblk0
  rw [View.read_apply]
  show V c main_arg3 _ = V c main_arg3 _
  refine congrArg _ ?_
  funext a
  apply Fin.ext
  match a with
  | ⟨0, _⟩ => show win0_1.index t (0 : Fin 3) * 8 + 1 * p.val = (i 0).val; rw [e0, h0]; omega
  | ⟨1, _⟩ => show win0_1.index t (1 : Fin 3) * 200 + 1 * k.val = (i 1).val; rw [e1, h1]; omega
  | ⟨2, _⟩ => show win0_1.index t (2 : Fin 3) * 1024 + 1 * q.val = (i 2).val; rw [e2, h2]; omega

/-! ## What each point writes back -/

/-- What point t writes back to the first result array is block t of the first operand array's middle-axis sum. -/
theorem flushed2_eq (c : Dev nD) (t : Fin cfg0.N) :
    (dat0 (F := Ideal) V c).flushed 2 t = ((cfg0.win 2).blk t).view.read (Elt Ideal) (midSum (V c main_arg2)) := by
  show (cfg0.win 2).cut (grid0.coords t) ((dat0 (F := Ideal) V c).after 2 t) = _
  rw [after0_2]
  unfold out0_2
  rw [View.canon_unit_zero zeros2]
  simp only [View.ld_unit_zero (S := S8x200x1024) zeros3]
  funext j
  obtain ⟨-, -, -, -, -, -, e0, e1, -⟩ := idx_facts t
  show k0_pay1 (F := Ideal) (iblk0 V c 0 t) j = midSum (V c main_arg2) (((cfg0.win 2).blk t).view.emb j)
  refine pay1_eq_midSum (V c main_arg2) (iblk0 V c 0 t) (t.val / 2) (t.val % 2)
    (fun p k q i h0 h1 h2 => iblk0_0_apply V c t p k q i h0 h1 h2) j _ ?_ ?_
  · show win0_2.index t (0 : Fin 2) * 8 + 1 * (j 0).val = _; rw [e0]; omega
  · show win0_2.index t (1 : Fin 2) * 1024 + 1 * (j 1).val = _; rw [e1]; omega

/-- What point t writes back to the second result array is block t of the second operand array's middle-axis sum. -/
theorem flushed3_eq (c : Dev nD) (t : Fin cfg0.N) :
    (dat0 (F := Ideal) V c).flushed 3 t = ((cfg0.win 3).blk t).view.read (Elt Ideal) (midSum (V c main_arg3)) := by
  show (cfg0.win 3).cut (grid0.coords t) ((dat0 (F := Ideal) V c).after 3 t) = _
  rw [after0_3]
  unfold out0_3
  rw [View.canon_unit_zero zeros2]
  simp only [View.ld_unit_zero (S := S8x200x1024) zeros3]
  funext j
  obtain ⟨-, -, -, -, -, -, -, -, e0, e1⟩ := idx_facts t
  show k0_pay2 (F := Ideal) (iblk0 V c 1 t) j = midSum (V c main_arg3) (((cfg0.win 3).blk t).view.emb j)
  refine pay2_eq_midSum (V c main_arg3) (iblk0 V c 1 t) (t.val / 2) (t.val % 2)
    (fun p k q i h0 h1 h2 => iblk0_1_apply V c t p k q i h0 h1 h2) j _ ?_ ?_
  · show win0_3.index t (0 : Fin 2) * 8 + 1 * (j 0).val = _; rw [e0]; omega
  · show win0_3.index t (1 : Fin 2) * 1024 + 1 * (j 1).val = _; rw [e1]; omega

/-! ## The result blocks tile the result arrays -/

/-- An index of the first result array is in point t's block iff each coordinate is in the block's range on its axis. -/
theorem mem_blk2 (t : Fin cfg0.N) (i : S64x2048.Idx) :
    i ∈ ((cfg0.win 2).blk t).view.set ↔ ∀ a : Fin 2, win0_2.index t a * S8x1024.size a ≤ (i a).val ∧ (i a).val < win0_2.index t a * S8x1024.size a + S8x1024.size a := by
  show i ∈ ((View.whole main_v0_0).slice (win0_2.rect t)).set ↔ _
  rw [View.set_slice_whole, Rect.mem_set_unit]
  exact Iff.rfl

/-- An index of the second result array is in point t's block iff each coordinate is in the block's range on its axis. -/
theorem mem_blk3 (t : Fin cfg0.N) (i : S64x2048.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v0_1).slice (win0_3.rect t)).set ↔ _
  rw [View.set_slice_whole, Rect.mem_set_unit]
  exact Iff.rfl

/-- Every element (b, f) of the first result array is in the block of the point with coordinates (b / 8, f / 1024). -/
theorem cover2 (i : S64x2048.Idx) : ∃ t : Fin cfg0.N, (cfg0.win 2).flush t = true ∧ i ∈ ((cfg0.win 2).blk t).view.set := by
  have hi0 : (i 0).val < 64 := (i 0).isLt
  have hi1 : (i 1).val < 2048 := (i 1).isLt
  obtain ⟨t, ht⟩ : ∃ t : Fin cfg0.N, t.val = (i 0).val / 8 * 2 + (i 1).val / 1024 :=
    ⟨Fin.cast N_0.symm ⟨(i 0).val / 8 * 2 + (i 1).val / 1024, by omega⟩, rfl⟩
  obtain ⟨-, -, -, -, -, -, e0, e1, -⟩ := idx_facts t
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; rw [e0]; omega
  | ⟨1, _⟩ => show win0_2.index t (1 : Fin 2) * 1024 ≤ (i 1).val ∧ (i 1).val < win0_2.index t (1 : Fin 2) * 1024 + 1024; rw [e1]; omega

/-- Every element (b, f) of the second result array is in the block of the point with coordinates (b / 8, f / 1024). -/
theorem cover3 (i : S64x2048.Idx) : ∃ t : Fin cfg0.N, (cfg0.win 3).flush t = true ∧ i ∈ ((cfg0.win 3).blk t).view.set := by
  have hi0 : (i 0).val < 64 := (i 0).isLt
  have hi1 : (i 1).val < 2048 := (i 1).isLt
  obtain ⟨t, ht⟩ : ∃ t : Fin cfg0.N, t.val = (i 0).val / 8 * 2 + (i 1).val / 1024 :=
    ⟨Fin.cast N_0.symm ⟨(i 0).val / 8 * 2 + (i 1).val / 1024, by omega⟩, rfl⟩
  obtain ⟨-, -, -, -, -, -, -, -, e0, e1⟩ := idx_facts t
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; rw [e0]; omega
  | ⟨1, _⟩ => show win0_3.index t (1 : Fin 2) * 1024 ≤ (i 1).val ∧ (i 1).val < win0_3.index t (1 : Fin 2) * 1024 + 1024; rw [e1]; omega

/-! ## The result arrays after the region -/

/-- The first result array after the region: the middle-axis sum of the first operand array, spelt as the host's
    reduction over dimension 1 from a zero initial value. -/
theorem final0_2 (c : Dev nD) (hr : S64x200x2048.ReducesTo [1] S64x2048) (hs : 0 < S_.numel) :
    (Gen.dat0 (F := Ideal) V c).arrAt 2 cfg0.N
      = Host.reduceAdd (F := Ideal) (V c main_arg2) (constant (F := Ideal) S_ .f32 0x00000000#32) hr hs :=
  ((dat0 (F := Ideal) V c).arrAt_eq_of_cover 2 (midSum (V c main_arg2)) (fun t _ => flushed2_eq V c t) cover2).trans
    (hostSum_eq_midSum (V c main_arg2) hr hs).symm

/-- The second result array after the region: the middle-axis sum of the second operand array, spelt as the host's
    reduction over dimension 1 from a zero initial value. -/
theorem final0_3 (c : Dev nD) (hr : S64x200x2048.ReducesTo [1] S64x2048) (hs : 0 < S_.numel) :
    (Gen.dat0 (F := Ideal) V c).arrAt 3 cfg0.N
      = Host.reduceAdd (F := Ideal) (V c main_arg3) (constant (F := Ideal) S_ .f32 0x00000000#32) hr hs :=
  ((dat0 (F := Ideal) V c).arrAt_eq_of_cover 3 (midSum (V c main_arg3)) (fun t _ => flushed3_eq V c t) cover3).trans
    (hostSum_eq_midSum (V c main_arg3) hr hs).symm

end Cert.KernelIdeal.FeatSum

end
-- ==== Proof.BcePieces.lean ====
/-
  What one grid point of the second pallas_call leaves in its three accumulator blocks, as values.

  The body of that call adds, into three resident [8, 20] blocks, the sums over the 512 time steps of the
  current tile of three pointwise terms of the two input tiles; at the first tile of a batch row block
  (second grid coordinate 0) it first overwrites the three blocks with zeros. The frame run finds, per case,
  the list of stores each block receives; here each list is read back as one value: in the resetting case the
  block ends at "payload of (the two input tiles, the zero block)", in the accumulating case at "payload of
  (the two input tiles, the block's previous contents)". Nothing here depends on the float instance.
-/
import proofs.«172086_j1142461301395_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.BceSum

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulating case, block of the positive-term sum: the one covering store's payload, its loads reading the two input tiles
    whole and the block's previous contents `xo2`. -/
theorem out_B_2 (c : Dev nD) (i : grid1.Coords) (a2 : Memref sig .tc .vmem S8x512x20 .f32) (h2 : a2.IsWhole)
    (a3 : Memref sig .tc .vmem S8x512x20 .f32) (h3 : a3.IsWhole) (a4 : Memref sig .tc .vmem S8x20 .f32) (h4 : a4.IsWhole)
    (a5 : Memref sig .tc .vmem S8x20 .f32) (h5 : a5.IsWhole) (a6 : Memref sig .tc .vmem S8x20 .f32) (h6 : a6.IsWhole)
    (hc : ¬cond1_0 i) (x0 x1 : Vec F S8x512x20 .f32) (xo2 xo3 xo4 : Vec F S8x20 .f32) :
    out1_B_2 c i a2 h2 a3 h3 a4 h4 a5 h5 a6 h6 hc x0 x1 xo2 xo3 xo4 = k1_pay1 (k1_pay7 x0) (k1_pay8 x1) xo2 := by
  unfold out1_B_2
  rw [View.read_writes_eq_canon _ _ _ (cover1_B_2 c i a2 h2 a3 h3 a4 h4 a5 h5 a6 h6 hc x0 x1 xo2 xo3 xo4)]
  unfold kernelRun1_B
  dsimp only
  sl_unfold_words
  rw [View.canon_unit_zero hz2]
  simp only [View.readAt_eq_ld, h2.read_unread, h3.read_unread, h4.read_unread, h5.read_unread, h6.read_unread,
    View.ld_unit_zero (S := S8x512x20) hz3, View.ld_unit_zero (S := S8x20) hz2]

/-- The resetting case, block of the positive-term sum: the zero block is stored first and read back, then the same payload over it. -/
theorem out_A_2 (c : Dev nD) (i : grid1.Coords) (a2 : Memref sig .tc .vmem S8x512x20 .f32) (h2 : a2.IsWhole)
    (a3 : Memref sig .tc .vmem S8x512x20 .f32) (h3 : a3.IsWhole) (a4 : Memref sig .tc .vmem S8x20 .f32) (h4 : a4.IsWhole)
    (a5 : Memref sig .tc .vmem S8x20 .f32) (h5 : a5.IsWhole) (a6 : Memref sig .tc .vmem S8x20 .f32) (h6 : a6.IsWhole)
    (hc : cond1_0 i) (x0 x1 : Vec F S8x512x20 .f32) :
    out1_A_2 c i a2 h2 a3 h3 a4 h4 a5 h5 a6 h6 hc x0 x1 = k1_pay1 (k1_pay7 x0) (k1_pay8 x1) (k1_pay4 (F := F)) := by
  unfold out1_A_2
  rw [View.read_writes_eq_canon _ _ _ (cover1_A_2 c i a2 h2 a3 h3 a4 h4 a5 h5 a6 h6 hc x0 x1)]
  unfold kernelRun1_A
  dsimp only
  sl_unfold_words
  rw [View.canon_cons_unit_zero (S := S8x20) hz2, View.readCov_unit_zero (S := S8x20) _ hz2]
  simp only [View.readAt_eq_ld, h2.read_unread, h3.read_unread, View.ld_unit_zero (S := S8x512x20) hz3]

/-- The accumulating case, block of the negative-term sum: the one covering store's payload, its loads reading the two input tiles
    whole and the block's previous contents `xo3`. -/
theorem out_B_3 (c : Dev nD) (i : grid1.Coords) (a2 : Memref sig .tc .vmem S8x512x20 .f32) (h2 : a2.IsWhole)
    (a3 : Memref sig .tc .vmem S8x512x20 .f32) (h3 : a3.IsWhole) (a4 : Memref sig .tc .vmem S8x20 .f32) (h4 : a4.IsWhole)
    (a5 : Memref sig .tc .vmem S8x20 .f32) (h5 : a5.IsWhole) (a6 : Memref sig .tc .vmem S8x20 .f32) (h6 : a6.IsWhole)
    (hc : ¬cond1_0 i) (x0 x1 : Vec F S8x512x20 .f32) (xo2 xo3 xo4 : Vec F S8x20 .f32) :
    out1_B_3 c i a2 h2 a3 h3 a4 h4 a5 h5 a6 h6 hc x0 x1 xo2 xo3 xo4 = k1_pay2 (k1_pay7 x0) (k1_pay10 x1) (k1_pay11 x1) (k1_pay12 x1) (k1_pay13 x1) xo3 := by
  unfold out1_B_3
  rw [View.read_writes_eq_canon _ _ _ (cover1_B_3 c i a2 h2 a3 h3 a4 h4 a5 h5 a6 h6 hc x0 x1 xo2 xo3 xo4)]
  unfold kernelRun1_B
  dsimp only
  sl_unfold_words
  rw [View.canon_unit_zero hz2]
  simp only [View.readAt_eq_ld, h2.read_unread, h3.read_unread, h4.read_unread, h5.read_unread, h6.read_unread,
    View.ld_unit_zero (S := S8x512x20) hz3, View.ld_unit_zero (S := S8x20) hz2]

/-- The resetting case, block of the negative-term sum: the zero block is stored first and read back, then the same payload over it. -/
theorem out_A_3 (c : Dev nD) (i : grid1.Coords) (a2 : Memref sig .tc .vmem S8x512x20 .f32) (h2 : a2.IsWhole)
    (a3 : Memref sig .tc .vmem S8x512x20 .f32) (h3 : a3.IsWhole) (a4 : Memref sig .tc .vmem S8x20 .f32) (h4 : a4.IsWhole)
    (a5 : Memref sig .tc .vmem S8x20 .f32) (h5 : a5.IsWhole) (a6 : Memref sig .tc .vmem S8x20 .f32) (h6 : a6.IsWhole)
    (hc : cond1_0 i) (x0 x1 : Vec F S8x512x20 .f32) :
    out1_A_3 c i a2 h2 a3 h3 a4 h4 a5 h5 a6 h6 hc x0 x1 = k1_pay2 (k1_pay7 x0) (k1_pay10 x1) (k1_pay11 x1) (k1_pay12 x1) (k1_pay13 x1) (k1_pay5 (F := F)) := by
  unfold out1_A_3
  rw [View.read_writes_eq_canon _ _ _ (cover1_A_3 c i a2 h2 a3 h3 a4 h4 a5 h5 a6 h6 hc x0 x1)]
  unfold kernelRun1_A
  dsimp only
  sl_unfold_words
  rw [View.canon_cons_unit_zero (S := S8x20) hz2, View.readCov_unit_zero (S := S8x20) _ hz2]
  simp only [View.readAt_eq_ld, h2.read_unread, h3.read_unread, View.ld_unit_zero (S := S8x512x20) hz3]

/-- The accumulating case, block of the positive count: the one covering store's payload, its loads reading the two input tiles
    whole and the block's previous contents `xo4`. -/
theorem out_B_4 (c : Dev nD) (i : grid1.Coords) (a2 : Memref sig .tc .vmem S8x512x20 .f32) (h2 : a2.IsWhole)
    (a3 : Memref sig .tc .vmem S8x512x20 .f32) (h3 : a3.IsWhole) (a4 : Memref sig .tc .vmem S8x20 .f32) (h4 : a4.IsWhole)
    (a5 : Memref sig .tc .vmem S8x20 .f32) (h5 : a5.IsWhole) (a6 : Memref sig .tc .vmem S8x20 .f32) (h6 : a6.IsWhole)
    (hc : ¬cond1_0 i) (x0 x1 : Vec F S8x512x20 .f32) (xo2 xo3 xo4 : Vec F S8x20 .f32) :
    out1_B_4 c i a2 h2 a3 h3 a4 h4 a5 h5 a6 h6 hc x0 x1 xo2 xo3 xo4 = k1_pay3 (k1_pay7 x0) xo4 := by
  unfold out1_B_4
  rw [View.read_writes_eq_canon _ _ _ (cover1_B_4 c i a2 h2 a3 h3 a4 h4 a5 h5 a6 h6 hc x0 x1 xo2 xo3 xo4)]
  unfold kernelRun1_B
  dsimp only
  sl_unfold_words
  rw [View.canon_unit_zero hz2]
  simp only [View.readAt_eq_ld, h2.read_unread, h3.read_unread, h4.read_unread, h5.read_unread, h6.read_unread,
    View.ld_unit_zero (S := S8x512x20) hz3, View.ld_unit_zero (S := S8x20) hz2]

/-- The resetting case, block of the positive count: the zero block is stored first and read back, then the same payload over it. -/
theorem out_A_4 (c : Dev nD) (i : grid1.Coords) (a2 : Memref sig .tc .vmem S8x512x20 .f32) (h2 : a2.IsWhole)
    (a3 : Memref sig .tc .vmem S8x512x20 .f32) (h3 : a3.IsWhole) (a4 : Memref sig .tc .vmem S8x20 .f32) (h4 : a4.IsWhole)
    (a5 : Memref sig .tc .vmem S8x20 .f32) (h5 : a5.IsWhole) (a6 : Memref sig .tc .vmem S8x20 .f32) (h6 : a6.IsWhole)
    (hc : cond1_0 i) (x0 x1 : Vec F S8x512x20 .f32) :
    out1_A_4 c i a2 h2 a3 h3 a4 h4 a5 h5 a6 h6 hc x0 x1 = k1_pay3 (k1_pay7 x0) (k1_pay6 (F := F)) := by
  unfold out1_A_4
  rw [View.read_writes_eq_canon _ _ _ (cover1_A_4 c i a2 h2 a3 h3 a4 h4 a5 h5 a6 h6 hc x0 x1)]
  unfold kernelRun1_A
  dsimp only
  sl_unfold_words
  rw [View.canon_cons_unit_zero (S := S8x20) hz2, View.readCov_unit_zero (S := S8x20) _ hz2]
  simp only [View.readAt_eq_ld, h2.read_unread, h3.read_unread, View.ld_unit_zero (S := S8x512x20) hz3]

end Cert.KernelIdeal.BceSum

end
-- ==== Proof.BceSpec.lean ====
/-
  The three per-(batch, class) sums of the balanced cross-entropy term, as the reference program spells them.

  For score arrays `gt`, `cas` of shape [64, 2048, 20] the reference forms, element by element,
    ind  = 1 if gt > 1/2 else 0,
    lp   = -(log_sigmoid cas),     ln = -(log_sigmoid (-cas)),
  with  log_sigmoid x = -(softplus (-x))  and  softplus y = max y 0 + log1p (exp (-|y - 0|))  (guarded by a
  self-comparison of `y - 0` that never fires on the extended reals), and then sums  lp * ind,  ln * (1 - ind)  and
  ind  over the time axis (axis 1) from the initial value 0. The definitions below are those terms, operation for
  operation, over the shape facts the operations take; everything is read at the exact instance.
-/
import Idealize.ShloMosaic.PureOps.Ideal
import Idealize.ShloMosaic.PureOps.Ideal.Laws
import Idealize.ShloMosaic.Lib.ValueIdx
import Idealize.ShloMosaic.Lib.IdealHost

noncomputable section

open Idealize.ShloMosaic

namespace Cert.BceSpec

/-- The score arrays' shape, a tile's shape, the scalar shape and the sums' shape. -/
abbrev SA : Shape := ⟨3, ![64, 2048, 20]⟩
abbrev ST : Shape := ⟨3, ![8, 512, 20]⟩
abbrev S0 : Shape := ⟨0, ![]⟩
abbrev SO : Shape := ⟨2, ![64, 20]⟩

variable (hb : S0.BroadcastsInDim SA (![] : Fin 0 → Fin SA.rank))

/-- A scalar literal broadcast over the score arrays' shape. -/
def splat (w : BitVec 32) : FVec Ideal SA .f32 :=
  broadcastInDim SA ![] hb (constant (F := Ideal) S0 .f32 w)

/-- `softplus`, as the reference's outlined function computes it. -/
def softplusR (y : FVec Ideal SA .f32) : FVec Ideal SA .f32 :=
  select (cmpf .une (subf y (splat hb 0x00000000#32)) (subf y (splat hb 0x00000000#32)))
    (addf y (splat hb 0x00000000#32))
    (addf (maximumf y (splat hb 0x00000000#32))
      (Host.log1p (Host.exp (Host.negf (Host.absf (subf y (splat hb 0x00000000#32)))))))

/-- `log_sigmoid x = -(softplus (-x))`. -/
def logSigmoidR (x : FVec Ideal SA .f32) : FVec Ideal SA .f32 :=
  Host.negf (softplusR hb (Host.negf x))

/-- The indicator of `gt > 1/2` as a float. -/
def indR (gt : FVec Ideal SA .f32) : FVec Ideal SA .f32 :=
  uitofp .f32 (cmpf .ogt gt (splat hb 0x3F000000#32))

/-- The positive term `lp * ind`. -/
def posTerm (gt cas : FVec Ideal SA .f32) : FVec Ideal SA .f32 :=
  mulf (Host.negf (logSigmoidR hb cas)) (indR hb gt)

/-- The negative term `ln * (1 - ind)`. -/
def negTerm (gt cas : FVec Ideal SA .f32) : FVec Ideal SA .f32 :=
  mulf (Host.negf (logSigmoidR hb (Host.negf cas))) (subf (splat hb 0x3F800000#32) (indR hb gt))

variable (hr : SA.ReducesTo [1] SO) (hs : 0 < S0.numel)

/-- The three sums over the time axis, from the initial value 0. -/
def posSum (gt cas : FVec Ideal SA .f32) : FVec Ideal SO .f32 :=
  Host.reduceAdd (F := Ideal) (posTerm hb gt cas) (constant (F := Ideal) S0 .f32 0x00000000#32) hr hs
def negSum (gt cas : FVec Ideal SA .f32) : FVec Ideal SO .f32 :=
  Host.reduceAdd (F := Ideal) (negTerm hb gt cas) (constant (F := Ideal) S0 .f32 0x00000000#32) hr hs
def cntSum (gt : FVec Ideal SA .f32) : FVec Ideal SO .f32 :=
  Host.reduceAdd (F := Ideal) (indR hb gt) (constant (F := Ideal) S0 .f32 0x00000000#32) hr hs

end Cert.BceSpec

end
-- ==== Proof.BceBlocks.lean ====
/- From the accumulator buffers to the arrays, for the second region: each of its three result arrays is written
   back only at the last of every four points (the points t with t % 4 = 3), one [8,20] block of rows
   8 * (t / 4) … 8 * (t / 4) + 7 at a time; these eight blocks tile the [64,20] array. So if at each such point the
   accumulator buffer holds those rows of one whole-array function `G`, the array ends holding `G`. -/
import proofs.«172086_j1142461301395_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.BceBlocks

open Cert.KernelIdeal Cert.KernelIdeal.Gen

variable (V : (c : Dev nD) → (b : Ref sig .tc) → Buf (Elt Ideal) ((c : Thread nD τ).loc b))

/-- The printed index maps of the three result windows over the grid: at point t the block index is (t / 4, 0). -/
theorem idx_facts : ∀ t : Fin cfg1.N,
    win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0 :=
  (by decide +kernel : ∀ t : Fin grid1.N, _)

/-- A block `o` that holds rows 8 * i0 … 8 * i0 + 7 of `G`, read at `y`, is `G` at (i0 * 8 + y 0, y 1). -/
theorem rows_eq (G : S64x20.Idx → EReal) (o : Vec Ideal S8x20 .f32) (i0 : Nat)
    (ho : ∀ (r : Fin 8) (k : Fin 20) (hq : 8 * i0 + r.val < 64), o (ix2 r k) = G (ix2 (⟨8 * i0 + r.val, hq⟩ : Fin 64) k))
    (y : S8x20.Idx) (i : S64x20.Idx) (hi0 : (i 0).val = i0 * 8 + (y 0).val) (hi1 : (i 1).val = (y 1).val) :
    o y = G i := by
  obtain ⟨r, k, rfl⟩ : ∃ (r : Fin 8) (k : Fin 20), y = ix2 r k := ⟨y 0, y 1, eq_ix2 y⟩
  have hi0' : (i 0).val = i0 * 8 + r.val := hi0
  have hi1' : (i 1).val = k.val := hi1
  have hlt : (i 0).val < 64 := (i 0).isLt
  have hq : 8 * i0 + r.val < 64 := by omega
  rw [ho r k hq]
  refine congrArg G ?_
  funext a
  apply Fin.ext
  match a with
  | ⟨0, _⟩ => show 8 * i0 + r.val = (i 0).val; omega
  | ⟨1, _⟩ => show k.val = (i 1).val; omega

/-- What a flushing point t writes back to result array 0 of the region is block t of `G`, given that the
    accumulator buffer at such a point holds `G`'s rows 8 * (t / 4) … 8 * (t / 4) + 7. -/
theorem flushed2_eq (c : Dev nD) (G : FVec Ideal S64x20 .f32)
    (hacc : ∀ (t : Fin cfg1.N), t.val % 4 = 3 → ∀ (r : Fin 8) (k : Fin 20) (hq : 8 * (t.val / 4) + r.val < 64),
        (outsAt1 (F := Ideal) V c t.val t.isLt).1 (ix2 r k) = G (ix2 (⟨8 * (t.val / 4) + r.val, hq⟩ : Fin 64) k))
    (t : Fin cfg1.N) (hf : (cfg1.win 2).flush t = true) :
    (dat1 (F := Ideal) V c).flushed 2 t = ((cfg1.win 2).blk t).view.read (Elt Ideal) G := by
  have h3 : t.val % 4 = 3 := (flush1_2 t).mp hf
  obtain ⟨e0, e1, -⟩ := idx_facts t
  show (cfg1.win 2).cut (grid1.coords t) ((dat1 (F := Ideal) V c).after 2 t) = _
  rw [after1_2]
  funext j
  show (outsAt1 (F := Ideal) V c t.val t.isLt).1 j = G (((cfg1.win 2).blk t).view.emb j)
  refine rows_eq G _ (t.val / 4) (hacc t h3) j _ ?_ ?_
  · show win1_2.index t (0 : Fin 2) * 8 + 1 * (j 0).val = _; rw [e0]; omega
  · show win1_2.index t (1 : Fin 2) * 20 + 1 * (j 1).val = _; rw [e1]; omega

/-- An index of that result array is in point t's block iff each coordinate is in the block's range on its axis. -/
theorem mem_blk2 (t : Fin cfg1.N) (i : S64x20.Idx) :
    i ∈ ((cfg1.win 2).blk t).view.set ↔ ∀ a : Fin 2, win1_2.index t a * S8x20.size a ≤ (i a).val ∧ (i a).val < win1_2.index t a * S8x20.size a + S8x20.size a := by
  show i ∈ ((View.whole main_v48_0).slice (win1_2.rect t)).set ↔ _
  rw [View.set_slice_whole, Rect.mem_set_unit]
  exact Iff.rfl

/-- Every element (b, k) of that result array is in the block of the flushing point 4 * (b / 8) + 3. -/
theorem cover2 (i : S64x20.Idx) : ∃ t : Fin cfg1.N, (cfg1.win 2).flush t = true ∧ i ∈ ((cfg1.win 2).blk t).view.set := by
  have hi0 : (i 0).val < 64 := (i 0).isLt
  have hi1 : (i 1).val < 20 := (i 1).isLt
  obtain ⟨t, ht⟩ : ∃ t : Fin cfg1.N, t.val = 4 * ((i 0).val / 8) + 3 :=
    ⟨Fin.cast N_1.symm ⟨4 * ((i 0).val / 8) + 3, by omega⟩, rfl⟩
  obtain ⟨e0, e1, -⟩ := idx_facts t
  refine ⟨t, (flush1_2 t).mpr (by omega), ?_⟩
  rw [mem_blk2]
  intro a
  match a with
  | ⟨0, _⟩ => show win1_2.index t (0 : Fin 2) * 8 ≤ (i 0).val ∧ (i 0).val < win1_2.index t (0 : Fin 2) * 8 + 8; rw [e0]; omega
  | ⟨1, _⟩ => show win1_2.index t (1 : Fin 2) * 20 ≤ (i 1).val ∧ (i 1).val < win1_2.index t (1 : Fin 2) * 20 + 20; rw [e1]; omega

/-- Result array 0 of the region after it: `G`, given what the accumulator buffer holds at the flushing points. -/
theorem final1_2 (c : Dev nD) (G : FVec Ideal S64x20 .f32)
    (hacc : ∀ (t : Fin cfg1.N), t.val % 4 = 3 → ∀ (r : Fin 8) (k : Fin 20) (hq : 8 * (t.val / 4) + r.val < 64),
        (Gen.outsAt1 (F := Ideal) V c t.val t.isLt).1 (ValueIdx.ix2 r k) = G (ValueIdx.ix2 (⟨8 * (t.val / 4) + r.val, hq⟩ : Fin 64) k)) :
    (Gen.dat1 (F := Ideal) V c).arrAt 2 cfg1.N = G :=
  (dat1 (F := Ideal) V c).arrAt_eq_of_cover 2 G (fun t hf => flushed2_eq V c G hacc t hf) cover2

/-- What a flushing point t writes back to result array 1 of the region is block t of `G`, given that the
    accumulator buffer at such a point holds `G`'s rows 8 * (t / 4) … 8 * (t / 4) + 7. -/
theorem flushed3_eq (c : Dev nD) (G : FVec Ideal S64x20 .f32)
    (hacc : ∀ (t : Fin cfg1.N), t.val % 4 = 3 → ∀ (r : Fin 8) (k : Fin 20) (hq : 8 * (t.val / 4) + r.val < 64),
        (outsAt1 (F := Ideal) V c t.val t.isLt).2.1 (ix2 r k) = G (ix2 (⟨8 * (t.val / 4) + r.val, hq⟩ : Fin 64) k))
    (t : Fin cfg1.N) (hf : (cfg1.win 3).flush t = true) :
    (dat1 (F := Ideal) V c).flushed 3 t = ((cfg1.win 3).blk t).view.read (Elt Ideal) G := by
  have h3 : t.val % 4 = 3 := (flush1_3 t).mp hf
  obtain ⟨-, -, e0, e1, -⟩ := idx_facts t
  show (cfg1.win 3).cut (grid1.coords t) ((dat1 (F := Ideal) V c).after 3 t) = _
  rw [after1_3]
  funext j
  show (outsAt1 (F := Ideal) V c t.val t.isLt).2.1 j = G (((cfg1.win 3).blk t).view.emb j)
  refine rows_eq G _ (t.val / 4) (hacc t h3) j _ ?_ ?_
  · show win1_3.index t (0 : Fin 2) * 8 + 1 * (j 0).val = _; rw [e0]; omega
  · show win1_3.index t (1 : Fin 2) * 20 + 1 * (j 1).val = _; rw [e1]; omega

/-- An index of that result array is in point t's block iff each coordinate is in the block's range on its axis. -/
theorem mem_blk3 (t : Fin cfg1.N) (i : S64x20.Idx) :
    i ∈ ((cfg1.win 3).blk t).view.set ↔ ∀ a : Fin 2, win1_3.index t a * S8x20.size a ≤ (i a).val ∧ (i a).val < win1_3.index t a * S8x20.size a + S8x20.size a := by
  show i ∈ ((View.whole main_v48_1).slice (win1_3.rect t)).set ↔ _
  rw [View.set_slice_whole, Rect.mem_set_unit]
  exact Iff.rfl

/-- Every element (b, k) of that result array is in the block of the flushing point 4 * (b / 8) + 3. -/
theorem cover3 (i : S64x20.Idx) : ∃ t : Fin cfg1.N, (cfg1.win 3).flush t = true ∧ i ∈ ((cfg1.win 3).blk t).view.set := by
  have hi0 : (i 0).val < 64 := (i 0).isLt
  have hi1 : (i 1).val < 20 := (i 1).isLt
  obtain ⟨t, ht⟩ : ∃ t : Fin cfg1.N, t.val = 4 * ((i 0).val / 8) + 3 :=
    ⟨Fin.cast N_1.symm ⟨4 * ((i 0).val / 8) + 3, by omega⟩, rfl⟩
  obtain ⟨-, -, e0, e1, -⟩ := idx_facts t
  refine ⟨t, (flush1_3 t).mpr (by omega), ?_⟩
  rw [mem_blk3]
  intro a
  match a with
  | ⟨0, _⟩ => show win1_3.index t (0 : Fin 2) * 8 ≤ (i 0).val ∧ (i 0).val < win1_3.index t (0 : Fin 2) * 8 + 8; rw [e0]; omega
  | ⟨1, _⟩ => show win1_3.index t (1 : Fin 2) * 20 ≤ (i 1).val ∧ (i 1).val < win1_3.index t (1 : Fin 2) * 20 + 20; rw [e1]; omega

/-- Result array 1 of the region after it: `G`, given what the accumulator buffer holds at the flushing points. -/
theorem final1_3 (c : Dev nD) (G : FVec Ideal S64x20 .f32)
    (hacc : ∀ (t : Fin cfg1.N), t.val % 4 = 3 → ∀ (r : Fin 8) (k : Fin 20) (hq : 8 * (t.val / 4) + r.val < 64),
        (Gen.outsAt1 (F := Ideal) V c t.val t.isLt).2.1 (ValueIdx.ix2 r k) = G (ValueIdx.ix2 (⟨8 * (t.val / 4) + r.val, hq⟩ : Fin 64) k)) :
    (Gen.dat1 (F := Ideal) V c).arrAt 3 cfg1.N = G :=
  (dat1 (F := Ideal) V c).arrAt_eq_of_cover 3 G (fun t hf => flushed3_eq V c G hacc t hf) cover3

/-- What a flushing point t writes back to result array 2 of the region is block t of `G`, given that the
    accumulator buffer at such a point holds `G`'s rows 8 * (t / 4) … 8 * (t / 4) + 7. -/
theorem flushed4_eq (c : Dev nD) (G : FVec Ideal S64x20 .f32)
    (hacc : ∀ (t : Fin cfg1.N), t.val % 4 = 3 → ∀ (r : Fin 8) (k : Fin 20) (hq : 8 * (t.val / 4) + r.val < 64),
        (outsAt1 (F := Ideal) V c t.val t.isLt).2.2 (ix2 r k) = G (ix2 (⟨8 * (t.val / 4) + r.val, hq⟩ : Fin 64) k))
    (t : Fin cfg1.N) (hf : (cfg1.win 4).flush t = true) :
    (dat1 (F := Ideal) V c).flushed 4 t = ((cfg1.win 4).blk t).view.read (Elt Ideal) G := by
  have h3 : t.val % 4 = 3 := (flush1_4 t).mp hf
  obtain ⟨-, -, -, -, e0, e1⟩ := idx_facts t
  show (cfg1.win 4).cut (grid1.coords t) ((dat1 (F := Ideal) V c).after 4 t) = _
  rw [after1_4]
  funext j
  show (outsAt1 (F := Ideal) V c t.val t.isLt).2.2 j = G (((cfg1.win 4).blk t).view.emb j)
  refine rows_eq G _ (t.val / 4) (hacc t h3) j _ ?_ ?_
  · show win1_4.index t (0 : Fin 2) * 8 + 1 * (j 0).val = _; rw [e0]; omega
  · show win1_4.index t (1 : Fin 2) * 20 + 1 * (j 1).val = _; rw [e1]; omega

/-- An index of that result array is in point t's block iff each coordinate is in the block's range on its axis. -/
theorem mem_blk4 (t : Fin cfg1.N) (i : S64x20.Idx) :
    i ∈ ((cfg1.win 4).blk t).view.set ↔ ∀ a : Fin 2, win1_4.index t a * S8x20.size a ≤ (i a).val ∧ (i a).val < win1_4.index t a * S8x20.size a + S8x20.size a := by
  show i ∈ ((View.whole main_v48_2).slice (win1_4.rect t)).set ↔ _
  rw [View.set_slice_whole, Rect.mem_set_unit]
  exact Iff.rfl

/-- Every element (b, k) of that result array is in the block of the flushing point 4 * (b / 8) + 3. -/
theorem cover4 (i : S64x20.Idx) : ∃ t : Fin cfg1.N, (cfg1.win 4).flush t = true ∧ i ∈ ((cfg1.win 4).blk t).view.set := by
  have hi0 : (i 0).val < 64 := (i 0).isLt
  have hi1 : (i 1).val < 20 := (i 1).isLt
  obtain ⟨t, ht⟩ : ∃ t : Fin cfg1.N, t.val = 4 * ((i 0).val / 8) + 3 :=
    ⟨Fin.cast N_1.symm ⟨4 * ((i 0).val / 8) + 3, by omega⟩, rfl⟩
  obtain ⟨-, -, -, -, e0, e1⟩ := idx_facts t
  refine ⟨t, (flush1_4 t).mpr (by omega), ?_⟩
  rw [mem_blk4]
  intro a
  match a with
  | ⟨0, _⟩ => show win1_4.index t (0 : Fin 2) * 8 ≤ (i 0).val ∧ (i 0).val < win1_4.index t (0 : Fin 2) * 8 + 8; rw [e0]; omega
  | ⟨1, _⟩ => show win1_4.index t (1 : Fin 2) * 20 ≤ (i 1).val ∧ (i 1).val < win1_4.index t (1 : Fin 2) * 20 + 20; rw [e1]; omega

/-- Result array 2 of the region after it: `G`, given what the accumulator buffer holds at the flushing points. -/
theorem final1_4 (c : Dev nD) (G : FVec Ideal S64x20 .f32)
    (hacc : ∀ (t : Fin cfg1.N), t.val % 4 = 3 → ∀ (r : Fin 8) (k : Fin 20) (hq : 8 * (t.val / 4) + r.val < 64),
        (Gen.outsAt1 (F := Ideal) V c t.val t.isLt).2.2 (ValueIdx.ix2 r k) = G (ValueIdx.ix2 (⟨8 * (t.val / 4) + r.val, hq⟩ : Fin 64) k)) :
    (Gen.dat1 (F := Ideal) V c).arrAt 4 cfg1.N = G :=
  (dat1 (F := Ideal) V c).arrAt_eq_of_cover 4 G (fun t hf => flushed4_eq V c G hacc t hf) cover4

end Cert.KernelIdeal.BceBlocks

end
-- ==== Proof.BceAccum.lean ====
/-
  The accumulation over the four time tiles of a batch row block, for the three sums of the second pallas_call.

  Per grid point (q, s) — batch rows 8q … 8q+7, time steps 512s … 512s+511 — the body adds to each of its three
  resident [8, 20] blocks the sum over the tile's 512 time steps of a pointwise term of the two input tiles:
  lp * ind, ln * (1 - ind) and ind, where ind = [gt > 1/2], lp = -log_sigmoid cas, ln = -log_sigmoid (-cas).
  The kernel spells negation as 0 - x, the indicator as a signed conversion of the zero-extended comparison bit, and
  guards softplus by an ordered self-comparison; the reference spells them as negation, an unsigned conversion of the
  bit and an unordered self-comparison. On the extended reals these agree term by term (0 - x = -x, the bit is 0 or
  1 either way, x ≠ x is false either way), so at an index of a tile the kernel's term IS the reference's term at
  the corresponding index of the whole array. Hence after the tile s of row block q the block holds, at (r, c),
  the sum of the reference's term over the time steps 0 … 512(s+1)-1 at batch row 8q + r and class c — by induction
  over the points, the first tile starting from the zero block.
-/
import proofs.«172086_j1142461301395_2_alg».proof.Proof.BcePieces
import proofs.«172086_j1142461301395_2_alg».proof.Proof.BceSpec
import proofs.«172086_j1142461301395_2_alg».proof.Proof.LibMidAxisSum
import proofs.«172086_j1142461301395_2_alg».proof.Proof.BceBlocks
import Idealize.ShloMosaic.Lib.Pipeline.Value
import Idealize.ShloMosaic.Lib.ValueIdx
import Idealize.ShloMosaic.Lib.IdealHost
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.BceSum

open Cert.KernelIdeal Cert.KernelIdeal.Gen Cert.BceSpec Cert.Lib.MidAxisSum

variable (hb : S0.BroadcastsInDim SA (![] : Fin 0 → Fin SA.rank))

/-! ## The scalar facts the two spellings differ by -/

/-- A broadcast scalar literal reads the literal's value everywhere. -/
theorem splat_apply (w : BitVec 32) (i : SA.Idx) : splat hb w i = Ideal.ofBits .f32 w := by
  unfold splat
  rw [broadcastInDim_scalar_apply]
  rfl

/-- A comparison bit is 0 or 1 whether read signed after zero-extension or read unsigned. -/
theorem bit_conv (b : BitVec 1) :
    FloatOps.sitofp (F := Ideal) .f32 (BitVec.setWidth 32 b) = FloatOps.uitofp (F := Ideal) .f32 b := by
  have h : (BitVec.setWidth 32 b).toInt = (b.toNat : ℤ) := by
    rcases BitVec.eq_zero_or_eq_one b with h | h <;> subst h <;> decide
  show (((BitVec.setWidth 32 b).toInt : ℝ) : EReal) = ((b.toNat : ℝ) : EReal)
  rw [h, Int.cast_natCast]

/-- "Ordered and different" and "unordered or different" are the same test where there is no NaN. -/
theorem cmp_one_une (x y : Ideal .f32) :
    FloatOps.cmpf (F := Ideal) CmpFPredicate.one x y = FloatOps.cmpf (F := Ideal) CmpFPredicate.une x y := rfl

/-! ## A payload at an index: the block's previous entry plus the sum of the reference's term over the tile -/

section Payloads

variable (x0 x1 : Vec Ideal S8x512x20 .f32) (xo : Vec Ideal S8x20 .f32) (gt cas : FVec Ideal SA .f32)
  (r : Fin 8) (cc : Fin 20) (e : Fin 512 → SA.Idx)
  (h0 : ∀ k : Fin 512, x0 (ix3 r k cc) = gt (e k)) (h1 : ∀ k : Fin 512, x1 (ix3 r k cc) = cas (e k))

include h0 h1 in
/-- The positive-term block. -/
theorem pay1_at :
    k1_pay1 (F := Ideal) (k1_pay7 x0) (k1_pay8 x1) xo (ix2 r cc) = xo (ix2 r cc) + ∑ k : Fin 512, posTerm hb gt cas (e k) := by
  unfold k1_pay1
  refine (addf_apply _ _ _).trans ?_
  refine congrArg₂ (· + ·) (congrFun (shapeCast_self _ _) _) ?_
  refine (laneSum_apply (A := 8) (K := 512) (B := 20) _ _ _ _ _ r cc).trans ?_
  refine Finset.sum_congr rfl fun k _ => ?_
  unfold k1_pay8 k1_pay7 posTerm logSigmoidR softplusR indR
  simp only [mulf, subf, addf, maximumf, absf, exp, log1p, cmpf, select, sitofp, uitofp, extui, broadcast,
    Host.negf, Host.absf, Host.exp, Host.log1p, splat_apply, h0 k, h1 k]
  simp only [Ideal.ofBits_def, Ideal.subf_def, Ideal.addf_def, Ideal.mulf_def, Ideal.negf_def, Ideal.hostNegf_def,
    Ideal.hostAbsf_def, Ideal.maximumf_def, Ideal.exp_def, Ideal.log1p_def, Ideal.hostUnary_exp_def, Ideal.hostUnary_log1p_def,
    Ideal.ofBits_zero_f32, zero_sub, sub_zero, add_zero, bit_conv, cmp_one_une]

include h0 h1 in
/-- The negative-term block. -/
theorem pay2_at :
    k1_pay2 (F := Ideal) (k1_pay7 x0) (k1_pay10 x1) (k1_pay11 x1) (k1_pay12 x1) (k1_pay13 x1) xo (ix2 r cc)
      = xo (ix2 r cc) + ∑ k : Fin 512, negTerm hb gt cas (e k) := by
  unfold k1_pay2
  refine (addf_apply _ _ _).trans ?_
  refine congrArg₂ (· + ·) (congrFun (shapeCast_self _ _) _) ?_
  refine (laneSum_apply (A := 8) (K := 512) (B := 20) _ _ _ _ _ r cc).trans ?_
  refine Finset.sum_congr rfl fun k _ => ?_
  unfold k1_pay13 k1_pay12 k1_pay11 k1_pay10 k1_pay9 k1_pay7 negTerm logSigmoidR softplusR indR
  simp only [mulf, subf, addf, maximumf, absf, exp, log1p, cmpf, select, sitofp, uitofp, extui, broadcast,
    Host.negf, Host.absf, Host.exp, Host.log1p, splat_apply, h0 k, h1 k]
  simp only [Ideal.ofBits_def, Ideal.subf_def, Ideal.addf_def, Ideal.mulf_def, Ideal.negf_def, Ideal.hostNegf_def,
    Ideal.hostAbsf_def, Ideal.maximumf_def, Ideal.exp_def, Ideal.log1p_def, Ideal.hostUnary_exp_def, Ideal.hostUnary_log1p_def,
    Ideal.ofBits_zero_f32, zero_sub, sub_zero, add_zero, bit_conv, cmp_one_une]

include h0 in
/-- The positive-count block. -/
theorem pay3_at :
    k1_pay3 (F := Ideal) (k1_pay7 x0) xo (ix2 r cc) = xo (ix2 r cc) + ∑ k : Fin 512, indR hb gt (e k) := by
  unfold k1_pay3
  refine (addf_apply _ _ _).trans ?_
  refine congrArg₂ (· + ·) (congrFun (shapeCast_self _ _) _) ?_
  refine (laneSum_apply (A := 8) (K := 512) (B := 20) _ _ _ _ _ r cc).trans ?_
  refine Finset.sum_congr rfl fun k _ => ?_
  unfold k1_pay7 indR
  simp only [mulf, subf, addf, maximumf, absf, exp, log1p, cmpf, select, sitofp, uitofp, extui, broadcast,
    Host.negf, Host.absf, Host.exp, Host.log1p, splat_apply, h0 k]
  simp only [Ideal.ofBits_def, Ideal.subf_def, Ideal.addf_def, Ideal.mulf_def, Ideal.negf_def, Ideal.hostNegf_def,
    Ideal.hostAbsf_def, Ideal.maximumf_def, Ideal.exp_def, Ideal.log1p_def, Ideal.hostUnary_exp_def, Ideal.hostUnary_log1p_def,
    Ideal.ofBits_zero_f32, zero_sub, sub_zero, add_zero, bit_conv, cmp_one_une]

end Payloads

/-! ## Where a tile sits in the score arrays -/

/-- The two input windows' block indices at point `t`: batch block `t / 4`, time tile `t % 4`, all classes. -/
theorem idx_in : ∀ t : Fin cfg1.N, win1_0.index t (0 : Fin 3) = t.val / 4 ∧ win1_0.index t (1 : Fin 3) = t.val % 4
    ∧ win1_0.index t (2 : Fin 3) = 0 ∧ win1_1.index t (0 : Fin 3) = t.val / 4 ∧ win1_1.index t (1 : Fin 3) = t.val % 4
    ∧ win1_1.index t (2 : Fin 3) = 0 :=
  (by decide +kernel : ∀ t : Fin grid1.N, _)

section Blocks

variable (V : (c : Dev nD) → (b : Ref sig .tc) → Buf (Elt Ideal) ((c : Thread nD τ).loc b)) (c : Dev nD)

/-- Entry (r, k, cc) of the `gt` tile at point `t` is entry (8 (t / 4) + r, 512 (t % 4) + k, cc) of the array. -/
theorem blk0_at (t : Fin cfg1.N) (r : Fin 8) (k : Fin 512) (cc : Fin 20) (hq : 8 * (t.val / 4) + r.val < 64)
    (hT : 512 * (t.val % 4) + k.val < 2048) :
    iblk1 (F := Ideal) V c 0 t (ix3 r k cc)
      = V c main_arg5 (ix3 (⟨8 * (t.val / 4) + r.val, hq⟩ : Fin 64) (⟨512 * (t.val % 4) + k.val, hT⟩ : Fin 2048) cc) := by
  obtain ⟨e0, e1, e2, -, -, -⟩ := idx_in t
  unfold iblk1
  rw [View.read_apply]
  show V c main_arg5 (((cfg1.win 0).blk t).view.emb (ix3 r k cc)) = _
  refine congrArg (V c main_arg5) ?_
  funext a
  apply Fin.ext
  match a with
  | ⟨0, _⟩ => show win1_0.index t (0 : Fin 3) * 8 + 1 * r.val = 8 * (t.val / 4) + r.val; rw [e0]; omega
  | ⟨1, _⟩ => show win1_0.index t (1 : Fin 3) * 512 + 1 * k.val = 512 * (t.val % 4) + k.val; rw [e1]; omega
  | ⟨2, _⟩ => show win1_0.index t (2 : Fin 3) * 20 + 1 * cc.val = cc.val; rw [e2]; omega

/-- The same for the `cas` tile. -/
theorem blk1_at (t : Fin cfg1.N) (r : Fin 8) (k : Fin 512) (cc : Fin 20) (hq : 8 * (t.val / 4) + r.val < 64)
    (hT : 512 * (t.val % 4) + k.val < 2048) :
    iblk1 (F := Ideal) V c 1 t (ix3 r k cc)
      = V c main_arg6 (ix3 (⟨8 * (t.val / 4) + r.val, hq⟩ : Fin 64) (⟨512 * (t.val % 4) + k.val, hT⟩ : Fin 2048) cc) := by
  obtain ⟨-, -, -, e0, e1, e2⟩ := idx_in t
  unfold iblk1
  rw [View.read_apply]
  show V c main_arg6 (((cfg1.win 1).blk t).view.emb (ix3 r k cc)) = _
  refine congrArg (V c main_arg6) ?_
  funext a
  apply Fin.ext
  match a with
  | ⟨0, _⟩ => show win1_1.index t (0 : Fin 3) * 8 + 1 * r.val = 8 * (t.val / 4) + r.val; rw [e0]; omega
  | ⟨1, _⟩ => show win1_1.index t (1 : Fin 3) * 512 + 1 * k.val = 512 * (t.val % 4) + k.val; rw [e1]; omega
  | ⟨2, _⟩ => show win1_1.index t (2 : Fin 3) * 20 + 1 * cc.val = cc.val; rw [e2]; omega

end Blocks

/-! ## Partial sums along the time axis -/

/-- The term `P` at batch row `b`, class `cc` and time step `T` (zero past the end of the axis): the summand of the
    partial sums, indexed by a natural number so that a sum over the first `512 (s + 1)` steps splits off its last tile. -/
def along (P : SA.Idx → EReal) (b : Fin 64) (cc : Fin 20) (T : ℕ) : EReal :=
  if h : T < 2048 then P (ix3 b (⟨T, h⟩ : Fin 2048) cc) else 0

/-- The whole time axis: the reference's sum (zero plus the sum over all 2048 steps) is the partial sum of all tiles. -/
theorem midSum_eq_range (P : FVec Ideal SA .f32) (b : Fin 64) (cc : Fin 20) :
    midSum (A := 64) (K := 2048) (B := 20) P (ix2 b cc) = ∑ T ∈ Finset.range 2048, along P b cc T := by
  rw [midSum_ix2, zero_add, ← Fin.sum_univ_eq_sum_range (fun T => along P b cc T) 2048]
  refine Finset.sum_congr rfl fun k _ => ?_
  unfold along
  rw [dif_pos k.isLt]

/-- ONE POINT'S STEP: a block entry that held the partial sum of the first `s` tiles, plus the sum of the term over
    tile `s`, holds the partial sum of the first `s + 1` tiles. -/
theorem step_sum (P : SA.Idx → EReal) (b : Fin 64) (cc : Fin 20) (s : ℕ) (hs : s < 4) (a : EReal)
    (e : Fin 512 → SA.Idx) (he : ∀ k : Fin 512, ∃ h : 512 * s + k.val < 2048, e k = ix3 b (⟨512 * s + k.val, h⟩ : Fin 2048) cc)
    (ha : a = ∑ T ∈ Finset.range (512 * s), along P b cc T) :
    a + ∑ k : Fin 512, P (e k) = ∑ T ∈ Finset.range (512 * (s + 1)), along P b cc T := by
  rw [Nat.mul_succ, Finset.sum_range_add, ← ha, ← Fin.sum_univ_eq_sum_range (fun x => along P b cc (512 * s + x)) 512]
  refine congrArg (a + ·) (Finset.sum_congr rfl fun k _ => ?_)
  obtain ⟨h, hk⟩ := he k
  unfold along
  rw [dif_pos h, hk]

/-! ## What the three blocks hold after each point -/

section Invariant

variable (V : (c : Dev nD) → (b : Ref sig .tc) → Buf (Elt Ideal) ((c : Thread nD τ).loc b)) (c : Dev nD)

/-- The resetting case (`t % 4 = 0`) for the block of the positive-term sum: it ends at the partial sum of the first tile. -/
theorem posA (t : Fin cfg1.N) (hA : t.val % 4 = 0) (r : Fin 8) (cc : Fin 20) (hq : 8 * (t.val / 4) + r.val < 64) :
    (outsAt1 (F := Ideal) V c t.val t.isLt).1 (ix2 r cc)
      = ∑ T ∈ Finset.range (512 * (t.val % 4 + 1)), along (posTerm hb (V c main_arg5) (V c main_arg6)) ⟨8 * (t.val / 4) + r.val, hq⟩ cc T := by
  have hlt : t.val % 4 < 4 := Nat.mod_lt _ (by decide)
  let e : Fin 512 → SA.Idx := fun k =>
    ix3 (⟨8 * (t.val / 4) + r.val, hq⟩ : Fin 64) (⟨512 * (t.val % 4) + k.val, by omega⟩ : Fin 2048) cc
  have h0 : ∀ k : Fin 512, iblk1 (F := Ideal) V c 0 t (ix3 r k cc) = V c main_arg5 (e k) := fun k =>
    blk0_at V c t r k cc hq (by omega)
  have h1 : ∀ k : Fin 512, iblk1 (F := Ideal) V c 1 t (ix3 r k cc) = V c main_arg6 (e k) := fun k =>
    blk1_at V c t r k cc hq (by omega)
  rw [outsAt1_A V c t hA]
  dsimp only
  rw [out_A_2]
  refine (pay1_at hb (iblk1 (F := Ideal) V c 0 t) (iblk1 (F := Ideal) V c 1 t) (k1_pay4 (F := Ideal)) (V c main_arg5) (V c main_arg6) r cc e h0 h1).trans ?_
  refine step_sum _ _ cc (t.val % 4) hlt _ e (fun k => ⟨by omega, rfl⟩) ?_
  show Ideal.ofBits .f32 0x00000000#32 = _
  rw [hA, Nat.mul_zero, Finset.range_zero, Finset.sum_empty]
  exact Ideal.ofBits_zero_f32

/-- The accumulating case (`t % 4 ≠ 0`) for the block of the positive-term sum: over the partial sum the point before left, it ends at
    the partial sum with this tile added. -/
theorem posB (t : Fin cfg1.N) (hB : ¬t.val % 4 = 0) (r : Fin 8) (cc : Fin 20) (hq : 8 * (t.val / 4) + r.val < 64)
    (prev : (outsAt1 (F := Ideal) V c (t.val - 1) (Nat.lt_of_le_of_lt (Nat.sub_le _ _) t.isLt)).1 (ix2 r cc)
      = ∑ T ∈ Finset.range (512 * (t.val % 4)), along (posTerm hb (V c main_arg5) (V c main_arg6)) ⟨8 * (t.val / 4) + r.val, hq⟩ cc T) :
    (outsAt1 (F := Ideal) V c t.val t.isLt).1 (ix2 r cc)
      = ∑ T ∈ Finset.range (512 * (t.val % 4 + 1)), along (posTerm hb (V c main_arg5) (V c main_arg6)) ⟨8 * (t.val / 4) + r.val, hq⟩ cc T := by
  have hlt : t.val % 4 < 4 := Nat.mod_lt _ (by decide)
  let e : Fin 512 → SA.Idx := fun k =>
    ix3 (⟨8 * (t.val / 4) + r.val, hq⟩ : Fin 64) (⟨512 * (t.val % 4) + k.val, by omega⟩ : Fin 2048) cc
  have h0 : ∀ k : Fin 512, iblk1 (F := Ideal) V c 0 t (ix3 r k cc) = V c main_arg5 (e k) := fun k =>
    blk0_at V c t r k cc hq (by omega)
  have h1 : ∀ k : Fin 512, iblk1 (F := Ideal) V c 1 t (ix3 r k cc) = V c main_arg6 (e k) := fun k =>
    blk1_at V c t r k cc hq (by omega)
  rw [outsAt1_B V c t hB]
  dsimp only
  rw [out_B_2]
  refine (pay1_at hb (iblk1 (F := Ideal) V c 0 t) (iblk1 (F := Ideal) V c 1 t) _ (V c main_arg5) (V c main_arg6) r cc e h0 h1).trans ?_
  exact step_sum _ _ cc (t.val % 4) hlt _ e (fun k => ⟨by omega, rfl⟩) prev

/-- After point `n` (batch block `n / 4`, time tile `n % 4`) the block of the positive-term sum holds, at (r, cc), the sum of the
    reference's term over the time steps below `512 (n % 4 + 1)` at batch row `8 (n / 4) + r`: by induction over the points. -/
theorem pos_acc : ∀ (n : ℕ) (hn : n < cfg1.N) (r : Fin 8) (cc : Fin 20) (hq : 8 * (n / 4) + r.val < 64),
    (outsAt1 (F := Ideal) V c n hn).1 (ix2 r cc)
      = ∑ T ∈ Finset.range (512 * (n % 4 + 1)), along (posTerm hb (V c main_arg5) (V c main_arg6)) ⟨8 * (n / 4) + r.val, hq⟩ cc T
  | 0, hn, r, cc, hq => posA hb V c ⟨0, hn⟩ rfl r cc hq
  | n + 1, hn, r, cc, hq => by
    by_cases h : (n + 1) % 4 = 0
    · exact posA hb V c ⟨n + 1, hn⟩ h r cc hq
    · refine posB hb V c ⟨n + 1, hn⟩ h r cc hq ?_
      have hq' : 8 * (n / 4) + r.val < 64 := by omega
      have e1 : n % 4 + 1 = (n + 1) % 4 := by omega
      have e2 : (⟨8 * (n / 4) + r.val, hq'⟩ : Fin 64) = ⟨8 * ((n + 1) / 4) + r.val, hq⟩ := Fin.ext (by show 8 * (n / 4) + r.val = 8 * ((n + 1) / 4) + r.val; omega)
      show (outsAt1 (F := Ideal) V c n _).1 (ix2 r cc) = _
      rw [pos_acc n (Nat.lt_of_succ_lt hn) r cc hq', e1, e2]

/-- The resetting case (`t % 4 = 0`) for the block of the negative-term sum: it ends at the partial sum of the first tile. -/
theorem negA (t : Fin cfg1.N) (hA : t.val % 4 = 0) (r : Fin 8) (cc : Fin 20) (hq : 8 * (t.val / 4) + r.val < 64) :
    (outsAt1 (F := Ideal) V c t.val t.isLt).2.1 (ix2 r cc)
      = ∑ T ∈ Finset.range (512 * (t.val % 4 + 1)), along (negTerm hb (V c main_arg5) (V c main_arg6)) ⟨8 * (t.val / 4) + r.val, hq⟩ cc T := by
  have hlt : t.val % 4 < 4 := Nat.mod_lt _ (by decide)
  let e : Fin 512 → SA.Idx := fun k =>
    ix3 (⟨8 * (t.val / 4) + r.val, hq⟩ : Fin 64) (⟨512 * (t.val % 4) + k.val, by omega⟩ : Fin 2048) cc
  have h0 : ∀ k : Fin 512, iblk1 (F := Ideal) V c 0 t (ix3 r k cc) = V c main_arg5 (e k) := fun k =>
    blk0_at V c t r k cc hq (by omega)
  have h1 : ∀ k : Fin 512, iblk1 (F := Ideal) V c 1 t (ix3 r k cc) = V c main_arg6 (e k) := fun k =>
    blk1_at V c t r k cc hq (by omega)
  rw [outsAt1_A V c t hA]
  dsimp only
  rw [out_A_3]
  refine (pay2_at hb (iblk1 (F := Ideal) V c 0 t) (iblk1 (F := Ideal) V c 1 t) (k1_pay5 (F := Ideal)) (V c main_arg5) (V c main_arg6) r cc e h0 h1).trans ?_
  refine step_sum _ _ cc (t.val % 4) hlt _ e (fun k => ⟨by omega, rfl⟩) ?_
  show Ideal.ofBits .f32 0x00000000#32 = _
  rw [hA, Nat.mul_zero, Finset.range_zero, Finset.sum_empty]
  exact Ideal.ofBits_zero_f32

/-- The accumulating case (`t % 4 ≠ 0`) for the block of the negative-term sum: over the partial sum the point before left, it ends at
    the partial sum with this tile added. -/
theorem negB (t : Fin cfg1.N) (hB : ¬t.val % 4 = 0) (r : Fin 8) (cc : Fin 20) (hq : 8 * (t.val / 4) + r.val < 64)
    (prev : (outsAt1 (F := Ideal) V c (t.val - 1) (Nat.lt_of_le_of_lt (Nat.sub_le _ _) t.isLt)).2.1 (ix2 r cc)
      = ∑ T ∈ Finset.range (512 * (t.val % 4)), along (negTerm hb (V c main_arg5) (V c main_arg6)) ⟨8 * (t.val / 4) + r.val, hq⟩ cc T) :
    (outsAt1 (F := Ideal) V c t.val t.isLt).2.1 (ix2 r cc)
      = ∑ T ∈ Finset.range (512 * (t.val % 4 + 1)), along (negTerm hb (V c main_arg5) (V c main_arg6)) ⟨8 * (t.val / 4) + r.val, hq⟩ cc T := by
  have hlt : t.val % 4 < 4 := Nat.mod_lt _ (by decide)
  let e : Fin 512 → SA.Idx := fun k =>
    ix3 (⟨8 * (t.val / 4) + r.val, hq⟩ : Fin 64) (⟨512 * (t.val % 4) + k.val, by omega⟩ : Fin 2048) cc
  have h0 : ∀ k : Fin 512, iblk1 (F := Ideal) V c 0 t (ix3 r k cc) = V c main_arg5 (e k) := fun k =>
    blk0_at V c t r k cc hq (by omega)
  have h1 : ∀ k : Fin 512, iblk1 (F := Ideal) V c 1 t (ix3 r k cc) = V c main_arg6 (e k) := fun k =>
    blk1_at V c t r k cc hq (by omega)
  rw [outsAt1_B V c t hB]
  dsimp only
  rw [out_B_3]
  refine (pay2_at hb (iblk1 (F := Ideal) V c 0 t) (iblk1 (F := Ideal) V c 1 t) _ (V c main_arg5) (V c main_arg6) r cc e h0 h1).trans ?_
  exact step_sum _ _ cc (t.val % 4) hlt _ e (fun k => ⟨by omega, rfl⟩) prev

/-- After point `n` (batch block `n / 4`, time tile `n % 4`) the block of the negative-term sum holds, at (r, cc), the sum of the
    reference's term over the time steps below `512 (n % 4 + 1)` at batch row `8 (n / 4) + r`: by induction over the points. -/
theorem neg_acc : ∀ (n : ℕ) (hn : n < cfg1.N) (r : Fin 8) (cc : Fin 20) (hq : 8 * (n / 4) + r.val < 64),
    (outsAt1 (F := Ideal) V c n hn).2.1 (ix2 r cc)
      = ∑ T ∈ Finset.range (512 * (n % 4 + 1)), along (negTerm hb (V c main_arg5) (V c main_arg6)) ⟨8 * (n / 4) + r.val, hq⟩ cc T
  | 0, hn, r, cc, hq => negA hb V c ⟨0, hn⟩ rfl r cc hq
  | n + 1, hn, r, cc, hq => by
    by_cases h : (n + 1) % 4 = 0
    · exact negA hb V c ⟨n + 1, hn⟩ h r cc hq
    · refine negB hb V c ⟨n + 1, hn⟩ h r cc hq ?_
      have hq' : 8 * (n / 4) + r.val < 64 := by omega
      have e1 : n % 4 + 1 = (n + 1) % 4 := by omega
      have e2 : (⟨8 * (n / 4) + r.val, hq'⟩ : Fin 64) = ⟨8 * ((n + 1) / 4) + r.val, hq⟩ := Fin.ext (by show 8 * (n / 4) + r.val = 8 * ((n + 1) / 4) + r.val; omega)
      show (outsAt1 (F := Ideal) V c n _).2.1 (ix2 r cc) = _
      rw [neg_acc n (Nat.lt_of_succ_lt hn) r cc hq', e1, e2]

/-- The resetting case (`t % 4 = 0`) for the block of the positive count: it ends at the partial sum of the first tile. -/
theorem cntA (t : Fin cfg1.N) (hA : t.val % 4 = 0) (r : Fin 8) (cc : Fin 20) (hq : 8 * (t.val / 4) + r.val < 64) :
    (outsAt1 (F := Ideal) V c t.val t.isLt).2.2 (ix2 r cc)
      = ∑ T ∈ Finset.range (512 * (t.val % 4 + 1)), along (indR hb (V c main_arg5)) ⟨8 * (t.val / 4) + r.val, hq⟩ cc T := by
  have hlt : t.val % 4 < 4 := Nat.mod_lt _ (by decide)
  let e : Fin 512 → SA.Idx := fun k =>
    ix3 (⟨8 * (t.val / 4) + r.val, hq⟩ : Fin 64) (⟨512 * (t.val % 4) + k.val, by omega⟩ : Fin 2048) cc
  have h0 : ∀ k : Fin 512, iblk1 (F := Ideal) V c 0 t (ix3 r k cc) = V c main_arg5 (e k) := fun k =>
    blk0_at V c t r k cc hq (by omega)
  rw [outsAt1_A V c t hA]
  dsimp only
  rw [out_A_4]
  refine (pay3_at hb (iblk1 (F := Ideal) V c 0 t) (k1_pay6 (F := Ideal)) (V c main_arg5) r cc e h0).trans ?_
  refine step_sum _ _ cc (t.val % 4) hlt _ e (fun k => ⟨by omega, rfl⟩) ?_
  show Ideal.ofBits .f32 0x00000000#32 = _
  rw [hA, Nat.mul_zero, Finset.range_zero, Finset.sum_empty]
  exact Ideal.ofBits_zero_f32

/-- The accumulating case (`t % 4 ≠ 0`) for the block of the positive count: over the partial sum the point before left, it ends at
    the partial sum with this tile added. -/
theorem cntB (t : Fin cfg1.N) (hB : ¬t.val % 4 = 0) (r : Fin 8) (cc : Fin 20) (hq : 8 * (t.val / 4) + r.val < 64)
    (prev : (outsAt1 (F := Ideal) V c (t.val - 1) (Nat.lt_of_le_of_lt (Nat.sub_le _ _) t.isLt)).2.2 (ix2 r cc)
      = ∑ T ∈ Finset.range (512 * (t.val % 4)), along (indR hb (V c main_arg5)) ⟨8 * (t.val / 4) + r.val, hq⟩ cc T) :
    (outsAt1 (F := Ideal) V c t.val t.isLt).2.2 (ix2 r cc)
      = ∑ T ∈ Finset.range (512 * (t.val % 4 + 1)), along (indR hb (V c main_arg5)) ⟨8 * (t.val / 4) + r.val, hq⟩ cc T := by
  have hlt : t.val % 4 < 4 := Nat.mod_lt _ (by decide)
  let e : Fin 512 → SA.Idx := fun k =>
    ix3 (⟨8 * (t.val / 4) + r.val, hq⟩ : Fin 64) (⟨512 * (t.val % 4) + k.val, by omega⟩ : Fin 2048) cc
  have h0 : ∀ k : Fin 512, iblk1 (F := Ideal) V c 0 t (ix3 r k cc) = V c main_arg5 (e k) := fun k =>
    blk0_at V c t r k cc hq (by omega)
  rw [outsAt1_B V c t hB]
  dsimp only
  rw [out_B_4]
  refine (pay3_at hb (iblk1 (F := Ideal) V c 0 t) _ (V c main_arg5) r cc e h0).trans ?_
  exact step_sum _ _ cc (t.val % 4) hlt _ e (fun k => ⟨by omega, rfl⟩) prev

/-- After point `n` (batch block `n / 4`, time tile `n % 4`) the block of the positive count holds, at (r, cc), the sum of the
    reference's term over the time steps below `512 (n % 4 + 1)` at batch row `8 (n / 4) + r`: by induction over the points. -/
theorem cnt_acc : ∀ (n : ℕ) (hn : n < cfg1.N) (r : Fin 8) (cc : Fin 20) (hq : 8 * (n / 4) + r.val < 64),
    (outsAt1 (F := Ideal) V c n hn).2.2 (ix2 r cc)
      = ∑ T ∈ Finset.range (512 * (n % 4 + 1)), along (indR hb (V c main_arg5)) ⟨8 * (n / 4) + r.val, hq⟩ cc T
  | 0, hn, r, cc, hq => cntA hb V c ⟨0, hn⟩ rfl r cc hq
  | n + 1, hn, r, cc, hq => by
    by_cases h : (n + 1) % 4 = 0
    · exact cntA hb V c ⟨n + 1, hn⟩ h r cc hq
    · refine cntB hb V c ⟨n + 1, hn⟩ h r cc hq ?_
      have hq' : 8 * (n / 4) + r.val < 64 := by omega
      have e1 : n % 4 + 1 = (n + 1) % 4 := by omega
      have e2 : (⟨8 * (n / 4) + r.val, hq'⟩ : Fin 64) = ⟨8 * ((n + 1) / 4) + r.val, hq⟩ := Fin.ext (by show 8 * (n / 4) + r.val = 8 * ((n + 1) / 4) + r.val; omega)
      show (outsAt1 (F := Ideal) V c n _).2.2 (ix2 r cc) = _
      rw [cnt_acc n (Nat.lt_of_succ_lt hn) r cc hq', e1, e2]

end Invariant

/-! ## The three output arrays of the second pallas_call -/

section Finals

variable (V : (c : Dev nD) → (b : Ref sig .tc) → Buf (Elt Ideal) ((c : Thread nD τ).loc b)) (c : Dev nD)
  (hr : SA.ReducesTo [1] SO) (hs : 0 < S0.numel)

/-- The first output array ends holding the reference's sum over time of `lp * ind` of the two score arrays as the
    region finds them: at the write-back points (`t % 4 = 3`) the block holds the partial sum of all four tiles, which
    is the whole sum, and those points' blocks cover the array. -/
theorem final_pos : (dat1 (F := Ideal) V c).arrAt 2 cfg1.N = posSum hb hr hs (V c main_arg5) (V c main_arg6) :=
  Cert.KernelIdeal.BceBlocks.final1_2 V c _ fun t h3 r k hq => by
    rw [pos_acc hb V c t.val t.isLt r k hq, h3]
    unfold posSum
    rw [hostSum_eq_midSum]
    exact (midSum_eq_range _ _ _).symm

/-- The second output array: the sum over time of `ln * (1 - ind)`. -/
theorem final_neg : (dat1 (F := Ideal) V c).arrAt 3 cfg1.N = negSum hb hr hs (V c main_arg5) (V c main_arg6) :=
  Cert.KernelIdeal.BceBlocks.final1_3 V c _ fun t h3 r k hq => by
    rw [neg_acc hb V c t.val t.isLt r k hq, h3]
    unfold negSum
    rw [hostSum_eq_midSum]
    exact (midSum_eq_range _ _ _).symm

/-- The third output array: the count of `gt > 1/2` over time. -/
theorem final_cnt : (dat1 (F := Ideal) V c).arrAt 4 cfg1.N = cntSum hb hr hs (V c main_arg5) :=
  Cert.KernelIdeal.BceBlocks.final1_4 V c _ fun t h3 r k hq => by
    rw [cnt_acc hb V c t.val t.isLt r k hq, h3]
    unfold cntSum
    rw [hostSum_eq_midSum]
    exact (midSum_eq_range _ _ _).symm

end Finals

end Cert.KernelIdeal.BceSum

end
-- ==== Proof.Bridge.lean ====
/- The two idealized programs compute the same six results. Each side's result is read back as one closed term of
   the float operations over the launch contents: the reference's by folding its operation list; the kernel's by folding
   its host stretches back through the two regions, whose outputs are given (hypotheses) as the sums the regions
   compute. The two terms are then the same tree of operations over the same arguments. -/
import proofs.«172086_j1142461301395_2_alg».proof.Proof.RefRun
import proofs.«172086_j1142461301395_2_alg».proof.Proof.Gen.KernelIdeal.Frame
import proofs.«172086_j1142461301395_2_alg».proof.Proof.BceSpec

set_option maxRecDepth 16384

noncomputable section

namespace Cert.Bridge

open Idealize.ShloMosaic Idealize.ShloMosaic.TcCoe Idealize.SL.Sem Idealize.ShloMosaic.StableHlo

/-! ## The kernel side: reading the boundary contents back through the regions -/

section KernelSide
open Cert.KernelIdeal Cert.KernelIdeal.Gen

variable (m : (ℓ : Loc nD τ sig) → Buf (Elt Ideal) ℓ) (ρ : Dev nD → PrngReg) (c : Dev nD)

/-- A buffer that is no array of region 1 leaves the region as it entered. -/
theorem W14_ne (b : Ref sig .tc) (hb : ∀ w, Pipeline.arrRef spec1 w ≠ b) :
    W14 m ρ c (no_index (Proc.devRef .tc b)) = W13 m ρ c (Proc.devRef .tc b) := W14_of_ne m ρ c b hb
/-- A buffer that is no array of region 0 leaves the region as it entered. -/
theorem W1_ne (b : Ref sig .tc) (hb : ∀ w, Pipeline.arrRef spec0 w ≠ b) :
    W1 m ρ c (no_index (Proc.devRef .tc b)) = W0 m ρ c (Proc.devRef .tc b) := W1_of_ne m ρ c b hb
/-- Region 1's three outputs hold what its write-backs leave. -/
theorem W14_v48_0 : W14 m ρ c (no_index (Proc.devRef .tc main_v48_0)) = (dat1 (V13 m ρ) c).arrAt 2 cfg1.N := W14_arr m ρ c 2
theorem W14_v48_1 : W14 m ρ c (no_index (Proc.devRef .tc main_v48_1)) = (dat1 (V13 m ρ) c).arrAt 3 cfg1.N := W14_arr m ρ c 3
theorem W14_v48_2 : W14 m ρ c (no_index (Proc.devRef .tc main_v48_2)) = (dat1 (V13 m ρ) c).arrAt 4 cfg1.N := W14_arr m ρ c 4
/-- Region 0's two outputs hold what its write-backs leave. -/
theorem W1_v0_0 : W1 m ρ c (no_index (Proc.devRef .tc main_v0_0)) = (dat0 (V0 m ρ) c).arrAt 2 cfg0.N := W1_arr m ρ c 2
theorem W1_v0_1 : W1 m ρ c (no_index (Proc.devRef .tc main_v0_1)) = (dat0 (V0 m ρ) c).arrAt 3 cfg0.N := W1_arr m ρ c 3
/-- The launch contents are the launch memory. -/
theorem W0_eq (b : Ref sig .tc) : W0 m ρ c (no_index (Proc.devRef .tc b)) = m ((c.tc : Thread nD τ).loc b) := rfl

end KernelSide

/-! ## The six results, one at a time

Both sides are folded to closed terms (the fold's result lemmas, the references' inequalities by computation), the
regions' outputs replaced by their given values, the specification's definitions unfolded, and the reference's launch
contents replaced by the kernel's where the two memories agree; what is left is one tree of operations on both sides
(up to the typed references' transports along type equations that hold by computation). -/

section Results
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
/-- The total: the weighted sum of the five partial losses. -/
theorem res_v91
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hr0 : Cert.KernelIdeal.S64x200x2048.ReducesTo [1] Cert.KernelIdeal.S64x2048)
    (hs : 0 < Cert.KernelIdeal.S_.numel)
    (hb : BceSpec.S0.BroadcastsInDim BceSpec.SA (![] : Fin 0 → Fin BceSpec.SA.rank))
    (hr : BceSpec.SA.ReducesTo [1] BceSpec.SO)
    (h02 : (Cert.KernelIdeal.Gen.dat0 (F := Ideal) (Cert.KernelIdeal.Gen.V0 m ρ) c).arrAt 2 Cert.KernelIdeal.cfg0.N
        = Host.reduceAdd (F := Ideal) (Cert.KernelIdeal.Gen.V0 m ρ c Cert.KernelIdeal.main_arg2) (constant (F := Ideal) Cert.KernelIdeal.S_ .f32 0x00000000#32) hr0 hs)
    (h03 : (Cert.KernelIdeal.Gen.dat0 (F := Ideal) (Cert.KernelIdeal.Gen.V0 m ρ) c).arrAt 3 Cert.KernelIdeal.cfg0.N
        = Host.reduceAdd (F := Ideal) (Cert.KernelIdeal.Gen.V0 m ρ c Cert.KernelIdeal.main_arg3) (constant (F := Ideal) Cert.KernelIdeal.S_ .f32 0x00000000#32) hr0 hs)
    (h12 : (Cert.KernelIdeal.Gen.dat1 (F := Ideal) (Cert.KernelIdeal.Gen.V13 m ρ) c).arrAt 2 Cert.KernelIdeal.cfg1.N
        = BceSpec.posSum hb hr hs (Cert.KernelIdeal.Gen.V13 m ρ c Cert.KernelIdeal.main_arg5) (Cert.KernelIdeal.Gen.V13 m ρ c Cert.KernelIdeal.main_arg6))
    (h13 : (Cert.KernelIdeal.Gen.dat1 (F := Ideal) (Cert.KernelIdeal.Gen.V13 m ρ) c).arrAt 3 Cert.KernelIdeal.cfg1.N
        = BceSpec.negSum hb hr hs (Cert.KernelIdeal.Gen.V13 m ρ c Cert.KernelIdeal.main_arg5) (Cert.KernelIdeal.Gen.V13 m ρ c Cert.KernelIdeal.main_arg6))
    (h14 : (Cert.KernelIdeal.Gen.dat1 (F := Ideal) (Cert.KernelIdeal.Gen.V13 m ρ) c).arrAt 4 Cert.KernelIdeal.cfg1.N
        = BceSpec.cntSum hb hr hs (Cert.KernelIdeal.Gen.V13 m ρ c Cert.KernelIdeal.main_arg5)) :
    after (Cert.ReferenceIdeal.HandRun.ops (F := Ideal)) (launchContents m' c) (Proc.devRef .tc Cert.ReferenceIdeal.main_v91) = Cert.KernelIdeal.Gen.W17 m ρ c (Proc.devRef .tc Cert.KernelIdeal.main_v76) := by
  obtain ⟨e0, e1, e2, e3, e4, e5, e6⟩ := hagree
  have a0 : launchContents m' c (Proc.devRef .tc Cert.ReferenceIdeal.main_arg0) = m ((c.tc : Thread Cert.KernelIdeal.nD Cert.KernelIdeal.τ).loc Cert.KernelIdeal.main_arg0) := e0
  have a1 : launchContents m' c (Proc.devRef .tc Cert.ReferenceIdeal.main_arg1) = m ((c.tc : Thread Cert.KernelIdeal.nD Cert.KernelIdeal.τ).loc Cert.KernelIdeal.main_arg1) := e1
  have a2 : launchContents m' c (Proc.devRef .tc Cert.ReferenceIdeal.main_arg2) = m ((c.tc : Thread Cert.KernelIdeal.nD Cert.KernelIdeal.τ).loc Cert.KernelIdeal.main_arg2) := e2
  have a3 : launchContents m' c (Proc.devRef .tc Cert.ReferenceIdeal.main_arg3) = m ((c.tc : Thread Cert.KernelIdeal.nD Cert.KernelIdeal.τ).loc Cert.KernelIdeal.main_arg3) := e3
  have a4 : launchContents m' c (Proc.devRef .tc Cert.ReferenceIdeal.main_arg4) = m ((c.tc : Thread Cert.KernelIdeal.nD Cert.KernelIdeal.τ).loc Cert.KernelIdeal.main_arg4) := e4
  have a5 : launchContents m' c (Proc.devRef .tc Cert.ReferenceIdeal.main_arg5) = m ((c.tc : Thread Cert.KernelIdeal.nD Cert.KernelIdeal.τ).loc Cert.KernelIdeal.main_arg5) := e5
  have a6 : launchContents m' c (Proc.devRef .tc Cert.ReferenceIdeal.main_arg6) = m ((c.tc : Thread Cert.KernelIdeal.nD Cert.KernelIdeal.τ).loc Cert.KernelIdeal.main_arg6) := e6
  -- both folds to closed terms; the kernel's stops at the regions' outputs
  simp (disch := decide) only [Cert.KernelIdeal.Gen.W17, after_cons, after_nil,
      nullary_result', unary_result', binary_result', ternary_result',
      nullary_result_ne', unary_result_ne', binary_result_ne', ternary_result_ne',
      W14_ne, W14_v48_0, W14_v48_1, W14_v48_2, W1_ne, W1_v0_0, W1_v0_1, W0_eq]
  -- the regions' outputs at their given values, whose own operands are folded back to the launch memory
  simp only [h12, h13, h14, h02, h03]
  simp (disch := decide) only [Cert.KernelIdeal.Gen.V13, Cert.KernelIdeal.Gen.V0, after_cons, after_nil,
      nullary_result', unary_result', binary_result', ternary_result',
      nullary_result_ne', unary_result_ne', binary_result_ne', ternary_result_ne',
      W14_ne, W14_v48_0, W14_v48_1, W14_v48_2, W1_ne, W1_v0_0, W1_v0_1, W0_eq]
  simp only [BceSpec.posSum, BceSpec.negSum, BceSpec.cntSum, BceSpec.posTerm, BceSpec.negTerm, BceSpec.indR, BceSpec.logSigmoidR, BceSpec.softplusR, BceSpec.splat]
  -- the reference's arguments are the kernel's; the two trees then agree up to transports along equations true by computation
  try simp only [a0, a1, a2, a3, a4, a5, a6]
  try rfl

set_option maxHeartbeats 8000000 in
/-- The first classification loss: the mean cross-entropy of `arg0` against the normalized labels. -/
theorem res_v17
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
     :
    after (Cert.ReferenceIdeal.HandRun.ops (F := Ideal)) (launchContents m' c) (Proc.devRef .tc Cert.ReferenceIdeal.main_v17) = Cert.KernelIdeal.Gen.W17 m ρ c (Proc.devRef .tc Cert.KernelIdeal.main_v32) := by
  obtain ⟨e0, e1, e2, e3, e4, e5, e6⟩ := hagree
  have a0 : launchContents m' c (Proc.devRef .tc Cert.ReferenceIdeal.main_arg0) = m ((c.tc : Thread Cert.KernelIdeal.nD Cert.KernelIdeal.τ).loc Cert.KernelIdeal.main_arg0) := e0
  have a1 : launchContents m' c (Proc.devRef .tc Cert.ReferenceIdeal.main_arg1) = m ((c.tc : Thread Cert.KernelIdeal.nD Cert.KernelIdeal.τ).loc Cert.KernelIdeal.main_arg1) := e1
  have a2 : launchContents m' c (Proc.devRef .tc Cert.ReferenceIdeal.main_arg2) = m ((c.tc : Thread Cert.KernelIdeal.nD Cert.KernelIdeal.τ).loc Cert.KernelIdeal.main_arg2) := e2
  have a3 : launchContents m' c (Proc.devRef .tc Cert.ReferenceIdeal.main_arg3) = m ((c.tc : Thread Cert.KernelIdeal.nD Cert.KernelIdeal.τ).loc Cert.KernelIdeal.main_arg3) := e3
  have a4 : launchContents m' c (Proc.devRef .tc Cert.ReferenceIdeal.main_arg4) = m ((c.tc : Thread Cert.KernelIdeal.nD Cert.KernelIdeal.τ).loc Cert.KernelIdeal.main_arg4) := e4
  have a5 : launchContents m' c (Proc.devRef .tc Cert.ReferenceIdeal.main_arg5) = m ((c.tc : Thread Cert.KernelIdeal.nD Cert.KernelIdeal.τ).loc Cert.KernelIdeal.main_arg5) := e5
  have a6 : launchContents m' c (Proc.devRef .tc Cert.ReferenceIdeal.main_arg6) = m ((c.tc : Thread Cert.KernelIdeal.nD Cert.KernelIdeal.τ).loc Cert.KernelIdeal.main_arg6) := e6
  -- both folds to closed terms; the kernel's stops at the regions' outputs
  simp (disch := decide) only [Cert.KernelIdeal.Gen.W17, after_cons, after_nil,
      nullary_result', unary_result', binary_result', ternary_result',
      nullary_result_ne', unary_result_ne', binary_result_ne', ternary_result_ne',
      W14_ne, W14_v48_0, W14_v48_1, W14_v48_2, W1_ne, W1_v0_0, W1_v0_1, W0_eq]
  -- the reference's arguments are the kernel's; the two trees then agree up to transports along equations true by computation
  try simp only [a0, a1, a2, a3, a4, a5, a6]
  try rfl

set_option maxHeartbeats 8000000 in
/-- The second classification loss: the mean cross-entropy of `arg1` against the constant 0.05. -/
theorem res_v32
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
     :
    after (Cert.ReferenceIdeal.HandRun.ops (F := Ideal)) (launchContents m' c) (Proc.devRef .tc Cert.ReferenceIdeal.main_v32) = Cert.KernelIdeal.Gen.W17 m ρ c (Proc.devRef .tc Cert.KernelIdeal.main_v47) := by
  obtain ⟨e0, e1, e2, e3, e4, e5, e6⟩ := hagree
  have a0 : launchContents m' c (Proc.devRef .tc Cert.ReferenceIdeal.main_arg0) = m ((c.tc : Thread Cert.KernelIdeal.nD Cert.KernelIdeal.τ).loc Cert.KernelIdeal.main_arg0) := e0
  have a1 : launchContents m' c (Proc.devRef .tc Cert.ReferenceIdeal.main_arg1) = m ((c.tc : Thread Cert.KernelIdeal.nD Cert.KernelIdeal.τ).loc Cert.KernelIdeal.main_arg1) := e1
  have a2 : launchContents m' c (Proc.devRef .tc Cert.ReferenceIdeal.main_arg2) = m ((c.tc : Thread Cert.KernelIdeal.nD Cert.KernelIdeal.τ).loc Cert.KernelIdeal.main_arg2) := e2
  have a3 : launchContents m' c (Proc.devRef .tc Cert.ReferenceIdeal.main_arg3) = m ((c.tc : Thread Cert.KernelIdeal.nD Cert.KernelIdeal.τ).loc Cert.KernelIdeal.main_arg3) := e3
  have a4 : launchContents m' c (Proc.devRef .tc Cert.ReferenceIdeal.main_arg4) = m ((c.tc : Thread Cert.KernelIdeal.nD Cert.KernelIdeal.τ).loc Cert.KernelIdeal.main_arg4) := e4
  have a5 : launchContents m' c (Proc.devRef .tc Cert.ReferenceIdeal.main_arg5) = m ((c.tc : Thread Cert.KernelIdeal.nD Cert.KernelIdeal.τ).loc Cert.KernelIdeal.main_arg5) := e5
  have a6 : launchContents m' c (Proc.devRef .tc Cert.ReferenceIdeal.main_arg6) = m ((c.tc : Thread Cert.KernelIdeal.nD Cert.KernelIdeal.τ).loc Cert.KernelIdeal.main_arg6) := e6
  -- both folds to closed terms; the kernel's stops at the regions' outputs
  simp (disch := decide) only [Cert.KernelIdeal.Gen.W17, after_cons, after_nil,
      nullary_result', unary_result', binary_result', ternary_result',
      nullary_result_ne', unary_result_ne', binary_result_ne', ternary_result_ne',
      W14_ne, W14_v48_0, W14_v48_1, W14_v48_2, W1_ne, W1_v0_0, W1_v0_1, W0_eq]
  -- the reference's arguments are the kernel's; the two trees then agree up to transports along equations true by computation
  try simp only [a0, a1, a2, a3, a4, a5, a6]
  try rfl

set_option maxHeartbeats 8000000 in
/-- The norm loss, from region 0's two outputs (the feature sums over axis 1). -/
theorem res_v48
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hr0 : Cert.KernelIdeal.S64x200x2048.ReducesTo [1] Cert.KernelIdeal.S64x2048)
    (hs : 0 < Cert.KernelIdeal.S_.numel)
    (h02 : (Cert.KernelIdeal.Gen.dat0 (F := Ideal) (Cert.KernelIdeal.Gen.V0 m ρ) c).arrAt 2 Cert.KernelIdeal.cfg0.N
        = Host.reduceAdd (F := Ideal) (Cert.KernelIdeal.Gen.V0 m ρ c Cert.KernelIdeal.main_arg2) (constant (F := Ideal) Cert.KernelIdeal.S_ .f32 0x00000000#32) hr0 hs)
    (h03 : (Cert.KernelIdeal.Gen.dat0 (F := Ideal) (Cert.KernelIdeal.Gen.V0 m ρ) c).arrAt 3 Cert.KernelIdeal.cfg0.N
        = Host.reduceAdd (F := Ideal) (Cert.KernelIdeal.Gen.V0 m ρ c Cert.KernelIdeal.main_arg3) (constant (F := Ideal) Cert.KernelIdeal.S_ .f32 0x00000000#32) hr0 hs) :
    after (Cert.ReferenceIdeal.HandRun.ops (F := Ideal)) (launchContents m' c) (Proc.devRef .tc Cert.ReferenceIdeal.main_v48) = Cert.KernelIdeal.Gen.W17 m ρ c (Proc.devRef .tc Cert.KernelIdeal.main_v14) := by
  obtain ⟨e0, e1, e2, e3, e4, e5, e6⟩ := hagree
  have a0 : launchContents m' c (Proc.devRef .tc Cert.ReferenceIdeal.main_arg0) = m ((c.tc : Thread Cert.KernelIdeal.nD Cert.KernelIdeal.τ).loc Cert.KernelIdeal.main_arg0) := e0
  have a1 : launchContents m' c (Proc.devRef .tc Cert.ReferenceIdeal.main_arg1) = m ((c.tc : Thread Cert.KernelIdeal.nD Cert.KernelIdeal.τ).loc Cert.KernelIdeal.main_arg1) := e1
  have a2 : launchContents m' c (Proc.devRef .tc Cert.ReferenceIdeal.main_arg2) = m ((c.tc : Thread Cert.KernelIdeal.nD Cert.KernelIdeal.τ).loc Cert.KernelIdeal.main_arg2) := e2
  have a3 : launchContents m' c (Proc.devRef .tc Cert.ReferenceIdeal.main_arg3) = m ((c.tc : Thread Cert.KernelIdeal.nD Cert.KernelIdeal.τ).loc Cert.KernelIdeal.main_arg3) := e3
  have a4 : launchContents m' c (Proc.devRef .tc Cert.ReferenceIdeal.main_arg4) = m ((c.tc : Thread Cert.KernelIdeal.nD Cert.KernelIdeal.τ).loc Cert.KernelIdeal.main_arg4) := e4
  have a5 : launchContents m' c (Proc.devRef .tc Cert.ReferenceIdeal.main_arg5) = m ((c.tc : Thread Cert.KernelIdeal.nD Cert.KernelIdeal.τ).loc Cert.KernelIdeal.main_arg5) := e5
  have a6 : launchContents m' c (Proc.devRef .tc Cert.ReferenceIdeal.main_arg6) = m ((c.tc : Thread Cert.KernelIdeal.nD Cert.KernelIdeal.τ).loc Cert.KernelIdeal.main_arg6) := e6
  -- both folds to closed terms; the kernel's stops at the regions' outputs
  simp (disch := decide) only [Cert.KernelIdeal.Gen.W17, after_cons, after_nil,
      nullary_result', unary_result', binary_result', ternary_result',
      nullary_result_ne', unary_result_ne', binary_result_ne', ternary_result_ne',
      W14_ne, W14_v48_0, W14_v48_1, W14_v48_2, W1_ne, W1_v0_0, W1_v0_1, W0_eq]
  -- the regions' outputs at their given values, whose own operands are folded back to the launch memory
  simp only [h02, h03]
  simp (disch := decide) only [Cert.KernelIdeal.Gen.V13, Cert.KernelIdeal.Gen.V0, after_cons, after_nil,
      nullary_result', unary_result', binary_result', ternary_result',
      nullary_result_ne', unary_result_ne', binary_result_ne', ternary_result_ne',
      W14_ne, W14_v48_0, W14_v48_1, W14_v48_2, W1_ne, W1_v0_0, W1_v0_1, W0_eq]
  -- the reference's arguments are the kernel's; the two trees then agree up to transports along equations true by computation
  try simp only [a0, a1, a2, a3, a4, a5, a6]
  try rfl

set_option maxHeartbeats 8000000 in
/-- The balanced cross-entropy loss, from region 1's three outputs (the positive, negative and count sums over the time axis). -/
theorem res_v84
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hs : 0 < Cert.KernelIdeal.S_.numel)
    (hb : BceSpec.S0.BroadcastsInDim BceSpec.SA (![] : Fin 0 → Fin BceSpec.SA.rank))
    (hr : BceSpec.SA.ReducesTo [1] BceSpec.SO)
    (h12 : (Cert.KernelIdeal.Gen.dat1 (F := Ideal) (Cert.KernelIdeal.Gen.V13 m ρ) c).arrAt 2 Cert.KernelIdeal.cfg1.N
        = BceSpec.posSum hb hr hs (Cert.KernelIdeal.Gen.V13 m ρ c Cert.KernelIdeal.main_arg5) (Cert.KernelIdeal.Gen.V13 m ρ c Cert.KernelIdeal.main_arg6))
    (h13 : (Cert.KernelIdeal.Gen.dat1 (F := Ideal) (Cert.KernelIdeal.Gen.V13 m ρ) c).arrAt 3 Cert.KernelIdeal.cfg1.N
        = BceSpec.negSum hb hr hs (Cert.KernelIdeal.Gen.V13 m ρ c Cert.KernelIdeal.main_arg5) (Cert.KernelIdeal.Gen.V13 m ρ c Cert.KernelIdeal.main_arg6))
    (h14 : (Cert.KernelIdeal.Gen.dat1 (F := Ideal) (Cert.KernelIdeal.Gen.V13 m ρ) c).arrAt 4 Cert.KernelIdeal.cfg1.N
        = BceSpec.cntSum hb hr hs (Cert.KernelIdeal.Gen.V13 m ρ c Cert.KernelIdeal.main_arg5)) :
    after (Cert.ReferenceIdeal.HandRun.ops (F := Ideal)) (launchContents m' c) (Proc.devRef .tc Cert.ReferenceIdeal.main_v84) = Cert.KernelIdeal.Gen.W17 m ρ c (Proc.devRef .tc Cert.KernelIdeal.main_v69) := by
  obtain ⟨e0, e1, e2, e3, e4, e5, e6⟩ := hagree
  have a0 : launchContents m' c (Proc.devRef .tc Cert.ReferenceIdeal.main_arg0) = m ((c.tc : Thread Cert.KernelIdeal.nD Cert.KernelIdeal.τ).loc Cert.KernelIdeal.main_arg0) := e0
  have a1 : launchContents m' c (Proc.devRef .tc Cert.ReferenceIdeal.main_arg1) = m ((c.tc : Thread Cert.KernelIdeal.nD Cert.KernelIdeal.τ).loc Cert.KernelIdeal.main_arg1) := e1
  have a2 : launchContents m' c (Proc.devRef .tc Cert.ReferenceIdeal.main_arg2) = m ((c.tc : Thread Cert.KernelIdeal.nD Cert.KernelIdeal.τ).loc Cert.KernelIdeal.main_arg2) := e2
  have a3 : launchContents m' c (Proc.devRef .tc Cert.ReferenceIdeal.main_arg3) = m ((c.tc : Thread Cert.KernelIdeal.nD Cert.KernelIdeal.τ).loc Cert.KernelIdeal.main_arg3) := e3
  have a4 : launchContents m' c (Proc.devRef .tc Cert.ReferenceIdeal.main_arg4) = m ((c.tc : Thread Cert.KernelIdeal.nD Cert.KernelIdeal.τ).loc Cert.KernelIdeal.main_arg4) := e4
  have a5 : launchContents m' c (Proc.devRef .tc Cert.ReferenceIdeal.main_arg5) = m ((c.tc : Thread Cert.KernelIdeal.nD Cert.KernelIdeal.τ).loc Cert.KernelIdeal.main_arg5) := e5
  have a6 : launchContents m' c (Proc.devRef .tc Cert.ReferenceIdeal.main_arg6) = m ((c.tc : Thread Cert.KernelIdeal.nD Cert.KernelIdeal.τ).loc Cert.KernelIdeal.main_arg6) := e6
  -- both folds to closed terms; the kernel's stops at the regions' outputs
  simp (disch := decide) only [Cert.KernelIdeal.Gen.W17, after_cons, after_nil,
      nullary_result', unary_result', binary_result', ternary_result',
      nullary_result_ne', unary_result_ne', binary_result_ne', ternary_result_ne',
      W14_ne, W14_v48_0, W14_v48_1, W14_v48_2, W1_ne, W1_v0_0, W1_v0_1, W0_eq]
  -- the regions' outputs at their given values, whose own operands are folded back to the launch memory
  simp only [h12, h13, h14]
  simp (disch := decide) only [Cert.KernelIdeal.Gen.V13, Cert.KernelIdeal.Gen.V0, after_cons, after_nil,
      nullary_result', unary_result', binary_result', ternary_result',
      nullary_result_ne', unary_result_ne', binary_result_ne', ternary_result_ne',
      W14_ne, W14_v48_0, W14_v48_1, W14_v48_2, W1_ne, W1_v0_0, W1_v0_1, W0_eq]
  simp only [BceSpec.posSum, BceSpec.negSum, BceSpec.cntSum, BceSpec.posTerm, BceSpec.negTerm, BceSpec.indR, BceSpec.logSigmoidR, BceSpec.softplusR, BceSpec.splat]
  -- the reference's arguments are the kernel's; the two trees then agree up to transports along equations true by computation
  try simp only [a0, a1, a2, a3, a4, a5, a6]
  try rfl

set_option maxHeartbeats 8000000 in
/-- The constant sixth result `0 * 0`. -/
theorem res_v85
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
     :
    after (Cert.ReferenceIdeal.HandRun.ops (F := Ideal)) (launchContents m' c) (Proc.devRef .tc Cert.ReferenceIdeal.main_v85) = Cert.KernelIdeal.Gen.W17 m ρ c (Proc.devRef .tc Cert.KernelIdeal.main_v70) := by
  obtain ⟨e0, e1, e2, e3, e4, e5, e6⟩ := hagree
  have a0 : launchContents m' c (Proc.devRef .tc Cert.ReferenceIdeal.main_arg0) = m ((c.tc : Thread Cert.KernelIdeal.nD Cert.KernelIdeal.τ).loc Cert.KernelIdeal.main_arg0) := e0
  have a1 : launchContents m' c (Proc.devRef .tc Cert.ReferenceIdeal.main_arg1) = m ((c.tc : Thread Cert.KernelIdeal.nD Cert.KernelIdeal.τ).loc Cert.KernelIdeal.main_arg1) := e1
  have a2 : launchContents m' c (Proc.devRef .tc Cert.ReferenceIdeal.main_arg2) = m ((c.tc : Thread Cert.KernelIdeal.nD Cert.KernelIdeal.τ).loc Cert.KernelIdeal.main_arg2) := e2
  have a3 : launchContents m' c (Proc.devRef .tc Cert.ReferenceIdeal.main_arg3) = m ((c.tc : Thread Cert.KernelIdeal.nD Cert.KernelIdeal.τ).loc Cert.KernelIdeal.main_arg3) := e3
  have a4 : launchContents m' c (Proc.devRef .tc Cert.ReferenceIdeal.main_arg4) = m ((c.tc : Thread Cert.KernelIdeal.nD Cert.KernelIdeal.τ).loc Cert.KernelIdeal.main_arg4) := e4
  have a5 : launchContents m' c (Proc.devRef .tc Cert.ReferenceIdeal.main_arg5) = m ((c.tc : Thread Cert.KernelIdeal.nD Cert.KernelIdeal.τ).loc Cert.KernelIdeal.main_arg5) := e5
  have a6 : launchContents m' c (Proc.devRef .tc Cert.ReferenceIdeal.main_arg6) = m ((c.tc : Thread Cert.KernelIdeal.nD Cert.KernelIdeal.τ).loc Cert.KernelIdeal.main_arg6) := e6
  -- both folds to closed terms; the kernel's stops at the regions' outputs
  simp (disch := decide) only [Cert.KernelIdeal.Gen.W17, after_cons, after_nil,
      nullary_result', unary_result', binary_result', ternary_result',
      nullary_result_ne', unary_result_ne', binary_result_ne', ternary_result_ne',
      W14_ne, W14_v48_0, W14_v48_1, W14_v48_2, W1_ne, W1_v0_0, W1_v0_1, W0_eq]
  -- the reference's arguments are the kernel's; the two trees then agree up to transports along equations true by computation
  try simp only [a0, a1, a2, a3, a4, a5, a6]
  try rfl

end Results

/-! ## The reference's arguments end as launched -/

set_option maxHeartbeats 4000000 in
/-- No operation of the reference writes argument 0: the fold leaves it at its launch contents. -/
theorem ref_arg0 (m' : (ℓ : Loc Cert.ReferenceIdeal.nD Cert.ReferenceIdeal.τ Cert.ReferenceIdeal.sig) → Buf (Elt Ideal) ℓ) (c : Dev Cert.ReferenceIdeal.nD) :
    after (Cert.ReferenceIdeal.HandRun.ops (F := Ideal)) (launchContents m' c) (Proc.devRef .tc Cert.ReferenceIdeal.main_arg0) = m' ((c.tc : Thread Cert.ReferenceIdeal.nD Cert.ReferenceIdeal.τ).loc Cert.ReferenceIdeal.main_arg0) := by
  after_results_simp

set_option maxHeartbeats 4000000 in
/-- No operation of the reference writes argument 1: the fold leaves it at its launch contents. -/
theorem ref_arg1 (m' : (ℓ : Loc Cert.ReferenceIdeal.nD Cert.ReferenceIdeal.τ Cert.ReferenceIdeal.sig) → Buf (Elt Ideal) ℓ) (c : Dev Cert.ReferenceIdeal.nD) :
    after (Cert.ReferenceIdeal.HandRun.ops (F := Ideal)) (launchContents m' c) (Proc.devRef .tc Cert.ReferenceIdeal.main_arg1) = m' ((c.tc : Thread Cert.ReferenceIdeal.nD Cert.ReferenceIdeal.τ).loc Cert.ReferenceIdeal.main_arg1) := by
  after_results_simp

set_option maxHeartbeats 4000000 in
/-- No operation of the reference writes argument 2: the fold leaves it at its launch contents. -/
theorem ref_arg2 (m' : (ℓ : Loc Cert.ReferenceIdeal.nD Cert.ReferenceIdeal.τ Cert.ReferenceIdeal.sig) → Buf (Elt Ideal) ℓ) (c : Dev Cert.ReferenceIdeal.nD) :
    after (Cert.ReferenceIdeal.HandRun.ops (F := Ideal)) (launchContents m' c) (Proc.devRef .tc Cert.ReferenceIdeal.main_arg2) = m' ((c.tc : Thread Cert.ReferenceIdeal.nD Cert.ReferenceIdeal.τ).loc Cert.ReferenceIdeal.main_arg2) := by
  after_results_simp

set_option maxHeartbeats 4000000 in
/-- No operation of the reference writes argument 3: the fold leaves it at its launch contents. -/
theorem ref_arg3 (m' : (ℓ : Loc Cert.ReferenceIdeal.nD Cert.ReferenceIdeal.τ Cert.ReferenceIdeal.sig) → Buf (Elt Ideal) ℓ) (c : Dev Cert.ReferenceIdeal.nD) :
    after (Cert.ReferenceIdeal.HandRun.ops (F := Ideal)) (launchContents m' c) (Proc.devRef .tc Cert.ReferenceIdeal.main_arg3) = m' ((c.tc : Thread Cert.ReferenceIdeal.nD Cert.ReferenceIdeal.τ).loc Cert.ReferenceIdeal.main_arg3) := by
  after_results_simp

set_option maxHeartbeats 4000000 in
/-- No operation of the reference writes argument 4: the fold leaves it at its launch contents. -/
theorem ref_arg4 (m' : (ℓ : Loc Cert.ReferenceIdeal.nD Cert.ReferenceIdeal.τ Cert.ReferenceIdeal.sig) → Buf (Elt Ideal) ℓ) (c : Dev Cert.ReferenceIdeal.nD) :
    after (Cert.ReferenceIdeal.HandRun.ops (F := Ideal)) (launchContents m' c) (Proc.devRef .tc Cert.ReferenceIdeal.main_arg4) = m' ((c.tc : Thread Cert.ReferenceIdeal.nD Cert.ReferenceIdeal.τ).loc Cert.ReferenceIdeal.main_arg4) := by
  after_results_simp

set_option maxHeartbeats 4000000 in
/-- No operation of the reference writes argument 5: the fold leaves it at its launch contents. -/
theorem ref_arg5 (m' : (ℓ : Loc Cert.ReferenceIdeal.nD Cert.ReferenceIdeal.τ Cert.ReferenceIdeal.sig) → Buf (Elt Ideal) ℓ) (c : Dev Cert.ReferenceIdeal.nD) :
    after (Cert.ReferenceIdeal.HandRun.ops (F := Ideal)) (launchContents m' c) (Proc.devRef .tc Cert.ReferenceIdeal.main_arg5) = m' ((c.tc : Thread Cert.ReferenceIdeal.nD Cert.ReferenceIdeal.τ).loc Cert.ReferenceIdeal.main_arg5) := by
  after_results_simp

set_option maxHeartbeats 4000000 in
/-- No operation of the reference writes argument 6: the fold leaves it at its launch contents. -/
theorem ref_arg6 (m' : (ℓ : Loc Cert.ReferenceIdeal.nD Cert.ReferenceIdeal.τ Cert.ReferenceIdeal.sig) → Buf (Elt Ideal) ℓ) (c : Dev Cert.ReferenceIdeal.nD) :
    after (Cert.ReferenceIdeal.HandRun.ops (F := Ideal)) (launchContents m' c) (Proc.devRef .tc Cert.ReferenceIdeal.main_arg6) = m' ((c.tc : Thread Cert.ReferenceIdeal.nD Cert.ReferenceIdeal.τ).loc Cert.ReferenceIdeal.main_arg6) := by
  after_results_simp

/-! ## All six -/

/-- The reference's six results are the kernel's six, position by position, given the two regions' outputs: the
    first region's two outputs the sums of `arg2` and `arg3` over axis 1, the second's three the reference's own three
    time-axis sums of the balanced cross-entropy terms. -/
theorem results_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hr0 : Cert.KernelIdeal.S64x200x2048.ReducesTo [1] Cert.KernelIdeal.S64x2048) (hs : 0 < Cert.KernelIdeal.S_.numel)
    (hb : Cert.BceSpec.S0.BroadcastsInDim Cert.BceSpec.SA (![] : Fin 0 → Fin Cert.BceSpec.SA.rank)) (hr : Cert.BceSpec.SA.ReducesTo [1] Cert.BceSpec.SO)
    (h02 : (Cert.KernelIdeal.Gen.dat0 (F := Ideal) (Cert.KernelIdeal.Gen.V0 m ρ) c).arrAt 2 Cert.KernelIdeal.cfg0.N = Host.reduceAdd (F := Ideal) (Cert.KernelIdeal.Gen.V0 m ρ c Cert.KernelIdeal.main_arg2) (constant (F := Ideal) Cert.KernelIdeal.S_ .f32 0x00000000#32) hr0 hs)
    (h03 : (Cert.KernelIdeal.Gen.dat0 (F := Ideal) (Cert.KernelIdeal.Gen.V0 m ρ) c).arrAt 3 Cert.KernelIdeal.cfg0.N = Host.reduceAdd (F := Ideal) (Cert.KernelIdeal.Gen.V0 m ρ c Cert.KernelIdeal.main_arg3) (constant (F := Ideal) Cert.KernelIdeal.S_ .f32 0x00000000#32) hr0 hs)
    (h12 : (Cert.KernelIdeal.Gen.dat1 (F := Ideal) (Cert.KernelIdeal.Gen.V13 m ρ) c).arrAt 2 Cert.KernelIdeal.cfg1.N = Cert.BceSpec.posSum hb hr hs (Cert.KernelIdeal.Gen.V13 m ρ c Cert.KernelIdeal.main_arg5) (Cert.KernelIdeal.Gen.V13 m ρ c Cert.KernelIdeal.main_arg6))
    (h13 : (Cert.KernelIdeal.Gen.dat1 (F := Ideal) (Cert.KernelIdeal.Gen.V13 m ρ) c).arrAt 3 Cert.KernelIdeal.cfg1.N = Cert.BceSpec.negSum hb hr hs (Cert.KernelIdeal.Gen.V13 m ρ c Cert.KernelIdeal.main_arg5) (Cert.KernelIdeal.Gen.V13 m ρ c Cert.KernelIdeal.main_arg6))
    (h14 : (Cert.KernelIdeal.Gen.dat1 (F := Ideal) (Cert.KernelIdeal.Gen.V13 m ρ) c).arrAt 4 Cert.KernelIdeal.cfg1.N = Cert.BceSpec.cntSum hb hr hs (Cert.KernelIdeal.Gen.V13 m ρ c Cert.KernelIdeal.main_arg5)) :
    after (Cert.ReferenceIdeal.HandRun.ops (F := Ideal)) (launchContents m' c) (Proc.devRef .tc Cert.ReferenceIdeal.main_v91) = Cert.KernelIdeal.Gen.W17 m ρ c (Proc.devRef .tc Cert.KernelIdeal.main_v76)
    ∧ after (Cert.ReferenceIdeal.HandRun.ops (F := Ideal)) (launchContents m' c) (Proc.devRef .tc Cert.ReferenceIdeal.main_v17) = Cert.KernelIdeal.Gen.W17 m ρ c (Proc.devRef .tc Cert.KernelIdeal.main_v32)
    ∧ after (Cert.ReferenceIdeal.HandRun.ops (F := Ideal)) (launchContents m' c) (Proc.devRef .tc Cert.ReferenceIdeal.main_v32) = Cert.KernelIdeal.Gen.W17 m ρ c (Proc.devRef .tc Cert.KernelIdeal.main_v47)
    ∧ after (Cert.ReferenceIdeal.HandRun.ops (F := Ideal)) (launchContents m' c) (Proc.devRef .tc Cert.ReferenceIdeal.main_v48) = Cert.KernelIdeal.Gen.W17 m ρ c (Proc.devRef .tc Cert.KernelIdeal.main_v14)
    ∧ after (Cert.ReferenceIdeal.HandRun.ops (F := Ideal)) (launchContents m' c) (Proc.devRef .tc Cert.ReferenceIdeal.main_v84) = Cert.KernelIdeal.Gen.W17 m ρ c (Proc.devRef .tc Cert.KernelIdeal.main_v69)
    ∧ after (Cert.ReferenceIdeal.HandRun.ops (F := Ideal)) (launchContents m' c) (Proc.devRef .tc Cert.ReferenceIdeal.main_v85) = Cert.KernelIdeal.Gen.W17 m ρ c (Proc.devRef .tc Cert.KernelIdeal.main_v70) :=
  ⟨res_v91 m ρ m' c hagree hr0 hs hb hr h02 h03 h12 h13 h14, res_v17 m ρ m' c hagree, res_v32 m ρ m' c hagree,
    res_v48 m ρ m' c hagree hr0 hs h02 h03, res_v84 m ρ m' c hagree hs hb hr h12 h13 h14, res_v85 m ρ m' c hagree⟩

end Cert.Bridge

end
-- ==== Proof.lean ====
/-
  The kernel against its reference, over the extended reals.

  The kernel computes the loss in two pallas_calls with plain host arithmetic around them: the first sums the two
  feature arrays over their middle axis, tile by tile (16 independent tiles); the second accumulates, per batch row
  block and over four time tiles, the three masked sums of the balanced cross-entropy term into resident blocks that
  are zeroed at the first tile and written back after the last. The reference computes the same five arrays as whole
  host reductions. On the extended reals a sum does not depend on how it is tiled or grouped, and the kernel's pointwise
  spellings (0 - x for -x, a signed conversion of the zero-extended comparison bit, an ordered self-comparison as the
  guard of softplus) denote what the reference's spellings denote, so the five arrays are equal; everything after
  them is the same host arithmetic on both sides, operation for operation.

  The modules: the reference's run as the fold of its host operations (RefRun); the kernel's run with every buffer
  named at the fold of its host stretches and its two regions' write-backs (KernelRun); the first region's two output
  arrays as the reference's reduction of the arguments (FeatSum); the second region's three output arrays as the
  reference's three sums (BcePieces, BceAccum, BceBlocks, over the specification BceSpec), both over the middle-axis
  sum that a tile's lane reduction and the host's reduction meet (LibMidAxisSum); and the comparison of the two
  folds, result by result, given those five arrays (Bridge). No ledger entry: the idealized kernel is the kernel's own
  text read at the exact instance. The claim needs no finiteness of the inputs: only the commutative-monoid laws of
  addition and identities true of every extended real are used.
-/
import proofs.«172086_j1142461301395_2_alg».proof.Defs
import proofs.«172086_j1142461301395_2_alg».proof.Proof.Gen.Kernel
import proofs.«172086_j1142461301395_2_alg».proof.Proof.Gen.Kernel.Frame
import proofs.«172086_j1142461301395_2_alg».proof.Proof.Gen.KernelIdeal
import proofs.«172086_j1142461301395_2_alg».proof.Proof.Gen.KernelIdeal.Frame
import proofs.«172086_j1142461301395_2_alg».proof.Proof.Gen.ReferenceIdeal
import proofs.«172086_j1142461301395_2_alg».proof.Proof.Gen.Pre_finite_inputs
import proofs.«172086_j1142461301395_2_alg».proof.Proof.RefRun
import proofs.«172086_j1142461301395_2_alg».proof.Proof.KernelRun
import proofs.«172086_j1142461301395_2_alg».proof.Proof.FeatSum
import proofs.«172086_j1142461301395_2_alg».proof.Proof.BceAccum
import proofs.«172086_j1142461301395_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run is the fold of its operations, none of which writes an argument. -/
theorem frame_ri : Cert.frame_ReferenceIdeal := fun m ρ _ =>
  (θ_run Cert.ReferenceIdeal.defs _ _).mono (fun _ h c =>
      ⟨(h c Cert.ReferenceIdeal.main_arg0).trans (Cert.Bridge.ref_arg0 m c), (h c Cert.ReferenceIdeal.main_arg1).trans (Cert.Bridge.ref_arg1 m c),
       (h c Cert.ReferenceIdeal.main_arg2).trans (Cert.Bridge.ref_arg2 m c), (h c Cert.ReferenceIdeal.main_arg3).trans (Cert.Bridge.ref_arg3 m c),
       (h c Cert.ReferenceIdeal.main_arg4).trans (Cert.Bridge.ref_arg4 m c), (h c Cert.ReferenceIdeal.main_arg5).trans (Cert.Bridge.ref_arg5 m c),
       (h c Cert.ReferenceIdeal.main_arg6).trans (Cert.Bridge.ref_arg6 m c)⟩)
    (Cert.ReferenceIdeal.HandRun.run_main (F := Ideal) m ρ)

/-- The ideal pass rewrote nothing. -/
theorem preserves : Cert.preserves_Kernel_KernelIdeal := trivial

/-- Both idealized programs run, and their six results are equal: the kernel's are the final contents of its fold, the
    reference's the fold of its operations, and the two folds agree result by result once the five arrays the
    pallas_calls leave are the reference's reductions of the (agreeing) arguments. -/
theorem algebraic : Cert.algebraic_KernelIdeal_ReferenceIdeal := by
  intro m ρ m' ρ' _ hagree
  refine ⟨fun c => Cert.KernelIdeal.Gen.W17 m ρ c (Proc.devRef .tc Cert.KernelIdeal.main_v76), fun c => Cert.KernelIdeal.Gen.W17 m ρ c (Proc.devRef .tc Cert.KernelIdeal.main_v32),
    fun c => Cert.KernelIdeal.Gen.W17 m ρ c (Proc.devRef .tc Cert.KernelIdeal.main_v47), fun c => Cert.KernelIdeal.Gen.W17 m ρ c (Proc.devRef .tc Cert.KernelIdeal.main_v14),
    fun c => Cert.KernelIdeal.Gen.W17 m ρ c (Proc.devRef .tc Cert.KernelIdeal.main_v69), fun c => Cert.KernelIdeal.Gen.W17 m ρ c (Proc.devRef .tc Cert.KernelIdeal.main_v70), ?_, ?_⟩
  · exact (θ_run Cert.KernelIdeal.defs _ _).mono (fun _ h c =>
      ⟨h c Cert.KernelIdeal.main_v76 (by decide), h c Cert.KernelIdeal.main_v32 (by decide), h c Cert.KernelIdeal.main_v47 (by decide),
        h c Cert.KernelIdeal.main_v14 (by decide), h c Cert.KernelIdeal.main_v69 (by decide), h c Cert.KernelIdeal.main_v70 (by decide),
        (h c Cert.KernelIdeal.main_arg0 (by decide)).trans (Cert.KernelIdeal.Gen.W17_main_arg0 m ρ c),
        (h c Cert.KernelIdeal.main_arg1 (by decide)).trans (Cert.KernelIdeal.Gen.W17_main_arg1 m ρ c),
        (h c Cert.KernelIdeal.main_arg2 (by decide)).trans (Cert.KernelIdeal.Gen.W17_main_arg2 m ρ c),
        (h c Cert.KernelIdeal.main_arg3 (by decide)).trans (Cert.KernelIdeal.Gen.W17_main_arg3 m ρ c),
        (h c Cert.KernelIdeal.main_arg4 (by decide)).trans (Cert.KernelIdeal.Gen.W17_main_arg4 m ρ c),
        (h c Cert.KernelIdeal.main_arg5 (by decide)).trans (Cert.KernelIdeal.Gen.W17_main_arg5 m ρ c),
        (h c Cert.KernelIdeal.main_arg6 (by decide)).trans (Cert.KernelIdeal.Gen.W17_main_arg6 m ρ c)⟩)
      (Cert.KernelIdeal.HandRun.run_at (F := Ideal) m ρ)
  · refine (θ_run Cert.ReferenceIdeal.defs _ _).mono (fun _ h c => ?_) (Cert.ReferenceIdeal.HandRun.run_main (F := Ideal) m' ρ')
    obtain ⟨e0, e1, e2, e3, e4, e5⟩ := Cert.Bridge.results_eq m ρ m' c (hagree c)
      Cert.ReferenceIdeal.Gen.reducesTo_S64x200x2048_S64x2048_d1 Cert.ReferenceIdeal.Gen.h_S_ Cert.ReferenceIdeal.Gen.bcast_S_S64x2048x20 Cert.ReferenceIdeal.Gen.reducesTo_S64x2048x20_S64x20_d1
      (Cert.KernelIdeal.FeatSum.final0_2 (Cert.KernelIdeal.Gen.V0 m ρ) c _ _) (Cert.KernelIdeal.FeatSum.final0_3 (Cert.KernelIdeal.Gen.V0 m ρ) c _ _)
      (Cert.KernelIdeal.BceSum.final_pos _ (Cert.KernelIdeal.Gen.V13 m ρ) c _ _) (Cert.KernelIdeal.BceSum.final_neg _ (Cert.KernelIdeal.Gen.V13 m ρ) c _ _)
      (Cert.KernelIdeal.BceSum.final_cnt _ (Cert.KernelIdeal.Gen.V13 m ρ) c _ _)
    exact ⟨(h c Cert.ReferenceIdeal.main_v91).trans e0, (h c Cert.ReferenceIdeal.main_v17).trans e1, (h c Cert.ReferenceIdeal.main_v32).trans e2,
      (h c Cert.ReferenceIdeal.main_v48).trans e3, (h c Cert.ReferenceIdeal.main_v84).trans e4, (h c Cert.ReferenceIdeal.main_v85).trans e5,
      (h c Cert.ReferenceIdeal.main_arg0).trans (Cert.Bridge.ref_arg0 m' c), (h c Cert.ReferenceIdeal.main_arg1).trans (Cert.Bridge.ref_arg1 m' c),
      (h c Cert.ReferenceIdeal.main_arg2).trans (Cert.Bridge.ref_arg2 m' c), (h c Cert.ReferenceIdeal.main_arg3).trans (Cert.Bridge.ref_arg3 m' c),
      (h c Cert.ReferenceIdeal.main_arg4).trans (Cert.Bridge.ref_arg4 m' c), (h c Cert.ReferenceIdeal.main_arg5).trans (Cert.Bridge.ref_arg5 m' c),
      (h c Cert.ReferenceIdeal.main_arg6).trans (Cert.Bridge.ref_arg6 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
